-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S8192 : Shape := ⟨1, ![8192]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64x32 .f32) (main_arg12 : FVec F S32 .f32) (main_arg15 : FVec F S1600000 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg11
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S1600000 .f32 := Host.absf main_arg15
  let main_cst_24 : FVec F S_ .f32 := constant S_ .f32 0x7F800000#32
  let main_v65 : FVec F S1600000 .f32 := broadcastInDim S1600000 ![] bcast_S_S1600000 main_cst_24
  let main_v66 : IVec S1600000 1 := cmpf .olt main_v64 main_v65
  let main_c_25 : IVec S_ 1 := constantI S_ 1 1#1
  let main_v67 : IVec S_ 1 := (fun x v => Host.reduce IntOp.andi x v reducesTo_S1600000_S_d0 h_S_) main_v66 main_c_25
  fn_part4 (F := F) main_v63 main_v67

def fn_part2 {F : FTy → Type} [FloatOps F] (main_arg7 : FVec F S128x64 .f32) (main_arg8 : FVec F S64 .f32) (main_arg9 : FVec F S64x32 .f32) (main_arg10 : FVec F S32 .f32) (main_arg11 : FVec F S64x32 .f32) (main_arg12 : FVec F S32 .f32) (main_arg15 : FVec F S1600000 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg15 main_v48 main_v49 main_v50

def fn_part1 {F : FTy → Type} [FloatOps F] (main_arg4 : FVec F S128 .f32) (main_arg5 : FVec F S128x64 .f32) (main_arg6 : FVec F S64 .f32) (main_arg7 : FVec F S128x64 .f32) (main_arg8 : FVec F S64 .f32) (main_arg9 : FVec F S64x32 .f32) (main_arg10 : FVec F S32 .f32) (main_arg11 : FVec F S64x32 .f32) (main_arg12 : FVec F S32 .f32) (main_arg15 : FVec F S1600000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg15 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : FVec F S128x64 .f32) (main_arg8 : FVec F S64 .f32) (main_arg9 : FVec F S64x32 .f32) (main_arg10 : FVec F S32 .f32) (main_arg11 : FVec F S64x32 .f32) (main_arg12 : FVec F S32 .f32) (main_arg13 : IVec S1600000 32) (main_arg14 : IVec S1600000 32) (main_arg15 : FVec F S1600000 .f32) (main_arg16 : IVec S8192 32) (main_arg17 : IVec S8192 32) (main_arg18 : IVec S8192 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg15 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S8192 : Shape := ⟨1, ![8192]⟩
abbrev S1600000x1 : Shape := ⟨2, ![1600000, 1]⟩
abbrev S_ : Shape := ⟨0, ![]⟩
abbrev S1600000x128 : Shape := ⟨2, ![1600000, 128]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩
abbrev S100000x64 : Shape := ⟨2, ![100000, 64]⟩
abbrev S2000x64 : Shape := ⟨2, ![2000, 64]⟩
abbrev S1x64 : Shape := ⟨2, ![1, 64]⟩
abbrev S1600000x64 : Shape := ⟨2, ![1600000, 64]⟩
abbrev S100000x32 : Shape := ⟨2, ![100000, 32]⟩
abbrev S2000x32 : Shape := ⟨2, ![2000, 32]⟩
abbrev S1x32 : Shape := ⟨2, ![1, 32]⟩
abbrev S100000x352 : Shape := ⟨2, ![100000, 352]⟩
abbrev S8192x1 : Shape := ⟨2, ![8192, 1]⟩
abbrev S8192x352 : Shape := ⟨2, ![8192, 352]⟩

abbrev nBuf : Space → Nat
  | .hbm => 164
  | .vmem => 36
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S64x32, .f32⟩
  | 10 => ⟨S32, .f32⟩
  | 11 => ⟨S64x32, .f32⟩
  | 12 => ⟨S32, .f32⟩
  | 13 => ⟨S1600000, .i32⟩
  | 14 => ⟨S1600000, .i32⟩
  | 15 => ⟨S1600000, .f32⟩
  | 16 => ⟨S8192, .i32⟩
  | 17 => ⟨S8192, .i32⟩
  | 18 => ⟨S8192, .i32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x128, .f32⟩
  | 37 => ⟨S1600000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S1600000x128, .f32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S100000x64, .f32⟩
  | 54 => ⟨S100000x64, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x32, .f32⟩
  | 72 => ⟨S100000x32, .f32⟩
  | 73 => ⟨S100000x352, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x352, .f32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192x352, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x352, .f32⟩
  | 101 => ⟨S8192x352, .f32⟩
  | 102 => ⟨S_, .f32⟩
  | 103 => ⟨S8192, .f32⟩
  | 104 => ⟨S8192x352, .f32⟩
  | 105 => ⟨S_, .f32⟩
  | 106 => ⟨S8192, .f32⟩
  | 107 => ⟨S8192, .f32⟩
  | 108 => ⟨S8192, .f32⟩
  | 109 => ⟨S_, .f32⟩
  | 110 => ⟨S8192, .f32⟩
  | 111 => ⟨S8192, .f32⟩
  | 112 => ⟨S8192, .f32⟩
  | 113 => ⟨S8192, .f32⟩
  | 114 => ⟨S8192, .i1⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S8192x352, .f32⟩
  | 2 => ⟨S_, .f32⟩
  | 3 => ⟨S8192, .f32⟩
  | 4 => ⟨S_, .f32⟩
  | 5 => ⟨S8192, .f32⟩
  | 6 => ⟨S8192, .f32⟩
  | 7 => ⟨S_, .f32⟩
  | 8 => ⟨S_, .f32⟩
  | 9 => ⟨S_, .f32⟩
  | 10 => ⟨S_, .f32⟩
  | 11 => ⟨S8192x352, .f32⟩
  | 12 => ⟨S_, .f32⟩
  | 13 => ⟨S8192, .f32⟩
  | 14 => ⟨S_, .f32⟩
  | 15 => ⟨S8192, .f32⟩
  | 16 => ⟨S8192, .f32⟩
  | 17 => ⟨S_, .f32⟩
  | 18 => ⟨S_, .f32⟩
  | 19 => ⟨S_, .f32⟩
  | 20 => ⟨S_, .f32⟩
  | 21 => ⟨S_, .f32⟩
  | 22 => ⟨S8192x352, .f32⟩
  | 23 => ⟨S_, .f32⟩
  | 24 => ⟨S8192, .f32⟩
  | 25 => ⟨S_, .f32⟩
  | 26 => ⟨S8192, .f32⟩
  | 27 => ⟨S8192, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S64, .f32⟩
  | .local _ .vmem, ⟨18, _⟩ => ⟨S128x64, .f32⟩
  | .local _ .vmem, ⟨19, _⟩ => ⟨S64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x32, .f32⟩
  | .local _ .vmem, ⟨29, _⟩ => ⟨S32, .f32⟩
  | .local _ .vmem, ⟨30, _⟩ => ⟨S64x32, .f32⟩
  | .local _ .vmem, ⟨31, _⟩ => ⟨S32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13_0 : Ref sig .tc := ⟨.hbm, 35, rfl⟩
abbrev main_v13_1 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41_0 : Ref sig .tc := ⟨.hbm, 71, rfl⟩
abbrev main_v41_1 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_c_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_9 : Ref sig .tc := ⟨.hbm, 83, rfl⟩
abbrev main_v50 : Ref sig .tc := ⟨.hbm, 84, rfl⟩
abbrev main_v51 : Ref sig .tc := ⟨.hbm, 85, rfl⟩
abbrev main_c_10 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_v57 : Ref sig .tc := ⟨.hbm, 93, rfl⟩
abbrev main_v58 : Ref sig .tc := ⟨.hbm, 94, rfl⟩
abbrev main_c_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_call0_v0 : Ref sig .tc := ⟨.hbm, 108, rfl⟩
abbrev main_call0_call0_cst : Ref sig .tc := ⟨.hbm, 109, rfl⟩
abbrev main_call0_call0_v0 : Ref sig .tc := ⟨.hbm, 110, rfl⟩
abbrev main_call0_call0_v1 : Ref sig .tc := ⟨.hbm, 111, rfl⟩
abbrev main_call0_call0_v2 : Ref sig .tc := ⟨.hbm, 112, rfl⟩
abbrev main_call0_call0_v3 : Ref sig .tc := ⟨.hbm, 113, rfl⟩
abbrev main_call0_call0_v4 : Ref sig .tc := ⟨.hbm, 114, rfl⟩
abbrev main_call0_call0_v5 : Ref sig .tc := ⟨.hbm, 115, rfl⟩
abbrev main_call0_call0_v6 : Ref sig .tc := ⟨.hbm, 116, rfl⟩
abbrev main_call0_call0_v7 : Ref sig .tc := ⟨.hbm, 117, rfl⟩
abbrev main_call0_call0_v8 : Ref sig .tc := ⟨.hbm, 118, rfl⟩
abbrev main_call0_call0_v9 : Ref sig .tc := ⟨.hbm, 119, rfl⟩
abbrev main_call0_call0_v10 : Ref sig .tc := ⟨.hbm, 120, rfl⟩
abbrev main_call0_call0_v11 : Ref sig .tc := ⟨.hbm, 121, rfl⟩
abbrev main_call0_v1 : Ref sig .tc := ⟨.hbm, 122, rfl⟩
abbrev main_v69 : Ref sig .tc := ⟨.hbm, 123, rfl⟩
abbrev main_v70 : Ref sig .tc := ⟨.hbm, 124, rfl⟩
abbrev main_cst_15 : Ref sig .tc := ⟨.hbm, 125, rfl⟩
abbrev main_v71 : Ref sig .tc := ⟨.hbm, 126, rfl⟩
abbrev main_cst_16 : Ref sig .tc := ⟨.hbm, 127, rfl⟩
abbrev main_v72 : Ref sig .tc := ⟨.hbm, 128, rfl⟩
abbrev main_v73 : Ref sig .tc := ⟨.hbm, 129, rfl⟩
abbrev main_cst_17 : Ref sig .tc := ⟨.hbm, 130, rfl⟩
abbrev main_v74 : Ref sig .tc := ⟨.hbm, 131, rfl⟩
abbrev main_cst_18 : Ref sig .tc := ⟨.hbm, 132, rfl⟩
abbrev main_v75 : Ref sig .tc := ⟨.hbm, 133, rfl⟩
abbrev main_v76 : Ref sig .tc := ⟨.hbm, 134, rfl⟩
abbrev main_cst_19 : Ref sig .tc := ⟨.hbm, 135, rfl⟩
abbrev main_v77 : Ref sig .tc := ⟨.hbm, 136, rfl⟩
abbrev main_cst_20 : Ref sig .tc := ⟨.hbm, 137, rfl⟩
abbrev main_v78 : Ref sig .tc := ⟨.hbm, 138, rfl⟩
abbrev main_v79 : Ref sig .tc := ⟨.hbm, 139, rfl⟩
abbrev main_cst_21 : Ref sig .tc := ⟨.hbm, 140, rfl⟩
abbrev main_v80 : Ref sig .tc := ⟨.hbm, 141, rfl⟩
abbrev main_cst_22 : Ref sig .tc := ⟨.hbm, 142, rfl⟩
abbrev main_v81 : Ref sig .tc := ⟨.hbm, 143, rfl⟩
abbrev main_v82 : Ref sig .tc := ⟨.hbm, 144, rfl⟩
abbrev main_cst_23 : Ref sig .tc := ⟨.hbm, 145, rfl⟩
abbrev main_v83 : Ref sig .tc := ⟨.hbm, 146, rfl⟩
abbrev main_cst_24 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_25 : Ref sig .tc := ⟨.hbm, 151, rfl⟩
abbrev main_v87 : Ref sig .tc := ⟨.hbm, 152, rfl⟩
abbrev main_cst_26 : Ref sig .tc := ⟨.hbm, 153, rfl⟩
abbrev main_v88 : Ref sig .tc := ⟨.hbm, 154, rfl⟩
abbrev main_v89 : Ref sig .tc := ⟨.hbm, 155, rfl⟩
abbrev main_cst_27 : Ref sig .tc := ⟨.hbm, 156, rfl⟩
abbrev main_v90 : Ref sig .tc := ⟨.hbm, 157, rfl⟩
abbrev main_cst_28 : Ref sig .tc := ⟨.hbm, 158, rfl⟩
abbrev main_v91 : Ref sig .tc := ⟨.hbm, 159, rfl⟩
abbrev main_v92 : Ref sig .tc := ⟨.hbm, 160, rfl⟩
abbrev main_cst_29 : Ref sig .tc := ⟨.hbm, 161, rfl⟩
abbrev main_v93 : Ref sig .tc := ⟨.hbm, 162, rfl⟩
abbrev main_v94 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  reduces_S2000x32_S2000 : S2000x32.Reduces [1] S2000
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  concatenates_S100000x128_S100000x128_S100000x64_S100000x32_S100000x352_d1 : Shape.Concatenates [S100000x128, S100000x128, S100000x64, S100000x32] S100000x352 1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x352_S8192_d1 : S8192x352.ReducesTo [1] S8192
  h_S_ : 0 < S_.numel
  reducesTo_S8192_S_d0 : S8192.ReducesTo [0] S_
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x32_S2000x32_1_0_0_1_n_n_wf : DotDims.WF S2000x64 S64x32 S2000x32 [1] [0] [0] [1] [] []
  gather_S100000x352_S8192x1_S8192x352_1_0_n_n_0_1_1352_wf : GatherDims.WF S100000x352 S8192x1 S8192x352 [1] [0] [] [0] [] 1 ![1, 352]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x32.size a ≤ S100000x32.size a
  hwx2_6 : ∀ i : grid2.Coords, EltTy.bits .f32 = 32 ∨ (Rect.block (s := S100000x32) S2000x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x32.size a ≤ S100000x32.size a
  hwx2_7 : ∀ i : grid2.Coords, EltTy.bits .f32 = 32 ∨ (Rect.block (s := S100000x32) S2000x32.size (cc2_transform_7 i) (hinb2_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x352_S8192x1_S8192x352_1_0_n_n_0_1_1352 : GatherDims S100000x352 S8192x1 S8192x352 where
  offsetDims := [1]
  collapsedSliceDims := [0]
  operandBatchingDims := []
  startIndicesBatchingDims := []
  startIndexMap := [0]
  indexVectorDim := 1
  sliceSizes := ![1, 352]
  wf := gather_S100000x352_S8192x1_S8192x352_1_0_n_n_0_1_1352_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S2000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41_0) S2000x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v41_1) S2000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1600000 : Shape := ⟨1, ![1600000]⟩
abbrev S8192 : Shape := ⟨1, ![8192]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩
abbrev S100000x352 : Shape := ⟨2, ![100000, 352]⟩
abbrev S8192x1 : Shape := ⟨2, ![8192, 1]⟩
abbrev S8192x352 : Shape := ⟨2, ![8192, 352]⟩

abbrev nBuf : Space → Nat
  | .hbm => 263
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S64x32, .f32⟩
  | 10 => ⟨S32, .f32⟩
  | 11 => ⟨S64x32, .f32⟩
  | 12 => ⟨S32, .f32⟩
  | 13 => ⟨S1600000, .i32⟩
  | 14 => ⟨S1600000, .i32⟩
  | 15 => ⟨S1600000, .f32⟩
  | 16 => ⟨S8192, .i32⟩
  | 17 => ⟨S8192, .i32⟩
  | 18 => ⟨S8192, .i32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .i1⟩
  | 43 => ⟨S_, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S_, .f32⟩
  | 62 => ⟨S100000, .f32⟩
  | 63 => ⟨S100000x1, .f32⟩
  | 64 => ⟨S100000x1, .f32⟩
  | 65 => ⟨S_, .f32⟩
  | 66 => ⟨S100000x1, .f32⟩
  | 67 => ⟨S100000x1, .f32⟩
  | 68 => ⟨S100000x128, .f32⟩
  | 69 => ⟨S100000x128, .f32⟩
  | 70 => ⟨S1600000x1, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x128, .f32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000x128, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .i1⟩
  | 94 => ⟨S_, .f32⟩
  | 95 => ⟨S100000x64, .f32⟩
  | 96 => ⟨S100000x64, .f32⟩
  | 97 => ⟨S100000x64, .f32⟩
  | 98 => ⟨S100000x128, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .i1⟩
  | 106 => ⟨S_, .f32⟩
  | 107 => ⟨S100000x64, .f32⟩
  | 108 => ⟨S100000x64, .f32⟩
  | 109 => ⟨S100000x64, .f32⟩
  | 110 => ⟨S100000x64, .f32⟩
  | 111 => ⟨S100000x64, .f32⟩
  | 112 => ⟨S_, .f32⟩
  | 113 => ⟨S100000, .f32⟩
  | 114 => ⟨S100000x1, .f32⟩
  | 115 => ⟨S100000x1, .f32⟩
  | 116 => ⟨S_, .f32⟩
  | 117 => ⟨S100000x1, .f32⟩
  | 118 => ⟨S100000x1, .f32⟩
  | 119 => ⟨S100000x64, .f32⟩
  | 120 => ⟨S100000x64, .f32⟩
  | 121 => ⟨S1600000x1, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x64, .f32⟩
  | 3 => ⟨S1600000x64, .f32⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S100000x64, .f32⟩
  | 10 => ⟨S100000x32, .f32⟩
  | 11 => ⟨S1x32, .f32⟩
  | 12 => ⟨S100000x32, .f32⟩
  | 13 => ⟨S100000x32, .f32⟩
  | 14 => ⟨S_, .f32⟩
  | 15 => ⟨S100000x32, .f32⟩
  | 16 => ⟨S100000x32, .i1⟩
  | 17 => ⟨S_, .f32⟩
  | 18 => ⟨S100000x32, .f32⟩
  | 19 => ⟨S100000x32, .f32⟩
  | 20 => ⟨S100000x32, .f32⟩
  | 21 => ⟨S100000x64, .f32⟩
  | 22 => ⟨S100000x32, .f32⟩
  | 23 => ⟨S1x32, .f32⟩
  | 24 => ⟨S100000x32, .f32⟩
  | 25 => ⟨S100000x32, .f32⟩
  | 26 => ⟨S_, .f32⟩
  | 27 => ⟨S100000x32, .f32⟩
  | 28 => ⟨S100000x32, .i1⟩
  | 29 => ⟨S_, .f32⟩
  | 30 => ⟨S100000x32, .f32⟩
  | 31 => ⟨S100000x32, .f32⟩
  | 32 => ⟨S100000x32, .f32⟩
  | 33 => ⟨S100000x32, .f32⟩
  | 34 => ⟨S100000x32, .f32⟩
  | 35 => ⟨S_, .f32⟩
  | 36 => ⟨S100000, .f32⟩
  | 37 => ⟨S100000x1, .f32⟩
  | 38 => ⟨S100000x1, .f32⟩
  | 39 => ⟨S_, .f32⟩
  | 40 => ⟨S100000x1, .f32⟩
  | 41 => ⟨S100000x1, .f32⟩
  | 42 => ⟨S100000x32, .f32⟩
  | 43 => ⟨S100000x32, .f32⟩
  | 44 => ⟨S100000x352, .f32⟩
  | 45 => ⟨S_, .i32⟩
  | 46 => ⟨S8192, .i32⟩
  | 47 => ⟨S8192, .i1⟩
  | 48 => ⟨S_, .i32⟩
  | 49 => ⟨S8192, .i32⟩
  | 50 => ⟨S8192, .i32⟩
  | 51 => ⟨S8192, .i32⟩
  | 52 => ⟨S8192x1, .i32⟩
  | 53 => ⟨S8192x352, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x352, .f32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x352, .f32⟩
  | 72 => ⟨S8192x352, .f32⟩
  | 73 => ⟨S_, .f32⟩
  | 74 => ⟨S8192, .f32⟩
  | 75 => ⟨S8192x352, .f32⟩
  | 76 => ⟨S_, .f32⟩
  | 77 => ⟨S8192, .f32⟩
  | 78 => ⟨S8192, .f32⟩
  | 79 => ⟨S8192, .f32⟩
  | 80 => ⟨S_, .f32⟩
  | 81 => ⟨S8192, .f32⟩
  | 82 => ⟨S8192, .f32⟩
  | 83 => ⟨S8192, .f32⟩
  | 84 => ⟨S8192, .f32⟩
  | 85 => ⟨S8192, .i1⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S_, .f32⟩
  | 97 => ⟨S_, .f32⟩
  | 98 => ⟨S_, .f32⟩
  | 99 => ⟨S_, .f32⟩
  | 100 => ⟨S8192x352, .f32⟩
  | 101 => ⟨S_, .f32⟩
  | 102 => ⟨S8192, .f32⟩
  | 103 => ⟨S_, .f32⟩
  | 104 => ⟨S8192, .f32⟩
  | 105 => ⟨S8192, .f32⟩
  | 106 => ⟨S_, .f32⟩
  | 107 => ⟨S_, .f32⟩
  | 108 => ⟨S_, .f32⟩
  | 109 => ⟨S_, .f32⟩
  | 110 => ⟨S8192x352, .f32⟩
  | 111 => ⟨S_, .f32⟩
  | 112 => ⟨S8192, .f32⟩
  | 113 => ⟨S_, .f32⟩
  | 114 => ⟨S8192, .f32⟩
  | 115 => ⟨S8192, .f32⟩
  | 116 => ⟨S_, .f32⟩
  | 117 => ⟨S_, .f32⟩
  | 118 => ⟨S_, .f32⟩
  | 119 => ⟨S_, .f32⟩
  | 120 => ⟨S_, .f32⟩
  | 121 => ⟨S8192x352, .f32⟩
  | 122 => ⟨S_, .f32⟩
  | 123 => ⟨S8192, .f32⟩
  | 124 => ⟨S_, .f32⟩
  | 125 => ⟨S8192, .f32⟩
  | 126 => ⟨S8192, .f32⟩
  | 127 => ⟨S_, .f32⟩
  | _ => ⟨S100000x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_v24 : Ref sig .tc := ⟨.hbm, 58, rfl⟩
abbrev main_v25 : Ref sig .tc := ⟨.hbm, 59, rfl⟩
abbrev main_call2_v0 : Ref sig .tc := ⟨.hbm, 60, rfl⟩
abbrev main_call2_cst : Ref sig .tc := ⟨.hbm, 61, rfl⟩
abbrev main_call2_v1 : Ref sig .tc := ⟨.hbm, 62, rfl⟩
abbrev main_call2_v2 : Ref sig .tc := ⟨.hbm, 63, rfl⟩
abbrev main_v26 : Ref sig .tc := ⟨.hbm, 64, rfl⟩
abbrev main_cst_1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_2 : Ref sig .tc := ⟨.hbm, 71, rfl⟩
abbrev main_v32 : Ref sig .tc := ⟨.hbm, 72, rfl⟩
abbrev main_v33 : Ref sig .tc := ⟨.hbm, 73, rfl⟩
abbrev main_c_3 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_4 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_call3_cst : Ref sig .tc := ⟨.hbm, 91, rfl⟩
abbrev main_call3_v0 : Ref sig .tc := ⟨.hbm, 92, rfl⟩
abbrev main_call3_v1 : Ref sig .tc := ⟨.hbm, 93, rfl⟩
abbrev main_call3_cst_0 : Ref sig .tc := ⟨.hbm, 94, rfl⟩
abbrev main_call3_v2 : Ref sig .tc := ⟨.hbm, 95, rfl⟩
abbrev main_call3_v3 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_call4_cst : Ref sig .tc := ⟨.hbm, 103, rfl⟩
abbrev main_call4_v0 : Ref sig .tc := ⟨.hbm, 104, rfl⟩
abbrev main_call4_v1 : Ref sig .tc := ⟨.hbm, 105, rfl⟩
abbrev main_call4_cst_0 : Ref sig .tc := ⟨.hbm, 106, rfl⟩
abbrev main_call4_v2 : Ref sig .tc := ⟨.hbm, 107, rfl⟩
abbrev main_call4_v3 : Ref sig .tc := ⟨.hbm, 108, rfl⟩
abbrev main_v55 : Ref sig .tc := ⟨.hbm, 109, rfl⟩
abbrev main_v56 : Ref sig .tc := ⟨.hbm, 110, rfl⟩
abbrev main_call5_v0 : Ref sig .tc := ⟨.hbm, 111, rfl⟩
abbrev main_call5_cst : Ref sig .tc := ⟨.hbm, 112, rfl⟩
abbrev main_call5_v1 : Ref sig .tc := ⟨.hbm, 113, rfl⟩
abbrev main_call5_v2 : Ref sig .tc := ⟨.hbm, 114, rfl⟩
abbrev main_v57 : Ref sig .tc := ⟨.hbm, 115, rfl⟩
abbrev main_cst_5 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_c_6 : Ref sig .tc := ⟨.hbm, 122, rfl⟩
abbrev main_v63 : Ref sig .tc := ⟨.hbm, 123, rfl⟩
abbrev main_v64 : Ref sig .tc := ⟨.hbm, 124, rfl⟩
abbrev main_c_7 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_8 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_call6_cst : Ref sig .tc := ⟨.hbm, 142, rfl⟩
abbrev main_call6_v0 : Ref sig .tc := ⟨.hbm, 143, rfl⟩
abbrev main_call6_v1 : Ref sig .tc := ⟨.hbm, 144, rfl⟩
abbrev main_call6_cst_0 : Ref sig .tc := ⟨.hbm, 145, rfl⟩
abbrev main_call6_v2 : Ref sig .tc := ⟨.hbm, 146, rfl⟩
abbrev main_call6_v3 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_call7_cst : Ref sig .tc := ⟨.hbm, 154, rfl⟩
abbrev main_call7_v0 : Ref sig .tc := ⟨.hbm, 155, rfl⟩
abbrev main_call7_v1 : Ref sig .tc := ⟨.hbm, 156, rfl⟩
abbrev main_call7_cst_0 : Ref sig .tc := ⟨.hbm, 157, rfl⟩
abbrev main_call7_v2 : Ref sig .tc := ⟨.hbm, 158, rfl⟩
abbrev main_call7_v3 : Ref sig .tc := ⟨.hbm, 159, rfl⟩
abbrev main_v86 : Ref sig .tc := ⟨.hbm, 160, rfl⟩
abbrev main_v87 : Ref sig .tc := ⟨.hbm, 161, rfl⟩
abbrev main_call8_v0 : Ref sig .tc := ⟨.hbm, 162, rfl⟩
abbrev main_call8_cst : Ref sig .tc := ⟨.hbm, 163, rfl⟩
abbrev main_call8_v1 : Ref sig .tc := ⟨.hbm, 164, rfl⟩
abbrev main_call8_v2 : Ref sig .tc := ⟨.hbm, 165, rfl⟩
abbrev main_v88 : Ref sig .tc := ⟨.hbm, 166, rfl⟩
abbrev main_cst_9 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_c_10 : Ref sig .tc := ⟨.hbm, 173, rfl⟩
abbrev main_v94 : Ref sig .tc := ⟨.hbm, 174, rfl⟩
abbrev main_v95 : Ref sig .tc := ⟨.hbm, 175, rfl⟩
abbrev main_c_11 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_c_12 : Ref sig .tc := ⟨.hbm, 182, rfl⟩
abbrev main_v101 : Ref sig .tc := ⟨.hbm, 183, rfl⟩
abbrev main_v102 : Ref sig .tc := ⟨.hbm, 184, rfl⟩
abbrev main_c_13 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_c_14 : Ref sig .tc := ⟨.hbm, 191, rfl⟩
abbrev main_v108 : Ref sig .tc := ⟨.hbm, 192, rfl⟩
abbrev main_v109 : Ref sig .tc := ⟨.hbm, 193, rfl⟩
abbrev main_c_15 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_cst_16 : Ref sig .tc := ⟨.hbm, 201, rfl⟩
abbrev main_v116 : Ref sig .tc := ⟨.hbm, 202, rfl⟩
abbrev main_v117 : Ref sig .tc := ⟨.hbm, 203, rfl⟩
abbrev main_cst_17 : Ref sig .tc := ⟨.hbm, 204, rfl⟩
abbrev main_v118 : Ref sig .tc := ⟨.hbm, 205, rfl⟩
abbrev main_v119 : Ref sig .tc := ⟨.hbm, 206, rfl⟩
abbrev main_call9_v0 : Ref sig .tc := ⟨.hbm, 207, rfl⟩
abbrev main_call9_call0_cst : Ref sig .tc := ⟨.hbm, 208, rfl⟩
abbrev main_call9_call0_v0 : Ref sig .tc := ⟨.hbm, 209, rfl⟩
abbrev main_call9_call0_v1 : Ref sig .tc := ⟨.hbm, 210, rfl⟩
abbrev main_call9_call0_v2 : Ref sig .tc := ⟨.hbm, 211, rfl⟩
abbrev main_call9_call0_v3 : Ref sig .tc := ⟨.hbm, 212, rfl⟩
abbrev main_call9_call0_v4 : Ref sig .tc := ⟨.hbm, 213, rfl⟩
abbrev main_call9_call0_v5 : Ref sig .tc := ⟨.hbm, 214, rfl⟩
abbrev main_call9_call0_v6 : Ref sig .tc := ⟨.hbm, 215, rfl⟩
abbrev main_call9_call0_v7 : Ref sig .tc := ⟨.hbm, 216, rfl⟩
abbrev main_call9_call0_v8 : Ref sig .tc := ⟨.hbm, 217, rfl⟩
abbrev main_call9_call0_v9 : Ref sig .tc := ⟨.hbm, 218, rfl⟩
abbrev main_call9_call0_v10 : Ref sig .tc := ⟨.hbm, 219, rfl⟩
abbrev main_call9_call0_v11 : Ref sig .tc := ⟨.hbm, 220, rfl⟩
abbrev main_call9_v1 : Ref sig .tc := ⟨.hbm, 221, rfl⟩
abbrev main_v120 : Ref sig .tc := ⟨.hbm, 222, rfl⟩
abbrev main_v121 : Ref sig .tc := ⟨.hbm, 223, rfl⟩
abbrev main_cst_18 : Ref sig .tc := ⟨.hbm, 224, rfl⟩
abbrev main_v122 : Ref sig .tc := ⟨.hbm, 225, rfl⟩
abbrev main_cst_19 : Ref sig .tc := ⟨.hbm, 226, rfl⟩
abbrev main_v123 : Ref sig .tc := ⟨.hbm, 227, rfl⟩
abbrev main_v124 : Ref sig .tc := ⟨.hbm, 228, rfl⟩
abbrev main_cst_20 : Ref sig .tc := ⟨.hbm, 229, rfl⟩
abbrev main_v125 : Ref sig .tc := ⟨.hbm, 230, rfl⟩
abbrev main_cst_21 : Ref sig .tc := ⟨.hbm, 231, rfl⟩
abbrev main_v126 : Ref sig .tc := ⟨.hbm, 232, rfl⟩
abbrev main_v127 : Ref sig .tc := ⟨.hbm, 233, rfl⟩
abbrev main_cst_22 : Ref sig .tc := ⟨.hbm, 234, rfl⟩
abbrev main_v128 : Ref sig .tc := ⟨.hbm, 235, rfl⟩
abbrev main_cst_23 : Ref sig .tc := ⟨.hbm, 236, rfl⟩
abbrev main_v129 : Ref sig .tc := ⟨.hbm, 237, rfl⟩
abbrev main_v130 : Ref sig .tc := ⟨.hbm, 238, rfl⟩
abbrev main_cst_24 : Ref sig .tc := ⟨.hbm, 239, rfl⟩
abbrev main_v131 : Ref sig .tc := ⟨.hbm, 240, rfl⟩
abbrev main_cst_25 : Ref sig .tc := ⟨.hbm, 241, rfl⟩
abbrev main_v132 : Ref sig .tc := ⟨.hbm, 242, rfl⟩
abbrev main_v133 : Ref sig .tc := ⟨.hbm, 243, rfl⟩
abbrev main_cst_26 : Ref sig .tc := ⟨.hbm, 244, rfl⟩
abbrev main_v134 : Ref sig .tc := ⟨.hbm, 245, rfl⟩
abbrev main_cst_27 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_cst_28 : Ref sig .tc := ⟨.hbm, 250, rfl⟩
abbrev main_v138 : Ref sig .tc := ⟨.hbm, 251, rfl⟩
abbrev main_cst_29 : Ref sig .tc := ⟨.hbm, 252, rfl⟩
abbrev main_v139 : Ref sig .tc := ⟨.hbm, 253, rfl⟩
abbrev main_v140 : Ref sig .tc := ⟨.hbm, 254, rfl⟩
abbrev main_cst_30 : Ref sig .tc := ⟨.hbm, 255, rfl⟩
abbrev main_v141 : Ref sig .tc := ⟨.hbm, 256, rfl⟩
abbrev main_cst_31 : Ref sig .tc := ⟨.hbm, 257, rfl⟩
abbrev main_v142 : Ref sig .tc := ⟨.hbm, 258, rfl⟩
abbrev main_v143 : Ref sig .tc := ⟨.hbm, 259, rfl⟩
abbrev main_cst_32 : Ref sig .tc := ⟨.hbm, 260, rfl⟩
abbrev main_v144 : Ref sig .tc := ⟨.hbm, 261, rfl⟩
abbrev main_v145 : Ref sig .tc := ⟨.hbm, 262, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  concatenates_S100000x128_S100000x128_S100000x64_S100000x32_S100000x352_d1 : Shape.Concatenates [S100000x128, S100000x128, S100000x64, S100000x32] S100000x352 1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x352_S8192_d1 : S8192x352.ReducesTo [1] S8192
  reducesTo_S8192_S_d0 : S8192.ReducesTo [0] S_
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x352_S8192x1_S8192x352_1_0_n_n_0_1_1352_wf : GatherDims.WF S100000x352 S8192x1 S8192x352 [1] [0] [] [0] [] 1 ![1, 352]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x352_S8192x1_S8192x352_1_0_n_n_0_1_1352 : GatherDims S100000x352 S8192x1 S8192x352 where
  offsetDims := [1]
  collapsedSliceDims := [0]
  operandBatchingDims := []
  startIndicesBatchingDims := []
  startIndexMap := [0]
  indexVectorDim := 1
  sliceSizes := ![1, 352]
  wf := gather_S100000x352_S8192x1_S8192x352_1_0_n_n_0_1_1352_wf

class Facts : Prop extends Facts₀ where

variable [Facts]
-- ==== Proof.KB.Region0.lean ====
/-
  Kernel region 0 of the program (the dense stage of layer 0 on one block of 2000 rows), at the contents `V` the region
  is entered with. A grid point reads its block of the two row-tiled operands (window 0: the layer's input rows; window 1:
  the aggregated neighbour rows), the two weight matrices and the two bias vectors whole, and writes two row blocks: window
  6 holds the body's first value of the six blocks read (the new rows), window 7 its second (the rows divided by their
  norm). Stated here, for any float instance: the blocks a point reads, the two stored blocks as one function of the six
  blocks read, the body's triple, and the pipeline's proof data with the body's obligation at every grid point.
-/
import proofs.«136498_j73031623901810_1_alg».proof.Proof.Gen.Kernel.Launch
import proofs.«136498_j73031623901810_1_alg».proof.Proof.Gen.Kernel.Skeleton
import proofs.«136498_j73031623901810_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows recurses once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point reads -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every grid point, whether or not the
    point fetches it again (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block of the entry contents at every grid point, whether or not the
    point fetches it again (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block of the entry contents at every grid point, whether or not the
    point fetches it again (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block of the entry contents at every grid point, whether or not the
    point fetches it again (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block of the entry contents at every grid point, whether or not the
    point fetches it again (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block of the entry contents at every grid point, whether or not the
    point fetches it again (an unfetched window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body reads and writes -/

abbrev r0_a : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S128 := Rect.unit (s := S128) ![0] S128.size inb_S128_S128_0
abbrev r0_o : Rect S2000x128 := Rect.unit (s := S2000x128) ![0, 0] S2000x128.size inb_S2000x128_S2000x128_0_0

/-! ## What the body leaves in the two output blocks -/

/-- Window 6's staging buffer after the body: one store of the whole block, the new rows computed from the six blocks read. -/
def out0_6 (x0 : Vec F S2000x128 .f32) (x1 : Vec F S2000x128 .f32) (x2 : Vec F S128x128 .f32) (x3 : Vec F S128 .f32) (x4 : Vec F S128x128 .f32) (x5 : Vec F S128 .f32) : Vec F S2000x128 .f32 :=
  View.canon [⟨r0_o, k0_pay1 (View.ld x0 r0_a) (View.ld x1 r0_a) (View.ld x2 r0_w) (View.ld x4 r0_w) (View.ld x3 r0_b) (View.ld x5 r0_b)⟩]

/-- The one store covers the block. -/
theorem cover0_6 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

/-- Window 7's staging buffer after the body: one store of the whole block, the new rows divided by their norms. -/
def out0_7 (x0 : Vec F S2000x128 .f32) (x1 : Vec F S2000x128 .f32) (x2 : Vec F S128x128 .f32) (x3 : Vec F S128 .f32) (x4 : Vec F S128x128 .f32) (x5 : Vec F S128 .f32) : Vec F S2000x128 .f32 :=
  View.canon [⟨r0_o, k0_pay2 (View.ld x0 r0_a) (View.ld x1 r0_a) (View.ld x2 r0_w) (View.ld x4 r0_w) (View.ld x3 r0_b) (View.ld x5 r0_b)⟩]

/-- The one store covers the block. -/
theorem cover0_7 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

/-! ## The body's triple -/

set_option maxHeartbeats 1000000 in
/-- The body on whole staging buffers, the six inputs holding `x0 … x5` and the two outputs anything, runs to a state where the
    inputs are as they were and the outputs hold `out0_6` and `out0_7` of the inputs. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S2000x128 .f32) (harg8 : arg8.IsWhole)
    (x0 : Vec F S2000x128 .f32) (x1 : Vec F S2000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__bi_interaction_kernel i arg1 harg1 arg2 harg2 arg3 harg3 arg4 harg4 arg5 harg5 arg6 harg6 arg7 harg7 arg8 harg8) K := by
  simp only [cc0__bi_interaction_kernel_eq_skeleton]; unfold cc0__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of this pipeline on core `c`: the arrays as the region finds them; after the body at point `t` each input's
    buffer still at its block and each output's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body's obligation at a grid point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.Region1.lean ====
/-
  Kernel region 1 of the program (the dense stage of layer 1 on one block of 2000 rows), at the contents `V` the region
  is entered with. A grid point reads its block of the two row-tiled operands (window 0: the layer's input rows; window 1:
  the aggregated neighbour rows), the two weight matrices and the two bias vectors whole, and writes two row blocks: window
  6 holds the body's first value of the six blocks read (the new rows), window 7 its second (the rows divided by their
  norm). Stated here, for any float instance: the blocks a point reads, the two stored blocks as one function of the six
  blocks read, the body's triple, and the pipeline's proof data with the body's obligation at every grid point.
-/
import proofs.«136498_j73031623901810_1_alg».proof.Proof.Gen.Kernel.Launch
import proofs.«136498_j73031623901810_1_alg».proof.Proof.Gen.Kernel.Skeleton
import proofs.«136498_j73031623901810_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows recurses once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point reads -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every grid point, whether or not the
    point fetches it again (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block of the entry contents at every grid point, whether or not the
    point fetches it again (an unfetched window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block of the entry contents at every grid point, whether or not the
    point fetches it again (an unfetched window's block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block of the entry contents at every grid point, whether or not the
    point fetches it again (an unfetched window's block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block of the entry contents at every grid point, whether or not the
    point fetches it again (an unfetched window's block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block of the entry contents at every grid point, whether or not the
    point fetches it again (an unfetched window's block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body reads and writes -/

abbrev r1_a : Rect S2000x128 := Rect.unit (s := S2000x128) ![0, 0] S2000x128.size inb_S2000x128_S2000x128_0_0
abbrev r1_w : Rect S128x64 := Rect.unit (s := S128x64) ![0, 0] S128x64.size inb_S128x64_S128x64_0_0
abbrev r1_b : Rect S64 := Rect.unit (s := S64) ![0] S64.size inb_S64_S64_0
abbrev r1_o : Rect S2000x64 := Rect.unit (s := S2000x64) ![0, 0] S2000x64.size inb_S2000x64_S2000x64_0_0

/-! ## What the body leaves in the two output blocks -/

/-- Window 6's staging buffer after the body: one store of the whole block, the new rows computed from the six blocks read. -/
def out1_6 (x0 : Vec F S2000x128 .f32) (x1 : Vec F S2000x128 .f32) (x2 : Vec F S128x64 .f32) (x3 : Vec F S64 .f32) (x4 : Vec F S128x64 .f32) (x5 : Vec F S64 .f32) : Vec F S2000x64 .f32 :=
  View.canon [⟨r1_o, k1_pay1 (View.ld x0 r1_a) (View.ld x1 r1_a) (View.ld x2 r1_w) (View.ld x4 r1_w) (View.ld x3 r1_b) (View.ld x5 r1_b)⟩]

/-- The one store covers the block. -/
theorem cover1_6 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-- Window 7's staging buffer after the body: one store of the whole block, the new rows divided by their norms. -/
def out1_7 (x0 : Vec F S2000x128 .f32) (x1 : Vec F S2000x128 .f32) (x2 : Vec F S128x64 .f32) (x3 : Vec F S64 .f32) (x4 : Vec F S128x64 .f32) (x5 : Vec F S64 .f32) : Vec F S2000x64 .f32 :=
  View.canon [⟨r1_o, k1_pay2 (View.ld x0 r1_a) (View.ld x1 r1_a) (View.ld x2 r1_w) (View.ld x4 r1_w) (View.ld x3 r1_b) (View.ld x5 r1_b)⟩]

/-- The one store covers the block. -/
theorem cover1_7 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-! ## The body's triple -/

set_option maxHeartbeats 1000000 in
/-- The body on whole staging buffers, the six inputs holding `x0 … x5` and the two outputs anything, runs to a state where the
    inputs are as they were and the outputs hold `out1_6` and `out1_7` of the inputs. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x64 .f32) (harg3 : arg3.IsWhole) (arg4 : Memref sig .tc .vmem S64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S2000x64 .f32) (harg7 : arg7.IsWhole) (arg8 : Memref sig .tc .vmem S2000x64 .f32) (harg8 : arg8.IsWhole)
    (x0 : Vec F S2000x128 .f32) (x1 : Vec F S2000x128 .f32) (x2 : Vec F S128x64 .f32) (x3 : Vec F S64 .f32) (x4 : Vec F S128x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__bi_interaction_kernel i arg1 harg1 arg2 harg2 arg3 harg3 arg4 harg4 arg5 harg5 arg6 harg6 arg7 harg7 arg8 harg8) K := by
  simp only [cc1__bi_interaction_kernel_eq_skeleton]; unfold cc1__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of this pipeline on core `c`: the arrays as the region finds them; after the body at point `t` each input's
    buffer still at its block and each output's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body's obligation at a grid point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.Region2.lean ====
/-
  Kernel region 2 of the program (the dense stage of layer 2 on one block of 2000 rows), at the contents `V` the region
  is entered with. A grid point reads its block of the two row-tiled operands (window 0: the layer's input rows; window 1:
  the aggregated neighbour rows), the two weight matrices and the two bias vectors whole, and writes two row blocks: window
  6 holds the body's first value of the six blocks read (the new rows), window 7 its second (the rows divided by their
  norm). Stated here, for any float instance: the blocks a point reads, the two stored blocks as one function of the six
  blocks read, the body's triple, and the pipeline's proof data with the body's obligation at every grid point.
-/
import proofs.«136498_j73031623901810_1_alg».proof.Proof.Gen.Kernel.Launch
import proofs.«136498_j73031623901810_1_alg».proof.Proof.Gen.Kernel.Skeleton
import proofs.«136498_j73031623901810_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows recurses once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point reads -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry contents at every grid point, whether or not the
    point fetches it again (an unfetched window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block of the entry contents at every grid point, whether or not the
    point fetches it again (an unfetched window's block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block of the entry contents at every grid point, whether or not the
    point fetches it again (an unfetched window's block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block of the entry contents at every grid point, whether or not the
    point fetches it again (an unfetched window's block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block of the entry contents at every grid point, whether or not the
    point fetches it again (an unfetched window's block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block of the entry contents at every grid point, whether or not the
    point fetches it again (an unfetched window's block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The whole-buffer rectangles the body reads and writes -/

abbrev r2_a : Rect S2000x64 := Rect.unit (s := S2000x64) ![0, 0] S2000x64.size inb_S2000x64_S2000x64_0_0
abbrev r2_w : Rect S64x32 := Rect.unit (s := S64x32) ![0, 0] S64x32.size inb_S64x32_S64x32_0_0
abbrev r2_b : Rect S32 := Rect.unit (s := S32) ![0] S32.size inb_S32_S32_0
abbrev r2_o : Rect S2000x32 := Rect.unit (s := S2000x32) ![0, 0] S2000x32.size inb_S2000x32_S2000x32_0_0

/-! ## What the body leaves in the two output blocks -/

/-- Window 6's staging buffer after the body: one store of the whole block, the new rows computed from the six blocks read. -/
def out2_6 (x0 : Vec F S2000x64 .f32) (x1 : Vec F S2000x64 .f32) (x2 : Vec F S64x32 .f32) (x3 : Vec F S32 .f32) (x4 : Vec F S64x32 .f32) (x5 : Vec F S32 .f32) : Vec F S2000x32 .f32 :=
  View.canon [⟨r2_o, k2_pay1 (View.ld x0 r2_a) (View.ld x1 r2_a) (View.ld x2 r2_w) (View.ld x4 r2_w) (View.ld x3 r2_b) (View.ld x5 r2_b)⟩]

/-- The one store covers the block. -/
theorem cover2_6 (p0 : Vec F S2000x32 .f32) (y : S2000x32.Idx) :
    ∃ pc ∈ ([⟨r2_o, p0⟩] : List (View.Piece (Elt F) S2000x32 .f32)), y ∈ pc.1.set :=
  View.cover_of_tiled [⟨r2_o, p0⟩] S2000x32.size (by rfl) y

/-- Window 7's staging buffer after the body: one store of the whole block, the new rows divided by their norms. -/
def out2_7 (x0 : Vec F S2000x64 .f32) (x1 : Vec F S2000x64 .f32) (x2 : Vec F S64x32 .f32) (x3 : Vec F S32 .f32) (x4 : Vec F S64x32 .f32) (x5 : Vec F S32 .f32) : Vec F S2000x32 .f32 :=
  View.canon [⟨r2_o, k2_pay2 (View.ld x0 r2_a) (View.ld x1 r2_a) (View.ld x2 r2_w) (View.ld x4 r2_w) (View.ld x3 r2_b) (View.ld x5 r2_b)⟩]

/-- The one store covers the block. -/
theorem cover2_7 (p0 : Vec F S2000x32 .f32) (y : S2000x32.Idx) :
    ∃ pc ∈ ([⟨r2_o, p0⟩] : List (View.Piece (Elt F) S2000x32 .f32)), y ∈ pc.1.set :=
  View.cover_of_tiled [⟨r2_o, p0⟩] S2000x32.size (by rfl) y

/-! ## The body's triple -/

set_option maxHeartbeats 1000000 in
/-- The body on whole staging buffers, the six inputs holding `x0 … x5` and the two outputs anything, runs to a state where the
    inputs are as they were and the outputs hold `out2_6` and `out2_7` of the inputs. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S64x32 .f32) (harg3 : arg3.IsWhole) (arg4 : Memref sig .tc .vmem S32 .f32) (harg4 : arg4.IsWhole) (arg5 : Memref sig .tc .vmem S64x32 .f32) (harg5 : arg5.IsWhole) (arg6 : Memref sig .tc .vmem S32 .f32) (harg6 : arg6.IsWhole) (arg7 : Memref sig .tc .vmem S2000x32 .f32) (harg7 : arg7.IsWhole) (arg8 : Memref sig .tc .vmem S2000x32 .f32) (harg8 : arg8.IsWhole)
    (x0 : Vec F S2000x64 .f32) (x1 : Vec F S2000x64 .f32) (x2 : Vec F S64x32 .f32) (x3 : Vec F S32 .f32) (x4 : Vec F S64x32 .f32) (x5 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__bi_interaction_kernel i arg1 harg1 arg2 harg2 arg3 harg3 arg4 harg4 arg5 harg5 arg6 harg6 arg7 harg7 arg8 harg8) K := by
  simp only [cc2__bi_interaction_kernel_eq_skeleton]; unfold cc2__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- The proof data of this pipeline on core `c`: the arrays as the region finds them; after the body at point `t` each input's
    buffer still at its block and each output's at the body's value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body's obligation at a grid point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KB.Run.lean ====
/-
  The whole program as a run: three kernel regions (the dense stages of the three layers) among stretches of host operations
  (the sparse aggregation before each region; the concatenation, the three row gathers and the scalar loss after the last).
  Between two items every unscoped buffer of a core is known: the launch contents, then each host stretch applied, then — after
  a region — the region's two output arrays at what its grid's write-backs leave and every other buffer as the region found it.
  The contents after region 0 do not depend on the later regions, those after region 1 only on region 0's, so the three pairs of
  output arrays are fixed one after the other. The run's conclusion names every buffer the program's result and arguments live
  in: the result at the last stretch's value, each argument as launched.
-/
import proofs.«136498_j73031623901810_1_alg».proof.Proof.KB.Region0
import proofs.«136498_j73031623901810_1_alg».proof.Proof.KB.Region1
import proofs.«136498_j73031623901810_1_alg».proof.Proof.KB.Region2
import proofs.«136498_j73031623901810_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions leave, fixed one region after the other -/

/-- A family of buffer contents read at the TensorCore's references (what a region's proof data take). -/
abbrev Ent (W : Dev nD → Valuation τ sig (Elt F)) : (c : Dev nD) → (b : Ref sig .tc) → Buf (Elt F) ((c : Thread nD τ).loc b) :=
  fun c b => W c b

/-- After region 0: its two output arrays at what its write-backs leave, the rest as after the first host stretch. -/
def U2 (c : Dev nD) : Valuation τ sig (Elt F) :=
  Function.update (Function.update (V1 m c) main_v13_0 ((dat0 (Ent (V1 m)) c).arrAt 6 cfg0.N)) main_v13_1 ((dat0 (Ent (V1 m)) c).arrAt 7 cfg0.N)
/-- The regions' outputs known so far: region 0's. -/
def o2 : Outs (F := F) := fun _ r c => U2 m c r
/-- After region 1, entered from the second host stretch applied to `U2`. -/
def U4 (c : Dev nD) : Valuation τ sig (Elt F) :=
  Function.update (Function.update (V3 m (o2 m) c) main_v27_0 ((dat1 (Ent (V3 m (o2 m))) c).arrAt 6 cfg1.N)) main_v27_1 ((dat1 (Ent (V3 m (o2 m))) c).arrAt 7 cfg1.N)
/-- The regions' outputs known so far: region 0's and region 1's. -/
def o4 : Outs (F := F) := fun J r c => if J = 2 then U2 m c r else U4 m c r
/-- After region 2, entered from the third host stretch applied to `U4`. -/
def U6 (c : Dev nD) : Valuation τ sig (Elt F) :=
  Function.update (Function.update (V5 m (o4 m) c) main_v41_0 ((dat2 (Ent (V5 m (o4 m))) c).arrAt 6 cfg2.N)) main_v41_1 ((dat2 (Ent (V5 m (o4 m))) c).arrAt 7 cfg2.N)
/-- What the three regions leave in their output arrays, by the item after which it is read. -/
def outs : Outs (F := F) := fun J r c => if J = 2 then U2 m c r else if J = 4 then U4 m c r else U6 m c r

/-! ### Reading the staged contents (every step a rewrite: the host stretches' folds are never opened) -/

theorem o2_at (J : ℕ) (r : Ref sig .tc) (c : Dev nD) : o2 m J r c = U2 m c r := rfl
theorem o4_at2 (r : Ref sig .tc) (c : Dev nD) : o4 m 2 r c = U2 m c r := by unfold o4; exact if_pos rfl
theorem o4_at4 (r : Ref sig .tc) (c : Dev nD) : o4 m 4 r c = U4 m c r := by unfold o4; exact if_neg (by decide)
theorem outs_at2 (r : Ref sig .tc) (c : Dev nD) : outs m 2 r c = U2 m c r := by unfold outs; exact if_pos rfl
theorem outs_at4 (r : Ref sig .tc) (c : Dev nD) : outs m 4 r c = U4 m c r := by
  unfold outs; exact (if_neg (by decide)).trans (if_pos rfl)
theorem outs_at6 (r : Ref sig .tc) (c : Dev nD) : outs m 6 r c = U6 m c r := by
  unfold outs; exact (if_neg (by decide)).trans (if_neg (by decide))

/-- The contents after region 0 read only region 0's outputs, whichever family of outputs they are read from. -/
theorem V2_outs (c : Dev nD) : V2 m (outs m) c = V2 m (o2 m) c := by
  unfold V2; rw [outs_at2 m main_v13_0 c, outs_at2 m main_v13_1 c, o2_at m 2 main_v13_0 c, o2_at m 2 main_v13_1 c]
theorem V2_o4 (c : Dev nD) : V2 m (o4 m) c = V2 m (o2 m) c := by
  unfold V2; rw [o4_at2 m main_v13_0 c, o4_at2 m main_v13_1 c, o2_at m 2 main_v13_0 c, o2_at m 2 main_v13_1 c]
/-- Region 1's entry contents read only region 0's outputs, -/
theorem V3_stage : V3 m (outs m) = V3 m (o2 m) := funext fun c => by unfold V3; rw [V2_outs m c]
theorem V3_o4 : V3 m (o4 m) = V3 m (o2 m) := funext fun c => by unfold V3; rw [V2_o4 m c]
theorem V4_outs (c : Dev nD) : V4 m (outs m) c = V4 m (o4 m) c := by
  unfold V4; rw [congrFun (V3_stage m) c, congrFun (V3_o4 m) c, outs_at4 m main_v27_0 c, outs_at4 m main_v27_1 c, o4_at4 m main_v27_0 c, o4_at4 m main_v27_1 c]
/-- and region 2's only region 0's and region 1's. -/
theorem V5_stage : V5 m (outs m) = V5 m (o4 m) := funext fun c => by unfold V5; rw [V4_outs m c]

theorem U2_a (c : Dev nD) : U2 m c (Proc.devRef .tc main_v13_0) = (dat0 (Ent (V1 m)) c).arrAt 6 cfg0.N := by
  unfold U2
  exact (Function.update_of_ne (StableHlo.devRef_ne_of_ne (by decide)) _ _).trans (Function.update_self _ _ _)
theorem U2_b (c : Dev nD) : U2 m c (Proc.devRef .tc main_v13_1) = (dat0 (Ent (V1 m)) c).arrAt 7 cfg0.N := by
  unfold U2; exact Function.update_self _ _ _
theorem U4_a (c : Dev nD) : U4 m c (Proc.devRef .tc main_v27_0) = (dat1 (Ent (V3 m (o2 m))) c).arrAt 6 cfg1.N := by
  unfold U4
  exact (Function.update_of_ne (StableHlo.devRef_ne_of_ne (by decide)) _ _).trans (Function.update_self _ _ _)
theorem U4_b (c : Dev nD) : U4 m c (Proc.devRef .tc main_v27_1) = (dat1 (Ent (V3 m (o2 m))) c).arrAt 7 cfg1.N := by
  unfold U4; exact Function.update_self _ _ _
theorem U6_a (c : Dev nD) : U6 m c (Proc.devRef .tc main_v41_0) = (dat2 (Ent (V5 m (o4 m))) c).arrAt 6 cfg2.N := by
  unfold U6
  exact (Function.update_of_ne (StableHlo.devRef_ne_of_ne (by decide)) _ _).trans (Function.update_self _ _ _)
theorem U6_b (c : Dev nD) : U6 m c (Proc.devRef .tc main_v41_1) = (dat2 (Ent (V5 m (o4 m))) c).arrAt 7 cfg2.N := by
  unfold U6; exact Function.update_self _ _ _

theorem outs_2a (c : Dev nD) : outs m 2 main_v13_0 c = (dat0 (Ent (V1 m)) c).arrAt 6 cfg0.N :=
  (outs_at2 m main_v13_0 c).trans (U2_a m c)
theorem outs_2b (c : Dev nD) : outs m 2 main_v13_1 c = (dat0 (Ent (V1 m)) c).arrAt 7 cfg0.N :=
  (outs_at2 m main_v13_1 c).trans (U2_b m c)
theorem outs_4a (c : Dev nD) : outs m 4 main_v27_0 c = (dat1 (Ent (V3 m (outs m))) c).arrAt 6 cfg1.N := by
  rw [V3_stage]; exact (outs_at4 m main_v27_0 c).trans (U4_a m c)
theorem outs_4b (c : Dev nD) : outs m 4 main_v27_1 c = (dat1 (Ent (V3 m (outs m))) c).arrAt 7 cfg1.N := by
  rw [V3_stage]; exact (outs_at4 m main_v27_1 c).trans (U4_b m c)
theorem outs_6a (c : Dev nD) : outs m 6 main_v41_0 c = (dat2 (Ent (V5 m (outs m))) c).arrAt 6 cfg2.N := by
  rw [V5_stage]; exact (outs_at6 m main_v41_0 c).trans (U6_a m c)
theorem outs_6b (c : Dev nD) : outs m 6 main_v41_1 c = (dat2 (Ent (V5 m (outs m))) c).arrAt 7 cfg2.N := by
  rw [V5_stage]; exact (outs_at6 m main_v41_1 c).trans (U6_b m c)

/-- What the contents after a region hold at the region's two output arrays. -/
theorem V2_at_a (outs : Outs (F := F)) (c : Dev nD) : V2 m outs c (Proc.devRef .tc main_v13_0) = outs 2 main_v13_0 c := by
  unfold V2; exact (Function.update_of_ne (StableHlo.devRef_ne_of_ne (by decide)) _ _).trans (Function.update_self _ _ _)
theorem V2_at_b (outs : Outs (F := F)) (c : Dev nD) : V2 m outs c (Proc.devRef .tc main_v13_1) = outs 2 main_v13_1 c := by
  unfold V2; exact Function.update_self _ _ _
theorem V4_at_a (outs : Outs (F := F)) (c : Dev nD) : V4 m outs c (Proc.devRef .tc main_v27_0) = outs 4 main_v27_0 c := by
  unfold V4; exact (Function.update_of_ne (StableHlo.devRef_ne_of_ne (by decide)) _ _).trans (Function.update_self _ _ _)
theorem V4_at_b (outs : Outs (F := F)) (c : Dev nD) : V4 m outs c (Proc.devRef .tc main_v27_1) = outs 4 main_v27_1 c := by
  unfold V4; exact Function.update_self _ _ _
theorem V6_at_a (outs : Outs (F := F)) (c : Dev nD) : V6 m outs c (Proc.devRef .tc main_v41_0) = outs 6 main_v41_0 c := by
  unfold V6; exact (Function.update_of_ne (StableHlo.devRef_ne_of_ne (by decide)) _ _).trans (Function.update_self _ _ _)
theorem V6_at_b (outs : Outs (F := F)) (c : Dev nD) : V6 m outs c (Proc.devRef .tc main_v41_1) = outs 6 main_v41_1 c := by
  unfold V6; exact Function.update_self _ _ _

/-! ## The proof data of the three pipelines, each at its region's entry contents -/

/-- A literal match on the pipeline's number, so that the configuration at a numeral reduces to the printed one. -/
def pdats : (p : Fin 3) → (c : Dev nD) → Dat τ (Elt F) Unit ℕ (UR sig nD τ) ℕ (cfgs p) c
  | ⟨0, _⟩ => fun c => dat0 (Ent (V1 m)) c
  | ⟨1, _⟩ => fun c => dat1 (Ent (V3 m (outs m))) c
  | ⟨2, _⟩ => fun c => dat2 (Ent (V5 m (outs m))) c

/-- No core owes another anything: no level is assigned. -/
abbrev Lv : GSem nD τ sig → Finset Unit := fun _ => ∅
abbrev lvl : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- At region 0's exit each of its eight arrays holds what the pipeline leaves: the six read-only ones their entry contents
    (no grid point writes them back), the two outputs what the staged contents record. -/
theorem hF0 (c : Dev nD) (w : Fin cfg0.W) : (pdats m 0 c).arrAt w cfg0.N = Ent (V2 m (outs m)) c (Pipeline.arrRef spec0 w) :=
  match w with
  | ⟨0, _⟩ => ((dat0 (Ent (V1 m)) c).arrAt_in 0 rfl _).trans ((A_eq0 (Ent (V1 m)) c 0).trans (V2_of m (outs m) c (Pipeline.arrRef spec0 0) (by decide)).symm)
  | ⟨1, _⟩ => ((dat0 (Ent (V1 m)) c).arrAt_in 1 rfl _).trans ((A_eq0 (Ent (V1 m)) c 1).trans (V2_of m (outs m) c (Pipeline.arrRef spec0 1) (by decide)).symm)
  | ⟨2, _⟩ => ((dat0 (Ent (V1 m)) c).arrAt_in 2 rfl _).trans ((A_eq0 (Ent (V1 m)) c 2).trans (V2_of m (outs m) c (Pipeline.arrRef spec0 2) (by decide)).symm)
  | ⟨3, _⟩ => ((dat0 (Ent (V1 m)) c).arrAt_in 3 rfl _).trans ((A_eq0 (Ent (V1 m)) c 3).trans (V2_of m (outs m) c (Pipeline.arrRef spec0 3) (by decide)).symm)
  | ⟨4, _⟩ => ((dat0 (Ent (V1 m)) c).arrAt_in 4 rfl _).trans ((A_eq0 (Ent (V1 m)) c 4).trans (V2_of m (outs m) c (Pipeline.arrRef spec0 4) (by decide)).symm)
  | ⟨5, _⟩ => ((dat0 (Ent (V1 m)) c).arrAt_in 5 rfl _).trans ((A_eq0 (Ent (V1 m)) c 5).trans (V2_of m (outs m) c (Pipeline.arrRef spec0 5) (by decide)).symm)
  | ⟨6, _⟩ => ((V2_at_a m (outs m) c).trans (outs_2a m c)).symm
  | ⟨7, _⟩ => ((V2_at_b m (outs m) c).trans (outs_2b m c)).symm

/-- Every buffer that is none of region 0's arrays is at its exit what it was at its entry. -/
theorem hrest0 (c : Dev nD) : ∀ b, b ∉ Finset.univ.image (Pipeline.arrRef spec0) → Ent (V2 m (outs m)) c b = Ent (V1 m) c b :=
  fun b hb => V2_of m (outs m) c b (by
    intro h
    rcases List.mem_cons.mp h with rfl | h
    · exact hb (Finset.mem_image.mpr ⟨6, Finset.mem_univ _, rfl⟩)
    rcases List.mem_cons.mp h with rfl | h
    · exact hb (Finset.mem_image.mpr ⟨7, Finset.mem_univ _, rfl⟩)
    exact absurd h (List.not_mem_nil))

/-- At region 1's exit each of its eight arrays holds what the pipeline leaves: the six read-only ones their entry contents
    (no grid point writes them back), the two outputs what the staged contents record. -/
theorem hF1 (c : Dev nD) (w : Fin cfg1.W) : (pdats m 1 c).arrAt w cfg1.N = Ent (V4 m (outs m)) c (Pipeline.arrRef spec1 w) :=
  match w with
  | ⟨0, _⟩ => ((dat1 (Ent (V3 m (outs m))) c).arrAt_in 0 rfl _).trans ((A_eq1 (Ent (V3 m (outs m))) c 0).trans (V4_of m (outs m) c (Pipeline.arrRef spec1 0) (by decide)).symm)
  | ⟨1, _⟩ => ((dat1 (Ent (V3 m (outs m))) c).arrAt_in 1 rfl _).trans ((A_eq1 (Ent (V3 m (outs m))) c 1).trans (V4_of m (outs m) c (Pipeline.arrRef spec1 1) (by decide)).symm)
  | ⟨2, _⟩ => ((dat1 (Ent (V3 m (outs m))) c).arrAt_in 2 rfl _).trans ((A_eq1 (Ent (V3 m (outs m))) c 2).trans (V4_of m (outs m) c (Pipeline.arrRef spec1 2) (by decide)).symm)
  | ⟨3, _⟩ => ((dat1 (Ent (V3 m (outs m))) c).arrAt_in 3 rfl _).trans ((A_eq1 (Ent (V3 m (outs m))) c 3).trans (V4_of m (outs m) c (Pipeline.arrRef spec1 3) (by decide)).symm)
  | ⟨4, _⟩ => ((dat1 (Ent (V3 m (outs m))) c).arrAt_in 4 rfl _).trans ((A_eq1 (Ent (V3 m (outs m))) c 4).trans (V4_of m (outs m) c (Pipeline.arrRef spec1 4) (by decide)).symm)
  | ⟨5, _⟩ => ((dat1 (Ent (V3 m (outs m))) c).arrAt_in 5 rfl _).trans ((A_eq1 (Ent (V3 m (outs m))) c 5).trans (V4_of m (outs m) c (Pipeline.arrRef spec1 5) (by decide)).symm)
  | ⟨6, _⟩ => ((V4_at_a m (outs m) c).trans (outs_4a m c)).symm
  | ⟨7, _⟩ => ((V4_at_b m (outs m) c).trans (outs_4b m c)).symm

/-- Every buffer that is none of region 1's arrays is at its exit what it was at its entry. -/
theorem hrest1 (c : Dev nD) : ∀ b, b ∉ Finset.univ.image (Pipeline.arrRef spec1) → Ent (V4 m (outs m)) c b = Ent (V3 m (outs m)) c b :=
  fun b hb => V4_of m (outs m) c b (by
    intro h
    rcases List.mem_cons.mp h with rfl | h
    · exact hb (Finset.mem_image.mpr ⟨6, Finset.mem_univ _, rfl⟩)
    rcases List.mem_cons.mp h with rfl | h
    · exact hb (Finset.mem_image.mpr ⟨7, Finset.mem_univ _, rfl⟩)
    exact absurd h (List.not_mem_nil))

/-- At region 2's exit each of its eight arrays holds what the pipeline leaves: the six read-only ones their entry contents
    (no grid point writes them back), the two outputs what the staged contents record. -/
theorem hF2 (c : Dev nD) (w : Fin cfg2.W) : (pdats m 2 c).arrAt w cfg2.N = Ent (V6 m (outs m)) c (Pipeline.arrRef spec2 w) :=
  match w with
  | ⟨0, _⟩ => ((dat2 (Ent (V5 m (outs m))) c).arrAt_in 0 rfl _).trans ((A_eq2 (Ent (V5 m (outs m))) c 0).trans (V6_of m (outs m) c (Pipeline.arrRef spec2 0) (by decide)).symm)
  | ⟨1, _⟩ => ((dat2 (Ent (V5 m (outs m))) c).arrAt_in 1 rfl _).trans ((A_eq2 (Ent (V5 m (outs m))) c 1).trans (V6_of m (outs m) c (Pipeline.arrRef spec2 1) (by decide)).symm)
  | ⟨2, _⟩ => ((dat2 (Ent (V5 m (outs m))) c).arrAt_in 2 rfl _).trans ((A_eq2 (Ent (V5 m (outs m))) c 2).trans (V6_of m (outs m) c (Pipeline.arrRef spec2 2) (by decide)).symm)
  | ⟨3, _⟩ => ((dat2 (Ent (V5 m (outs m))) c).arrAt_in 3 rfl _).trans ((A_eq2 (Ent (V5 m (outs m))) c 3).trans (V6_of m (outs m) c (Pipeline.arrRef spec2 3) (by decide)).symm)
  | ⟨4, _⟩ => ((dat2 (Ent (V5 m (outs m))) c).arrAt_in 4 rfl _).trans ((A_eq2 (Ent (V5 m (outs m))) c 4).trans (V6_of m (outs m) c (Pipeline.arrRef spec2 4) (by decide)).symm)
  | ⟨5, _⟩ => ((dat2 (Ent (V5 m (outs m))) c).arrAt_in 5 rfl _).trans ((A_eq2 (Ent (V5 m (outs m))) c 5).trans (V6_of m (outs m) c (Pipeline.arrRef spec2 5) (by decide)).symm)
  | ⟨6, _⟩ => ((V6_at_a m (outs m) c).trans (outs_6a m c)).symm
  | ⟨7, _⟩ => ((V6_at_b m (outs m) c).trans (outs_6b m c)).symm

/-- Every buffer that is none of region 2's arrays is at its exit what it was at its entry. -/
theorem hrest2 (c : Dev nD) : ∀ b, b ∉ Finset.univ.image (Pipeline.arrRef spec2) → Ent (V6 m (outs m)) c b = Ent (V5 m (outs m)) c b :=
  fun b hb => V6_of m (outs m) c b (by
    intro h
    rcases List.mem_cons.mp h with rfl | h
    · exact hb (Finset.mem_image.mpr ⟨6, Finset.mem_univ _, rfl⟩)
    rcases List.mem_cons.mp h with rfl | h
    · exact hb (Finset.mem_image.mpr ⟨7, Finset.mem_univ _, rfl⟩)
    exact absurd h (List.not_mem_nil))

/-! ## The regions as segments -/

-- a library lemma stated over the pinned configuration unifies with the printed one only when unification may unfold
-- plain definitions in a metavariable's type
set_option backward.isDefEq.respectTransparency.types false in
/-- Region 0 as a segment: entered with every unscoped buffer at `V1 m`, left with them at `V2 m (outs m)`. Its eight arrays are split
    out of the unscoped buffers at entry and put back at exit, the six it only reads as they were and the two it writes at what
    the grid's write-backs leave; the generator register goes into the pipeline's invariant and comes back; nothing is owed. -/
def reg0 : Pipeline.RegionSeg (pcfgs (F := F)) adm (pdats m) () defs₀ Variants.none Lv lvl 0 where
  win := launch0.win.to₀
  block_pos := launch0.block_pos
  stage_whole := launch0.stage_whole
  K := PEmpty
  osem k := k.elim
  ho := Pipeline.OwnSemFacts.none _
  hbody c := (body_obligation0 (Ent (V1 m)) c).loose
  hwaits := Pipeline.hwaits_of_owed_zero _ _ _ _ Lv lvl 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ent (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ent (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ent (V1 m) c) (Ent (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at `V3 m (outs m)`, left with them at `V4 m (outs m)`. Its eight arrays are split
    out of the unscoped buffers at entry and put back at exit, the six it only reads as they were and the two it writes at what
    the grid's write-backs leave; the generator register goes into the pipeline's invariant and comes back; nothing is owed. -/
def reg1 : Pipeline.RegionSeg (pcfgs (F := F)) adm (pdats m) () defs₀ Variants.none Lv lvl 1 where
  win := launch1.win.to₀
  block_pos := launch1.block_pos
  stage_whole := launch1.stage_whole
  K := PEmpty
  osem k := k.elim
  ho := Pipeline.OwnSemFacts.none _
  hbody c := (body_obligation1 (Ent (V3 m (outs m))) c).loose
  hwaits := Pipeline.hwaits_of_owed_zero _ _ _ _ Lv lvl 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ent (V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ent (V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ent (V3 m (outs m)) c) (Ent (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at `V5 m (outs m)`, left with them at `V6 m (outs m)`. Its eight arrays are split
    out of the unscoped buffers at entry and put back at exit, the six it only reads as they were and the two it writes at what
    the grid's write-backs leave; the generator register goes into the pipeline's invariant and comes back; nothing is owed. -/
def reg2 : Pipeline.RegionSeg (pcfgs (F := F)) adm (pdats m) () defs₀ Variants.none Lv lvl 2 where
  win := launch2.win.to₀
  block_pos := launch2.block_pos
  stage_whole := launch2.stage_whole
  K := PEmpty
  osem k := k.elim
  ho := Pipeline.OwnSemFacts.none _
  hbody c := (body_obligation2 (Ent (V5 m (outs m))) c).loose
  hwaits := Pipeline.hwaits_of_owed_zero _ _ _ _ Lv lvl 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Ent (V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ent (V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ent (V5 m (outs m)) c) (Ent (V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's items as segments on a core: the host stretches' as generated, the regions' the records above, the generator
    register and the dues riding along everywhere. -/
abbrev items (c : Dev nD) : List (Seg (pcfgs (F := F)) adm (pdats m) () defs₀ Variants.none Lv lvl) :=
  segs m (outs m) Variants.none Lv lvl (fun _ c => R c) () (pdats m) (reg0 m) (reg1 m) (reg2 m) c

-- the launch theorem's implicit arguments are found by unifying its conclusion with this one, which takes unfolding plain
-- definitions in a metavariable's type
set_option backward.isDefEq.respectTransparency.types false in
/-- THE RUN. From any memory with zero counters every weakly fair execution of the program on the TensorCores terminates, nothing
    faulting, with the result buffer at the last host stretch's value over the contents fixed above, and every argument array
    as launched. -/
theorem run_val : θ_run defs (onTc (τ := τ) (main (F := F))) ⟨m, fun _ => 0, ρ⟩ (fun r => ∀ c : Dev nD,
      r.2.mem ((c.tc : Thread nD τ).loc main_v94) = V9 m (outs m) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) adm (pdats m) () cellOf_inj emb₁ defs₀ Variants.none Lv lvl m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V9 m (outs m) c))
    (hch := fun c => ⟨.rfl, .rfl, .rfl, .rfl, .rfl, .rfl, .rfl, .rfl, .rfl, sep_mono .rfl (by iintro ⟨-, HO⟩; iexact HO)⟩)
    (hinit := by
      refine Pipeline.initEach Lv lvl fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v94) = V9 m (outs m) c main_v94
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18))
    (hfin := fun c s' => ?_) (hQ := fun _ h => h)
  -- the end: the result's and each argument's buffer read off the last contents
  unfold StableHlo.held
  iintro ⟨Hh, HSI⟩
  ihave Hr := (pointsTo_read_all (Pipeline.ucRefs τ sig) (fun b => ((c : Thread nD τ).1, b)) (V9 m (outs m) c) s') $$ [Hh HSI]
  · isplitl [Hh] <;> iassumption
  icases Hr with ⟨%h, HSI⟩
  imodintro
  isplitr
  · ipureintro
    exact ⟨(h (Proc.devRef .tc main_v94) (Finset.mem_filter.mpr ⟨StableHlo.devRef_mem_tcRefs main_v94, by decide⟩)),
        (h (Proc.devRef .tc main_arg0) (Finset.mem_filter.mpr ⟨StableHlo.devRef_mem_tcRefs main_arg0, by decide⟩)).trans (V9_main_arg0 m (outs m) c),
        (h (Proc.devRef .tc main_arg1) (Finset.mem_filter.mpr ⟨StableHlo.devRef_mem_tcRefs main_arg1, by decide⟩)).trans (V9_main_arg1 m (outs m) c),
        (h (Proc.devRef .tc main_arg2) (Finset.mem_filter.mpr ⟨StableHlo.devRef_mem_tcRefs main_arg2, by decide⟩)).trans (V9_main_arg2 m (outs m) c),
        (h (Proc.devRef .tc main_arg3) (Finset.mem_filter.mpr ⟨StableHlo.devRef_mem_tcRefs main_arg3, by decide⟩)).trans (V9_main_arg3 m (outs m) c),
        (h (Proc.devRef .tc main_arg4) (Finset.mem_filter.mpr ⟨StableHlo.devRef_mem_tcRefs main_arg4, by decide⟩)).trans (V9_main_arg4 m (outs m) c),
        (h (Proc.devRef .tc main_arg5) (Finset.mem_filter.mpr ⟨StableHlo.devRef_mem_tcRefs main_arg5, by decide⟩)).trans (V9_main_arg5 m (outs m) c),
        (h (Proc.devRef .tc main_arg6) (Finset.mem_filter.mpr ⟨StableHlo.devRef_mem_tcRefs main_arg6, by decide⟩)).trans (V9_main_arg6 m (outs m) c),
        (h (Proc.devRef .tc main_arg7) (Finset.mem_filter.mpr ⟨StableHlo.devRef_mem_tcRefs main_arg7, by decide⟩)).trans (V9_main_arg7 m (outs m) c),
        (h (Proc.devRef .tc main_arg8) (Finset.mem_filter.mpr ⟨StableHlo.devRef_mem_tcRefs main_arg8, by decide⟩)).trans (V9_main_arg8 m (outs m) c),
        (h (Proc.devRef .tc main_arg9) (Finset.mem_filter.mpr ⟨StableHlo.devRef_mem_tcRefs main_arg9, by decide⟩)).trans (V9_main_arg9 m (outs m) c),
        (h (Proc.devRef .tc main_arg10) (Finset.mem_filter.mpr ⟨StableHlo.devRef_mem_tcRefs main_arg10, by decide⟩)).trans (V9_main_arg10 m (outs m) c),
        (h (Proc.devRef .tc main_arg11) (Finset.mem_filter.mpr ⟨StableHlo.devRef_mem_tcRefs main_arg11, by decide⟩)).trans (V9_main_arg11 m (outs m) c),
        (h (Proc.devRef .tc main_arg12) (Finset.mem_filter.mpr ⟨StableHlo.devRef_mem_tcRefs main_arg12, by decide⟩)).trans (V9_main_arg12 m (outs m) c),
        (h (Proc.devRef .tc main_arg13) (Finset.mem_filter.mpr ⟨StableHlo.devRef_mem_tcRefs main_arg13, by decide⟩)).trans (V9_main_arg13 m (outs m) c),
        (h (Proc.devRef .tc main_arg14) (Finset.mem_filter.mpr ⟨StableHlo.devRef_mem_tcRefs main_arg14, by decide⟩)).trans (V9_main_arg14 m (outs m) c),
        (h (Proc.devRef .tc main_arg15) (Finset.mem_filter.mpr ⟨StableHlo.devRef_mem_tcRefs main_arg15, by decide⟩)).trans (V9_main_arg15 m (outs m) c),
        (h (Proc.devRef .tc main_arg16) (Finset.mem_filter.mpr ⟨StableHlo.devRef_mem_tcRefs main_arg16, by decide⟩)).trans (V9_main_arg16 m (outs m) c),
        (h (Proc.devRef .tc main_arg17) (Finset.mem_filter.mpr ⟨StableHlo.devRef_mem_tcRefs main_arg17, by decide⟩)).trans (V9_main_arg17 m (outs m) c),
        (h (Proc.devRef .tc main_arg18) (Finset.mem_filter.mpr ⟨StableHlo.devRef_mem_tcRefs main_arg18, by decide⟩)).trans (V9_main_arg18 m (outs m) c)⟩
  · iexact HSI

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2) (run_val m ρ)

end Cert.Kernel.Gen

end
-- ==== Proof.KI.Region0.lean ====
/-
  Kernel region 0 of the program (the dense stage of layer 0 on one block of 2000 rows), at the contents `V` the region
  is entered with. A grid point reads its block of the two row-tiled operands (window 0: the layer's input rows; window 1:
  the aggregated neighbour rows), the two weight matrices and the two bias vectors whole, and writes two row blocks: window
  6 holds the body's first value of the six blocks read (the new rows), window 7 its second (the rows divided by their
  norm). Stated here, for any float instance: the blocks a point reads, the two stored blocks as one function of the six
  blocks read, the body's triple, and the pipeline's proof data with the body's obligation at every grid point.
-/
import proofs.«136498_j73031623901810_1_alg».proof.Proof.Gen.KernelIdeal.Launch
import proofs.«136498_j73031623901810_1_alg».proof.Proof.Gen.KernelIdeal.Skeleton
import proofs.«136498_j73031623901810_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows recurses once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point reads -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every grid point, whether or not the
    point fetches it again (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block of the entry contents at every grid point, whether or not the
    point fetches it again (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block of the entry contents at every grid point, whether or not the
    point fetches it again (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block of the entry contents at every grid point, whether or not the
    point fetches it again (an unfetched window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block of the entry contents at every grid point, whether or not the
    point fetches it again (an unfetched window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block of the entry contents at every grid point, whether or not the
    point fetches it again (an unfetched window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body reads and writes -/

abbrev r0_a : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S128 := Rect.unit (s := S128) ![0] S128.size inb_S128_S128_0
abbrev r0_o : Rect S2000x128 := Rect.unit (s := S2000x128) ![0, 0] S2000x128.size inb_S2000x128_S2000x128_0_0

/-! ## What the body leaves in the two output blocks -/

/-- Window 6's staging buffer after the body: one store of the whole block, the new rows computed from the six blocks read. -/
def out0_6 (x0 : Vec F S2000x128 .f32) (x1 : Vec F S2000x128 .f32) (x2 : Vec F S128x128 .f32) (x3 : Vec F S128 .f32) (x4 : Vec F S128x128 .f32) (x5 : Vec F S128 .f32) : Vec F S2000x128 .f32 :=
  View.canon [⟨r0_o, k0_pay1 (View.ld x0 r0_a) (View.ld x1 r0_a) (View.ld x2 r0_w) (View.ld x4 r0_w) (View.ld x3 r0_b) (View.ld x5 r0_b)⟩]

/-- The one store covers the block. -/
theorem cover0_6 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

/-- Window 7's staging buffer after the body: one store of the whole block, the new rows divided by their norms. -/
def out0_7 (x0 : Vec F S2000x128 .f32) (x1 : Vec F S2000x128 .f32) (x2 : Vec F S128x128 .f32) (x3 : Vec F S128 .f32) (x4 : Vec F S128x128 .f32) (x5 : Vec F S128 .f32) : Vec F S2000x128 .f32 :=
  View.canon [⟨r0_o, k0_pay2 (View.ld x0 r0_a) (View.ld x1 r0_a) (View.ld x2 r0_w) (View.ld x4 r0_w) (View.ld x3 r0_b) (View.ld x5 r0_b)⟩]

/-- The one store covers the block. -/
theorem cover0_7 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

/-! ## The body's triple -/

set_option maxHeartbeats 1000000 in
/-- The body on whole staging buffers, the six inputs holding `x0 … x5` and the two outputs anything, runs to a state where the
    inputs are as they were and the outputs hold `out0_6` and `out0_7` of the inputs. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S2000x128 .f32) (harg8 : arg8.IsWhole)
    (x0 : Vec F S2000x128 .f32) (x1 : Vec F S2000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__bi_interaction_kernel i arg1 harg1 arg2 harg2 arg3 harg3 arg4 harg4 arg5 harg5 arg6 harg6 arg7 harg7 arg8 harg8) K := by
  simp only [cc0__bi_interaction_kernel_eq_skeleton]; unfold cc0__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of this pipeline on core `c`: the arrays as the region finds them; after the body at point `t` each input's
    buffer still at its block and each output's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body's obligation at a grid point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Region1.lean ====
/-
  Kernel region 1 of the program (the dense stage of layer 1 on one block of 2000 rows), at the contents `V` the region
  is entered with. A grid point reads its block of the two row-tiled operands (window 0: the layer's input rows; window 1:
  the aggregated neighbour rows), the two weight matrices and the two bias vectors whole, and writes two row blocks: window
  6 holds the body's first value of the six blocks read (the new rows), window 7 its second (the rows divided by their
  norm). Stated here, for any float instance: the blocks a point reads, the two stored blocks as one function of the six
  blocks read, the body's triple, and the pipeline's proof data with the body's obligation at every grid point.
-/
import proofs.«136498_j73031623901810_1_alg».proof.Proof.Gen.KernelIdeal.Launch
import proofs.«136498_j73031623901810_1_alg».proof.Proof.Gen.KernelIdeal.Skeleton
import proofs.«136498_j73031623901810_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows recurses once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point reads -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every grid point, whether or not the
    point fetches it again (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block of the entry contents at every grid point, whether or not the
    point fetches it again (an unfetched window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block of the entry contents at every grid point, whether or not the
    point fetches it again (an unfetched window's block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block of the entry contents at every grid point, whether or not the
    point fetches it again (an unfetched window's block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block of the entry contents at every grid point, whether or not the
    point fetches it again (an unfetched window's block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block of the entry contents at every grid point, whether or not the
    point fetches it again (an unfetched window's block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body reads and writes -/

abbrev r1_a : Rect S2000x128 := Rect.unit (s := S2000x128) ![0, 0] S2000x128.size inb_S2000x128_S2000x128_0_0
abbrev r1_w : Rect S128x64 := Rect.unit (s := S128x64) ![0, 0] S128x64.size inb_S128x64_S128x64_0_0
abbrev r1_b : Rect S64 := Rect.unit (s := S64) ![0] S64.size inb_S64_S64_0
abbrev r1_o : Rect S2000x64 := Rect.unit (s := S2000x64) ![0, 0] S2000x64.size inb_S2000x64_S2000x64_0_0

/-! ## What the body leaves in the two output blocks -/

/-- Window 6's staging buffer after the body: one store of the whole block, the new rows computed from the six blocks read. -/
def out1_6 (x0 : Vec F S2000x128 .f32) (x1 : Vec F S2000x128 .f32) (x2 : Vec F S128x64 .f32) (x3 : Vec F S64 .f32) (x4 : Vec F S128x64 .f32) (x5 : Vec F S64 .f32) : Vec F S2000x64 .f32 :=
  View.canon [⟨r1_o, k1_pay1 (View.ld x0 r1_a) (View.ld x1 r1_a) (View.ld x2 r1_w) (View.ld x4 r1_w) (View.ld x3 r1_b) (View.ld x5 r1_b)⟩]

/-- The one store covers the block. -/
theorem cover1_6 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-- Window 7's staging buffer after the body: one store of the whole block, the new rows divided by their norms. -/
def out1_7 (x0 : Vec F S2000x128 .f32) (x1 : Vec F S2000x128 .f32) (x2 : Vec F S128x64 .f32) (x3 : Vec F S64 .f32) (x4 : Vec F S128x64 .f32) (x5 : Vec F S64 .f32) : Vec F S2000x64 .f32 :=
  View.canon [⟨r1_o, k1_pay2 (View.ld x0 r1_a) (View.ld x1 r1_a) (View.ld x2 r1_w) (View.ld x4 r1_w) (View.ld x3 r1_b) (View.ld x5 r1_b)⟩]

/-- The one store covers the block. -/
theorem cover1_7 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-! ## The body's triple -/

set_option maxHeartbeats 1000000 in
/-- The body on whole staging buffers, the six inputs holding `x0 … x5` and the two outputs anything, runs to a state where the
    inputs are as they were and the outputs hold `out1_6` and `out1_7` of the inputs. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x64 .f32) (harg3 : arg3.IsWhole) (arg4 : Memref sig .tc .vmem S64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S2000x64 .f32) (harg7 : arg7.IsWhole) (arg8 : Memref sig .tc .vmem S2000x64 .f32) (harg8 : arg8.IsWhole)
    (x0 : Vec F S2000x128 .f32) (x1 : Vec F S2000x128 .f32) (x2 : Vec F S128x64 .f32) (x3 : Vec F S64 .f32) (x4 : Vec F S128x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__bi_interaction_kernel i arg1 harg1 arg2 harg2 arg3 harg3 arg4 harg4 arg5 harg5 arg6 harg6 arg7 harg7 arg8 harg8) K := by
  simp only [cc1__bi_interaction_kernel_eq_skeleton]; unfold cc1__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of this pipeline on core `c`: the arrays as the region finds them; after the body at point `t` each input's
    buffer still at its block and each output's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body's obligation at a grid point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Region2.lean ====
/-
  Kernel region 2 of the program (the dense stage of layer 2 on one block of 2000 rows), at the contents `V` the region
  is entered with. A grid point reads its block of the two row-tiled operands (window 0: the layer's input rows; window 1:
  the aggregated neighbour rows), the two weight matrices and the two bias vectors whole, and writes two row blocks: window
  6 holds the body's first value of the six blocks read (the new rows), window 7 its second (the rows divided by their
  norm). Stated here, for any float instance: the blocks a point reads, the two stored blocks as one function of the six
  blocks read, the body's triple, and the pipeline's proof data with the body's obligation at every grid point.
-/
import proofs.«136498_j73031623901810_1_alg».proof.Proof.Gen.KernelIdeal.Launch
import proofs.«136498_j73031623901810_1_alg».proof.Proof.Gen.KernelIdeal.Skeleton
import proofs.«136498_j73031623901810_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows recurses once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point reads -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry contents at every grid point, whether or not the
    point fetches it again (an unfetched window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block of the entry contents at every grid point, whether or not the
    point fetches it again (an unfetched window's block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block of the entry contents at every grid point, whether or not the
    point fetches it again (an unfetched window's block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block of the entry contents at every grid point, whether or not the
    point fetches it again (an unfetched window's block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block of the entry contents at every grid point, whether or not the
    point fetches it again (an unfetched window's block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block of the entry contents at every grid point, whether or not the
    point fetches it again (an unfetched window's block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The whole-buffer rectangles the body reads and writes -/

abbrev r2_a : Rect S2000x64 := Rect.unit (s := S2000x64) ![0, 0] S2000x64.size inb_S2000x64_S2000x64_0_0
abbrev r2_w : Rect S64x32 := Rect.unit (s := S64x32) ![0, 0] S64x32.size inb_S64x32_S64x32_0_0
abbrev r2_b : Rect S32 := Rect.unit (s := S32) ![0] S32.size inb_S32_S32_0
abbrev r2_o : Rect S2000x32 := Rect.unit (s := S2000x32) ![0, 0] S2000x32.size inb_S2000x32_S2000x32_0_0

/-! ## What the body leaves in the two output blocks -/

/-- Window 6's staging buffer after the body: one store of the whole block, the new rows computed from the six blocks read. -/
def out2_6 (x0 : Vec F S2000x64 .f32) (x1 : Vec F S2000x64 .f32) (x2 : Vec F S64x32 .f32) (x3 : Vec F S32 .f32) (x4 : Vec F S64x32 .f32) (x5 : Vec F S32 .f32) : Vec F S2000x32 .f32 :=
  View.canon [⟨r2_o, k2_pay1 (View.ld x0 r2_a) (View.ld x1 r2_a) (View.ld x2 r2_w) (View.ld x4 r2_w) (View.ld x3 r2_b) (View.ld x5 r2_b)⟩]

/-- The one store covers the block. -/
theorem cover2_6 (p0 : Vec F S2000x32 .f32) (y : S2000x32.Idx) :
    ∃ pc ∈ ([⟨r2_o, p0⟩] : List (View.Piece (Elt F) S2000x32 .f32)), y ∈ pc.1.set :=
  View.cover_of_tiled [⟨r2_o, p0⟩] S2000x32.size (by rfl) y

/-- Window 7's staging buffer after the body: one store of the whole block, the new rows divided by their norms. -/
def out2_7 (x0 : Vec F S2000x64 .f32) (x1 : Vec F S2000x64 .f32) (x2 : Vec F S64x32 .f32) (x3 : Vec F S32 .f32) (x4 : Vec F S64x32 .f32) (x5 : Vec F S32 .f32) : Vec F S2000x32 .f32 :=
  View.canon [⟨r2_o, k2_pay2 (View.ld x0 r2_a) (View.ld x1 r2_a) (View.ld x2 r2_w) (View.ld x4 r2_w) (View.ld x3 r2_b) (View.ld x5 r2_b)⟩]

/-- The one store covers the block. -/
theorem cover2_7 (p0 : Vec F S2000x32 .f32) (y : S2000x32.Idx) :
    ∃ pc ∈ ([⟨r2_o, p0⟩] : List (View.Piece (Elt F) S2000x32 .f32)), y ∈ pc.1.set :=
  View.cover_of_tiled [⟨r2_o, p0⟩] S2000x32.size (by rfl) y

/-! ## The body's triple -/

set_option maxHeartbeats 1000000 in
/-- The body on whole staging buffers, the six inputs holding `x0 … x5` and the two outputs anything, runs to a state where the
    inputs are as they were and the outputs hold `out2_6` and `out2_7` of the inputs. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S64x32 .f32) (harg3 : arg3.IsWhole) (arg4 : Memref sig .tc .vmem S32 .f32) (harg4 : arg4.IsWhole) (arg5 : Memref sig .tc .vmem S64x32 .f32) (harg5 : arg5.IsWhole) (arg6 : Memref sig .tc .vmem S32 .f32) (harg6 : arg6.IsWhole) (arg7 : Memref sig .tc .vmem S2000x32 .f32) (harg7 : arg7.IsWhole) (arg8 : Memref sig .tc .vmem S2000x32 .f32) (harg8 : arg8.IsWhole)
    (x0 : Vec F S2000x64 .f32) (x1 : Vec F S2000x64 .f32) (x2 : Vec F S64x32 .f32) (x3 : Vec F S32 .f32) (x4 : Vec F S64x32 .f32) (x5 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__bi_interaction_kernel i arg1 harg1 arg2 harg2 arg3 harg3 arg4 harg4 arg5 harg5 arg6 harg6 arg7 harg7 arg8 harg8) K := by
  simp only [cc2__bi_interaction_kernel_eq_skeleton]; unfold cc2__bi_interaction_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- The proof data of this pipeline on core `c`: the arrays as the region finds them; after the body at point `t` each input's
    buffer still at its block and each output's at the body's value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body's obligation at a grid point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Run.lean ====
/-
  The whole program as a run: three kernel regions (the dense stages of the three layers) among stretches of host operations
  (the sparse aggregation before each region; the concatenation, the three row gathers and the scalar loss after the last).
  Between two items every unscoped buffer of a core is known: the launch contents, then each host stretch applied, then — after
  a region — the region's two output arrays at what its grid's write-backs leave and every other buffer as the region found it.
  The contents after region 0 do not depend on the later regions, those after region 1 only on region 0's, so the three pairs of
  output arrays are fixed one after the other. The run's conclusion names every buffer the program's result and arguments live
  in: the result at the last stretch's value, each argument as launched.
-/
import proofs.«136498_j73031623901810_1_alg».proof.Proof.KI.Region0
import proofs.«136498_j73031623901810_1_alg».proof.Proof.KI.Region1
import proofs.«136498_j73031623901810_1_alg».proof.Proof.KI.Region2
import proofs.«136498_j73031623901810_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions leave, fixed one region after the other -/

/-- A family of buffer contents read at the TensorCore's references (what a region's proof data take). -/
abbrev Ent (W : Dev nD → Valuation τ sig (Elt F)) : (c : Dev nD) → (b : Ref sig .tc) → Buf (Elt F) ((c : Thread nD τ).loc b) :=
  fun c b => W c b

/-- After region 0: its two output arrays at what its write-backs leave, the rest as after the first host stretch. -/
def U2 (c : Dev nD) : Valuation τ sig (Elt F) :=
  Function.update (Function.update (V1 m c) main_v13_0 ((dat0 (Ent (V1 m)) c).arrAt 6 cfg0.N)) main_v13_1 ((dat0 (Ent (V1 m)) c).arrAt 7 cfg0.N)
/-- The regions' outputs known so far: region 0's. -/
def o2 : Outs (F := F) := fun _ r c => U2 m c r
/-- After region 1, entered from the second host stretch applied to `U2`. -/
def U4 (c : Dev nD) : Valuation τ sig (Elt F) :=
  Function.update (Function.update (V3 m (o2 m) c) main_v27_0 ((dat1 (Ent (V3 m (o2 m))) c).arrAt 6 cfg1.N)) main_v27_1 ((dat1 (Ent (V3 m (o2 m))) c).arrAt 7 cfg1.N)
/-- The regions' outputs known so far: region 0's and region 1's. -/
def o4 : Outs (F := F) := fun J r c => if J = 2 then U2 m c r else U4 m c r
/-- After region 2, entered from the third host stretch applied to `U4`. -/
def U6 (c : Dev nD) : Valuation τ sig (Elt F) :=
  Function.update (Function.update (V5 m (o4 m) c) main_v41_0 ((dat2 (Ent (V5 m (o4 m))) c).arrAt 6 cfg2.N)) main_v41_1 ((dat2 (Ent (V5 m (o4 m))) c).arrAt 7 cfg2.N)
/-- What the three regions leave in their output arrays, by the item after which it is read. -/
def outs : Outs (F := F) := fun J r c => if J = 2 then U2 m c r else if J = 4 then U4 m c r else U6 m c r

/-! ### Reading the staged contents (every step a rewrite: the host stretches' folds are never opened) -/

theorem o2_at (J : ℕ) (r : Ref sig .tc) (c : Dev nD) : o2 m J r c = U2 m c r := rfl
theorem o4_at2 (r : Ref sig .tc) (c : Dev nD) : o4 m 2 r c = U2 m c r := by unfold o4; exact if_pos rfl
theorem o4_at4 (r : Ref sig .tc) (c : Dev nD) : o4 m 4 r c = U4 m c r := by unfold o4; exact if_neg (by decide)
theorem outs_at2 (r : Ref sig .tc) (c : Dev nD) : outs m 2 r c = U2 m c r := by unfold outs; exact if_pos rfl
theorem outs_at4 (r : Ref sig .tc) (c : Dev nD) : outs m 4 r c = U4 m c r := by
  unfold outs; exact (if_neg (by decide)).trans (if_pos rfl)
theorem outs_at6 (r : Ref sig .tc) (c : Dev nD) : outs m 6 r c = U6 m c r := by
  unfold outs; exact (if_neg (by decide)).trans (if_neg (by decide))

/-- The contents after region 0 read only region 0's outputs, whichever family of outputs they are read from. -/
theorem V2_outs (c : Dev nD) : V2 m (outs m) c = V2 m (o2 m) c := by
  unfold V2; rw [outs_at2 m main_v13_0 c, outs_at2 m main_v13_1 c, o2_at m 2 main_v13_0 c, o2_at m 2 main_v13_1 c]
theorem V2_o4 (c : Dev nD) : V2 m (o4 m) c = V2 m (o2 m) c := by
  unfold V2; rw [o4_at2 m main_v13_0 c, o4_at2 m main_v13_1 c, o2_at m 2 main_v13_0 c, o2_at m 2 main_v13_1 c]
/-- Region 1's entry contents read only region 0's outputs, -/
theorem V3_stage : V3 m (outs m) = V3 m (o2 m) := funext fun c => by unfold V3; rw [V2_outs m c]
theorem V3_o4 : V3 m (o4 m) = V3 m (o2 m) := funext fun c => by unfold V3; rw [V2_o4 m c]
theorem V4_outs (c : Dev nD) : V4 m (outs m) c = V4 m (o4 m) c := by
  unfold V4; rw [congrFun (V3_stage m) c, congrFun (V3_o4 m) c, outs_at4 m main_v27_0 c, outs_at4 m main_v27_1 c, o4_at4 m main_v27_0 c, o4_at4 m main_v27_1 c]
/-- and region 2's only region 0's and region 1's. -/
theorem V5_stage : V5 m (outs m) = V5 m (o4 m) := funext fun c => by unfold V5; rw [V4_outs m c]

theorem U2_a (c : Dev nD) : U2 m c (Proc.devRef .tc main_v13_0) = (dat0 (Ent (V1 m)) c).arrAt 6 cfg0.N := by
  unfold U2
  exact (Function.update_of_ne (StableHlo.devRef_ne_of_ne (by decide)) _ _).trans (Function.update_self _ _ _)
theorem U2_b (c : Dev nD) : U2 m c (Proc.devRef .tc main_v13_1) = (dat0 (Ent (V1 m)) c).arrAt 7 cfg0.N := by
  unfold U2; exact Function.update_self _ _ _
theorem U4_a (c : Dev nD) : U4 m c (Proc.devRef .tc main_v27_0) = (dat1 (Ent (V3 m (o2 m))) c).arrAt 6 cfg1.N := by
  unfold U4
  exact (Function.update_of_ne (StableHlo.devRef_ne_of_ne (by decide)) _ _).trans (Function.update_self _ _ _)
theorem U4_b (c : Dev nD) : U4 m c (Proc.devRef .tc main_v27_1) = (dat1 (Ent (V3 m (o2 m))) c).arrAt 7 cfg1.N := by
  unfold U4; exact Function.update_self _ _ _
theorem U6_a (c : Dev nD) : U6 m c (Proc.devRef .tc main_v41_0) = (dat2 (Ent (V5 m (o4 m))) c).arrAt 6 cfg2.N := by
  unfold U6
  exact (Function.update_of_ne (StableHlo.devRef_ne_of_ne (by decide)) _ _).trans (Function.update_self _ _ _)
theorem U6_b (c : Dev nD) : U6 m c (Proc.devRef .tc main_v41_1) = (dat2 (Ent (V5 m (o4 m))) c).arrAt 7 cfg2.N := by
  unfold U6; exact Function.update_self _ _ _

theorem outs_2a (c : Dev nD) : outs m 2 main_v13_0 c = (dat0 (Ent (V1 m)) c).arrAt 6 cfg0.N :=
  (outs_at2 m main_v13_0 c).trans (U2_a m c)
theorem outs_2b (c : Dev nD) : outs m 2 main_v13_1 c = (dat0 (Ent (V1 m)) c).arrAt 7 cfg0.N :=
  (outs_at2 m main_v13_1 c).trans (U2_b m c)
theorem outs_4a (c : Dev nD) : outs m 4 main_v27_0 c = (dat1 (Ent (V3 m (outs m))) c).arrAt 6 cfg1.N := by
  rw [V3_stage]; exact (outs_at4 m main_v27_0 c).trans (U4_a m c)
theorem outs_4b (c : Dev nD) : outs m 4 main_v27_1 c = (dat1 (Ent (V3 m (outs m))) c).arrAt 7 cfg1.N := by
  rw [V3_stage]; exact (outs_at4 m main_v27_1 c).trans (U4_b m c)
theorem outs_6a (c : Dev nD) : outs m 6 main_v41_0 c = (dat2 (Ent (V5 m (outs m))) c).arrAt 6 cfg2.N := by
  rw [V5_stage]; exact (outs_at6 m main_v41_0 c).trans (U6_a m c)
theorem outs_6b (c : Dev nD) : outs m 6 main_v41_1 c = (dat2 (Ent (V5 m (outs m))) c).arrAt 7 cfg2.N := by
  rw [V5_stage]; exact (outs_at6 m main_v41_1 c).trans (U6_b m c)

/-- What the contents after a region hold at the region's two output arrays. -/
theorem V2_at_a (outs : Outs (F := F)) (c : Dev nD) : V2 m outs c (Proc.devRef .tc main_v13_0) = outs 2 main_v13_0 c := by
  unfold V2; exact (Function.update_of_ne (StableHlo.devRef_ne_of_ne (by decide)) _ _).trans (Function.update_self _ _ _)
theorem V2_at_b (outs : Outs (F := F)) (c : Dev nD) : V2 m outs c (Proc.devRef .tc main_v13_1) = outs 2 main_v13_1 c := by
  unfold V2; exact Function.update_self _ _ _
theorem V4_at_a (outs : Outs (F := F)) (c : Dev nD) : V4 m outs c (Proc.devRef .tc main_v27_0) = outs 4 main_v27_0 c := by
  unfold V4; exact (Function.update_of_ne (StableHlo.devRef_ne_of_ne (by decide)) _ _).trans (Function.update_self _ _ _)
theorem V4_at_b (outs : Outs (F := F)) (c : Dev nD) : V4 m outs c (Proc.devRef .tc main_v27_1) = outs 4 main_v27_1 c := by
  unfold V4; exact Function.update_self _ _ _
theorem V6_at_a (outs : Outs (F := F)) (c : Dev nD) : V6 m outs c (Proc.devRef .tc main_v41_0) = outs 6 main_v41_0 c := by
  unfold V6; exact (Function.update_of_ne (StableHlo.devRef_ne_of_ne (by decide)) _ _).trans (Function.update_self _ _ _)
theorem V6_at_b (outs : Outs (F := F)) (c : Dev nD) : V6 m outs c (Proc.devRef .tc main_v41_1) = outs 6 main_v41_1 c := by
  unfold V6; exact Function.update_self _ _ _

/-! ## The proof data of the three pipelines, each at its region's entry contents -/

/-- A literal match on the pipeline's number, so that the configuration at a numeral reduces to the printed one. -/
def pdats : (p : Fin 3) → (c : Dev nD) → Dat τ (Elt F) Unit ℕ (UR sig nD τ) ℕ (cfgs p) c
  | ⟨0, _⟩ => fun c => dat0 (Ent (V1 m)) c
  | ⟨1, _⟩ => fun c => dat1 (Ent (V3 m (outs m))) c
  | ⟨2, _⟩ => fun c => dat2 (Ent (V5 m (outs m))) c

/-- No core owes another anything: no level is assigned. -/
abbrev Lv : GSem nD τ sig → Finset Unit := fun _ => ∅
abbrev lvl : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- At region 0's exit each of its eight arrays holds what the pipeline leaves: the six read-only ones their entry contents
    (no grid point writes them back), the two outputs what the staged contents record. -/
theorem hF0 (c : Dev nD) (w : Fin cfg0.W) : (pdats m 0 c).arrAt w cfg0.N = Ent (V2 m (outs m)) c (Pipeline.arrRef spec0 w) :=
  match w with
  | ⟨0, _⟩ => ((dat0 (Ent (V1 m)) c).arrAt_in 0 rfl _).trans ((A_eq0 (Ent (V1 m)) c 0).trans (V2_of m (outs m) c (Pipeline.arrRef spec0 0) (by decide)).symm)
  | ⟨1, _⟩ => ((dat0 (Ent (V1 m)) c).arrAt_in 1 rfl _).trans ((A_eq0 (Ent (V1 m)) c 1).trans (V2_of m (outs m) c (Pipeline.arrRef spec0 1) (by decide)).symm)
  | ⟨2, _⟩ => ((dat0 (Ent (V1 m)) c).arrAt_in 2 rfl _).trans ((A_eq0 (Ent (V1 m)) c 2).trans (V2_of m (outs m) c (Pipeline.arrRef spec0 2) (by decide)).symm)
  | ⟨3, _⟩ => ((dat0 (Ent (V1 m)) c).arrAt_in 3 rfl _).trans ((A_eq0 (Ent (V1 m)) c 3).trans (V2_of m (outs m) c (Pipeline.arrRef spec0 3) (by decide)).symm)
  | ⟨4, _⟩ => ((dat0 (Ent (V1 m)) c).arrAt_in 4 rfl _).trans ((A_eq0 (Ent (V1 m)) c 4).trans (V2_of m (outs m) c (Pipeline.arrRef spec0 4) (by decide)).symm)
  | ⟨5, _⟩ => ((dat0 (Ent (V1 m)) c).arrAt_in 5 rfl _).trans ((A_eq0 (Ent (V1 m)) c 5).trans (V2_of m (outs m) c (Pipeline.arrRef spec0 5) (by decide)).symm)
  | ⟨6, _⟩ => ((V2_at_a m (outs m) c).trans (outs_2a m c)).symm
  | ⟨7, _⟩ => ((V2_at_b m (outs m) c).trans (outs_2b m c)).symm

/-- Every buffer that is none of region 0's arrays is at its exit what it was at its entry. -/
theorem hrest0 (c : Dev nD) : ∀ b, b ∉ Finset.univ.image (Pipeline.arrRef spec0) → Ent (V2 m (outs m)) c b = Ent (V1 m) c b :=
  fun b hb => V2_of m (outs m) c b (by
    intro h
    rcases List.mem_cons.mp h with rfl | h
    · exact hb (Finset.mem_image.mpr ⟨6, Finset.mem_univ _, rfl⟩)
    rcases List.mem_cons.mp h with rfl | h
    · exact hb (Finset.mem_image.mpr ⟨7, Finset.mem_univ _, rfl⟩)
    exact absurd h (List.not_mem_nil))

/-- At region 1's exit each of its eight arrays holds what the pipeline leaves: the six read-only ones their entry contents
    (no grid point writes them back), the two outputs what the staged contents record. -/
theorem hF1 (c : Dev nD) (w : Fin cfg1.W) : (pdats m 1 c).arrAt w cfg1.N = Ent (V4 m (outs m)) c (Pipeline.arrRef spec1 w) :=
  match w with
  | ⟨0, _⟩ => ((dat1 (Ent (V3 m (outs m))) c).arrAt_in 0 rfl _).trans ((A_eq1 (Ent (V3 m (outs m))) c 0).trans (V4_of m (outs m) c (Pipeline.arrRef spec1 0) (by decide)).symm)
  | ⟨1, _⟩ => ((dat1 (Ent (V3 m (outs m))) c).arrAt_in 1 rfl _).trans ((A_eq1 (Ent (V3 m (outs m))) c 1).trans (V4_of m (outs m) c (Pipeline.arrRef spec1 1) (by decide)).symm)
  | ⟨2, _⟩ => ((dat1 (Ent (V3 m (outs m))) c).arrAt_in 2 rfl _).trans ((A_eq1 (Ent (V3 m (outs m))) c 2).trans (V4_of m (outs m) c (Pipeline.arrRef spec1 2) (by decide)).symm)
  | ⟨3, _⟩ => ((dat1 (Ent (V3 m (outs m))) c).arrAt_in 3 rfl _).trans ((A_eq1 (Ent (V3 m (outs m))) c 3).trans (V4_of m (outs m) c (Pipeline.arrRef spec1 3) (by decide)).symm)
  | ⟨4, _⟩ => ((dat1 (Ent (V3 m (outs m))) c).arrAt_in 4 rfl _).trans ((A_eq1 (Ent (V3 m (outs m))) c 4).trans (V4_of m (outs m) c (Pipeline.arrRef spec1 4) (by decide)).symm)
  | ⟨5, _⟩ => ((dat1 (Ent (V3 m (outs m))) c).arrAt_in 5 rfl _).trans ((A_eq1 (Ent (V3 m (outs m))) c 5).trans (V4_of m (outs m) c (Pipeline.arrRef spec1 5) (by decide)).symm)
  | ⟨6, _⟩ => ((V4_at_a m (outs m) c).trans (outs_4a m c)).symm
  | ⟨7, _⟩ => ((V4_at_b m (outs m) c).trans (outs_4b m c)).symm

/-- Every buffer that is none of region 1's arrays is at its exit what it was at its entry. -/
theorem hrest1 (c : Dev nD) : ∀ b, b ∉ Finset.univ.image (Pipeline.arrRef spec1) → Ent (V4 m (outs m)) c b = Ent (V3 m (outs m)) c b :=
  fun b hb => V4_of m (outs m) c b (by
    intro h
    rcases List.mem_cons.mp h with rfl | h
    · exact hb (Finset.mem_image.mpr ⟨6, Finset.mem_univ _, rfl⟩)
    rcases List.mem_cons.mp h with rfl | h
    · exact hb (Finset.mem_image.mpr ⟨7, Finset.mem_univ _, rfl⟩)
    exact absurd h (List.not_mem_nil))

/-- At region 2's exit each of its eight arrays holds what the pipeline leaves: the six read-only ones their entry contents
    (no grid point writes them back), the two outputs what the staged contents record. -/
theorem hF2 (c : Dev nD) (w : Fin cfg2.W) : (pdats m 2 c).arrAt w cfg2.N = Ent (V6 m (outs m)) c (Pipeline.arrRef spec2 w) :=
  match w with
  | ⟨0, _⟩ => ((dat2 (Ent (V5 m (outs m))) c).arrAt_in 0 rfl _).trans ((A_eq2 (Ent (V5 m (outs m))) c 0).trans (V6_of m (outs m) c (Pipeline.arrRef spec2 0) (by decide)).symm)
  | ⟨1, _⟩ => ((dat2 (Ent (V5 m (outs m))) c).arrAt_in 1 rfl _).trans ((A_eq2 (Ent (V5 m (outs m))) c 1).trans (V6_of m (outs m) c (Pipeline.arrRef spec2 1) (by decide)).symm)
  | ⟨2, _⟩ => ((dat2 (Ent (V5 m (outs m))) c).arrAt_in 2 rfl _).trans ((A_eq2 (Ent (V5 m (outs m))) c 2).trans (V6_of m (outs m) c (Pipeline.arrRef spec2 2) (by decide)).symm)
  | ⟨3, _⟩ => ((dat2 (Ent (V5 m (outs m))) c).arrAt_in 3 rfl _).trans ((A_eq2 (Ent (V5 m (outs m))) c 3).trans (V6_of m (outs m) c (Pipeline.arrRef spec2 3) (by decide)).symm)
  | ⟨4, _⟩ => ((dat2 (Ent (V5 m (outs m))) c).arrAt_in 4 rfl _).trans ((A_eq2 (Ent (V5 m (outs m))) c 4).trans (V6_of m (outs m) c (Pipeline.arrRef spec2 4) (by decide)).symm)
  | ⟨5, _⟩ => ((dat2 (Ent (V5 m (outs m))) c).arrAt_in 5 rfl _).trans ((A_eq2 (Ent (V5 m (outs m))) c 5).trans (V6_of m (outs m) c (Pipeline.arrRef spec2 5) (by decide)).symm)
  | ⟨6, _⟩ => ((V6_at_a m (outs m) c).trans (outs_6a m c)).symm
  | ⟨7, _⟩ => ((V6_at_b m (outs m) c).trans (outs_6b m c)).symm

/-- Every buffer that is none of region 2's arrays is at its exit what it was at its entry. -/
theorem hrest2 (c : Dev nD) : ∀ b, b ∉ Finset.univ.image (Pipeline.arrRef spec2) → Ent (V6 m (outs m)) c b = Ent (V5 m (outs m)) c b :=
  fun b hb => V6_of m (outs m) c b (by
    intro h
    rcases List.mem_cons.mp h with rfl | h
    · exact hb (Finset.mem_image.mpr ⟨6, Finset.mem_univ _, rfl⟩)
    rcases List.mem_cons.mp h with rfl | h
    · exact hb (Finset.mem_image.mpr ⟨7, Finset.mem_univ _, rfl⟩)
    exact absurd h (List.not_mem_nil))

/-! ## The regions as segments -/

-- a library lemma stated over the pinned configuration unifies with the printed one only when unification may unfold
-- plain definitions in a metavariable's type
set_option backward.isDefEq.respectTransparency.types false in
/-- Region 0 as a segment: entered with every unscoped buffer at `V1 m`, left with them at `V2 m (outs m)`. Its eight arrays are split
    out of the unscoped buffers at entry and put back at exit, the six it only reads as they were and the two it writes at what
    the grid's write-backs leave; the generator register goes into the pipeline's invariant and comes back; nothing is owed. -/
def reg0 : Pipeline.RegionSeg (pcfgs (F := F)) adm (pdats m) () defs₀ Variants.none Lv lvl 0 where
  win := launch0.win.to₀
  block_pos := launch0.block_pos
  stage_whole := launch0.stage_whole
  K := PEmpty
  osem k := k.elim
  ho := Pipeline.OwnSemFacts.none _
  hbody c := (body_obligation0 (Ent (V1 m)) c).loose
  hwaits := Pipeline.hwaits_of_owed_zero _ _ _ _ Lv lvl 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ent (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ent (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ent (V1 m) c) (Ent (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at `V3 m (outs m)`, left with them at `V4 m (outs m)`. Its eight arrays are split
    out of the unscoped buffers at entry and put back at exit, the six it only reads as they were and the two it writes at what
    the grid's write-backs leave; the generator register goes into the pipeline's invariant and comes back; nothing is owed. -/
def reg1 : Pipeline.RegionSeg (pcfgs (F := F)) adm (pdats m) () defs₀ Variants.none Lv lvl 1 where
  win := launch1.win.to₀
  block_pos := launch1.block_pos
  stage_whole := launch1.stage_whole
  K := PEmpty
  osem k := k.elim
  ho := Pipeline.OwnSemFacts.none _
  hbody c := (body_obligation1 (Ent (V3 m (outs m))) c).loose
  hwaits := Pipeline.hwaits_of_owed_zero _ _ _ _ Lv lvl 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ent (V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ent (V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ent (V3 m (outs m)) c) (Ent (V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at `V5 m (outs m)`, left with them at `V6 m (outs m)`. Its eight arrays are split
    out of the unscoped buffers at entry and put back at exit, the six it only reads as they were and the two it writes at what
    the grid's write-backs leave; the generator register goes into the pipeline's invariant and comes back; nothing is owed. -/
def reg2 : Pipeline.RegionSeg (pcfgs (F := F)) adm (pdats m) () defs₀ Variants.none Lv lvl 2 where
  win := launch2.win.to₀
  block_pos := launch2.block_pos
  stage_whole := launch2.stage_whole
  K := PEmpty
  osem k := k.elim
  ho := Pipeline.OwnSemFacts.none _
  hbody c := (body_obligation2 (Ent (V5 m (outs m))) c).loose
  hwaits := Pipeline.hwaits_of_owed_zero _ _ _ _ Lv lvl 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Ent (V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ent (V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ent (V5 m (outs m)) c) (Ent (V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's items as segments on a core: the host stretches' as generated, the regions' the records above, the generator
    register and the dues riding along everywhere. -/
abbrev items (c : Dev nD) : List (Seg (pcfgs (F := F)) adm (pdats m) () defs₀ Variants.none Lv lvl) :=
  segs m (outs m) Variants.none Lv lvl (fun _ c => R c) () (pdats m) (reg0 m) (reg1 m) (reg2 m) c

-- the launch theorem's implicit arguments are found by unifying its conclusion with this one, which takes unfolding plain
-- definitions in a metavariable's type
set_option backward.isDefEq.respectTransparency.types false in
/-- THE RUN. From any memory with zero counters every weakly fair execution of the program on the TensorCores terminates, nothing
    faulting, with the result buffer at the last host stretch's value over the contents fixed above, and every argument array
    as launched. -/
theorem run_val : θ_run defs (onTc (τ := τ) (main (F := F))) ⟨m, fun _ => 0, ρ⟩ (fun r => ∀ c : Dev nD,
      r.2.mem ((c.tc : Thread nD τ).loc main_v94) = V9 m (outs m) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) adm (pdats m) () cellOf_inj emb₁ defs₀ Variants.none Lv lvl m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V9 m (outs m) c))
    (hch := fun c => ⟨.rfl, .rfl, .rfl, .rfl, .rfl, .rfl, .rfl, .rfl, .rfl, sep_mono .rfl (by iintro ⟨-, HO⟩; iexact HO)⟩)
    (hinit := by
      refine Pipeline.initEach Lv lvl fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v94) = V9 m (outs m) c main_v94
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18))
    (hfin := fun c s' => ?_) (hQ := fun _ h => h)
  -- the end: the result's and each argument's buffer read off the last contents
  unfold StableHlo.held
  iintro ⟨Hh, HSI⟩
  ihave Hr := (pointsTo_read_all (Pipeline.ucRefs τ sig) (fun b => ((c : Thread nD τ).1, b)) (V9 m (outs m) c) s') $$ [Hh HSI]
  · isplitl [Hh] <;> iassumption
  icases Hr with ⟨%h, HSI⟩
  imodintro
  isplitr
  · ipureintro
    exact ⟨(h (Proc.devRef .tc main_v94) (Finset.mem_filter.mpr ⟨StableHlo.devRef_mem_tcRefs main_v94, by decide⟩)),
        (h (Proc.devRef .tc main_arg0) (Finset.mem_filter.mpr ⟨StableHlo.devRef_mem_tcRefs main_arg0, by decide⟩)).trans (V9_main_arg0 m (outs m) c),
        (h (Proc.devRef .tc main_arg1) (Finset.mem_filter.mpr ⟨StableHlo.devRef_mem_tcRefs main_arg1, by decide⟩)).trans (V9_main_arg1 m (outs m) c),
        (h (Proc.devRef .tc main_arg2) (Finset.mem_filter.mpr ⟨StableHlo.devRef_mem_tcRefs main_arg2, by decide⟩)).trans (V9_main_arg2 m (outs m) c),
        (h (Proc.devRef .tc main_arg3) (Finset.mem_filter.mpr ⟨StableHlo.devRef_mem_tcRefs main_arg3, by decide⟩)).trans (V9_main_arg3 m (outs m) c),
        (h (Proc.devRef .tc main_arg4) (Finset.mem_filter.mpr ⟨StableHlo.devRef_mem_tcRefs main_arg4, by decide⟩)).trans (V9_main_arg4 m (outs m) c),
        (h (Proc.devRef .tc main_arg5) (Finset.mem_filter.mpr ⟨StableHlo.devRef_mem_tcRefs main_arg5, by decide⟩)).trans (V9_main_arg5 m (outs m) c),
        (h (Proc.devRef .tc main_arg6) (Finset.mem_filter.mpr ⟨StableHlo.devRef_mem_tcRefs main_arg6, by decide⟩)).trans (V9_main_arg6 m (outs m) c),
        (h (Proc.devRef .tc main_arg7) (Finset.mem_filter.mpr ⟨StableHlo.devRef_mem_tcRefs main_arg7, by decide⟩)).trans (V9_main_arg7 m (outs m) c),
        (h (Proc.devRef .tc main_arg8) (Finset.mem_filter.mpr ⟨StableHlo.devRef_mem_tcRefs main_arg8, by decide⟩)).trans (V9_main_arg8 m (outs m) c),
        (h (Proc.devRef .tc main_arg9) (Finset.mem_filter.mpr ⟨StableHlo.devRef_mem_tcRefs main_arg9, by decide⟩)).trans (V9_main_arg9 m (outs m) c),
        (h (Proc.devRef .tc main_arg10) (Finset.mem_filter.mpr ⟨StableHlo.devRef_mem_tcRefs main_arg10, by decide⟩)).trans (V9_main_arg10 m (outs m) c),
        (h (Proc.devRef .tc main_arg11) (Finset.mem_filter.mpr ⟨StableHlo.devRef_mem_tcRefs main_arg11, by decide⟩)).trans (V9_main_arg11 m (outs m) c),
        (h (Proc.devRef .tc main_arg12) (Finset.mem_filter.mpr ⟨StableHlo.devRef_mem_tcRefs main_arg12, by decide⟩)).trans (V9_main_arg12 m (outs m) c),
        (h (Proc.devRef .tc main_arg13) (Finset.mem_filter.mpr ⟨StableHlo.devRef_mem_tcRefs main_arg13, by decide⟩)).trans (V9_main_arg13 m (outs m) c),
        (h (Proc.devRef .tc main_arg14) (Finset.mem_filter.mpr ⟨StableHlo.devRef_mem_tcRefs main_arg14, by decide⟩)).trans (V9_main_arg14 m (outs m) c),
        (h (Proc.devRef .tc main_arg15) (Finset.mem_filter.mpr ⟨StableHlo.devRef_mem_tcRefs main_arg15, by decide⟩)).trans (V9_main_arg15 m (outs m) c),
        (h (Proc.devRef .tc main_arg16) (Finset.mem_filter.mpr ⟨StableHlo.devRef_mem_tcRefs main_arg16, by decide⟩)).trans (V9_main_arg16 m (outs m) c),
        (h (Proc.devRef .tc main_arg17) (Finset.mem_filter.mpr ⟨StableHlo.devRef_mem_tcRefs main_arg17, by decide⟩)).trans (V9_main_arg17 m (outs m) c),
        (h (Proc.devRef .tc main_arg18) (Finset.mem_filter.mpr ⟨StableHlo.devRef_mem_tcRefs main_arg18, by decide⟩)).trans (V9_main_arg18 m (outs m) c)⟩
  · iexact HSI

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2) (run_val m ρ)

end Cert.KernelIdeal.Gen

end
-- ==== Proof.RefOps.lean ====
/- The reference program's host operations as lists: every operation of @main in order, a called function's
   operations standing in its call's place over that call's buffers, cut into seven consecutive chunks — per
   layer the sparse stage (up to its scatter-add) and the dense stage (up to its normalizing quotient), then the
   tail. With each chunk the references it writes, and that its operations touch TensorCore references only. -/
import proofs.«136498_j73031623901810_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0's sparse stage: the edge values as a column, the column indices wrapped into range, the gathered rows scaled, and their scatter-add into the zero array by row index. (16 operations.) -/
abbrev opsS0 : List (HloOp τ sig (Elt F)) :=
  [ StableHlo.unary main_arg15 main_v0 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg14 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg14 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg14 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.binary main_arg0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v0 main_v8 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v8 main_v7 main_v9 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg13 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The references `opsS0` writes, one an operation, in order. -/
abbrev opsS0_W : List (Ref sig .tc) :=
  [main_v0, main_c, main_v1, main_v2, main_c_0, main_v3, main_v4, main_v5, main_v6, main_v7, main_v8, main_v9, main_cst, main_v10, main_v11, main_v12]

set_option maxRecDepth 8192 in
theorem opsS0_sub : (opsS0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Layer 0's dense stage: the two affine maps, of ego + side and of ego * side, each through the leaky rectifier (its comparison, its scaled copy, the select), their sum, its row norms (squares, row sums, square root), the floor 1e-12, and the quotient. (35 operations.) -/
abbrev opsD0 : List (HloOp τ sig (Elt F)) :=
  [ StableHlo.binary main_arg0 main_v12 main_v13 (addf : (⟨S100000x128, .f32⟩ : BufTy).Contents (Elt F) → (⟨S100000x128, .f32⟩ : BufTy).Contents (Elt F) → (⟨S100000x128, .f32⟩ : BufTy).Contents (Elt F)),
    StableHlo.binary main_v13 main_arg1 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (TRef.of (T := ⟨S100000x128, .f32⟩) main_v17) main_call0.v0 main_call0.v1 (cmpf .oge),
    TRef.nullary main_call0.cst_0 (constant S_ .f32 0x3C23D70A#32),
    TRef.unary main_call0.cst_0 main_call0.v2 (broadcastInDim S100000x128 ![] bcast_S_S100000x128),
    TRef.binary main_call0.v2 (TRef.of (T := ⟨S100000x128, .f32⟩) main_v17) main_call0.v3 mulf,
    TRef.ternary main_call0.v1 (TRef.of (T := ⟨S100000x128, .f32⟩) main_v17) main_call0.v3 main_call0.call0.v0 select,
    StableHlo.binary main_arg0 main_v12 main_v19 (mulf : (⟨S100000x128, .f32⟩ : BufTy).Contents (Elt F) → (⟨S100000x128, .f32⟩ : BufTy).Contents (Elt F) → (⟨S100000x128, .f32⟩ : BufTy).Contents (Elt F)),
    StableHlo.binary main_v19 main_arg3 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (TRef.of (T := ⟨S100000x128, .f32⟩) main_v23) main_call1.v0 main_call1.v1 (cmpf .oge),
    TRef.nullary main_call1.cst_0 (constant S_ .f32 0x3C23D70A#32),
    TRef.unary main_call1.cst_0 main_call1.v2 (broadcastInDim S100000x128 ![] bcast_S_S100000x128),
    TRef.binary main_call1.v2 (TRef.of (T := ⟨S100000x128, .f32⟩) main_v23) main_call1.v3 mulf,
    TRef.ternary main_call1.v1 (TRef.of (T := ⟨S100000x128, .f32⟩) main_v23) main_call1.v3 main_call1.call0.v0 select,
    StableHlo.binary main_v18 main_v24 main_v25 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v25) (TRef.of (T := ⟨S100000x128, .f32⟩) main_v25) main_call2.v0 mulf,
    TRef.nullary main_call2.cst (constant S_ .f32 0x00000000#32),
    TRef.binary main_call2.v0 main_call2.cst main_call2.v1 (fun x v => Host.reduceAdd x v reducesTo_S100000x128_S100000_d1 h_S_),
    TRef.unary main_call2.v1 main_call2.v2 (broadcastInDim S100000x1 ![0] bcast_S100000_S100000x1_0),
    TRef.unary main_call2.v2 main_call2.v3 Host.sqrt,
    StableHlo.nullary main_cst_1 (constant S_ .f32 0x2B8CBCCC#32),
    StableHlo.unary main_cst_1 main_v27 (broadcastInDim S100000x1 ![] bcast_S_S100000x1 : (⟨S_, .f32⟩ : BufTy).Contents (Elt F) → (⟨S100000x1, .f32⟩ : BufTy).Contents (Elt F)),
    StableHlo.binary main_v26 main_v27 main_v28 (maximumf : (⟨S100000x1, .f32⟩ : BufTy).Contents (Elt F) → (⟨S100000x1, .f32⟩ : BufTy).Contents (Elt F) → (⟨S100000x1, .f32⟩ : BufTy).Contents (Elt F)),
    StableHlo.unary main_v28 main_v29 (broadcastInDim S100000x128 ![0, 1] bcast_S100000x1_S100000x128_0_1 : (⟨S100000x1, .f32⟩ : BufTy).Contents (Elt F) → (⟨S100000x128, .f32⟩ : BufTy).Contents (Elt F)),
    StableHlo.binary main_v25 main_v29 main_v30 (Host.divf : (⟨S100000x128, .f32⟩ : BufTy).Contents (Elt F) → (⟨S100000x128, .f32⟩ : BufTy).Contents (Elt F) → (⟨S100000x128, .f32⟩ : BufTy).Contents (Elt F)) ]

/-- The references `opsD0` writes, one an operation, in order. -/
abbrev opsD0_W : List (Ref sig .tc) :=
  [main_v13, main_v14, main_v15, main_v16, main_v17, main_call0_cst, main_call0_v0, main_call0_v1, main_call0_cst_0, main_call0_v2, main_call0_v3, main_v18, main_v19, main_v20, main_v21, main_v22, main_v23, main_call1_cst, main_call1_v0, main_call1_v1, main_call1_cst_0, main_call1_v2, main_call1_v3, main_v24, main_v25, main_call2_v0, main_call2_cst, main_call2_v1, main_call2_v2, main_v26, main_cst_1, main_v27, main_v28, main_v29, main_v30]

set_option maxRecDepth 8192 in
theorem opsD0_sub : (opsD0 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Layer 1's sparse stage, on layer 0's unnormalized output. (16 operations.) -/
abbrev opsS1 : List (HloOp τ sig (Elt F)) :=
  [ StableHlo.unary main_arg15 main_v31 (broadcastInDim S1600000x1 ![0] bcast_S1600000_S1600000x1_0 : (⟨S1600000, .f32⟩ : BufTy).Contents (Elt F) → (⟨S1600000x1, .f32⟩ : BufTy).Contents (Elt F)),
    StableHlo.nullary main_c_2 (constantI S_ 32 0#32),
    StableHlo.unary main_c_2 main_v32 (broadcastInDim S1600000 ![] bcast_S_S1600000 : (⟨S_, .i32⟩ : BufTy).Contents (Elt F) → (⟨S1600000, .i32⟩ : BufTy).Contents (Elt F)),
    StableHlo.binary main_arg14 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v34 (broadcastInDim S1600000 ![] bcast_S_S1600000 : (⟨S_, .i32⟩ : BufTy).Contents (Elt F) → (⟨S1600000, .i32⟩ : BufTy).Contents (Elt F)),
    StableHlo.binary main_arg14 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_arg14 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v25 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v31 main_v39 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v39 main_v38 main_v40 (mulf : (⟨S1600000x128, .f32⟩ : BufTy).Contents (Elt F) → (⟨S1600000x128, .f32⟩ : BufTy).Contents (Elt F) → (⟨S1600000x128, .f32⟩ : BufTy).Contents (Elt F)),
    StableHlo.nullary main_cst_4 (constant S_ .f32 0x00000000#32),
    StableHlo.unary main_cst_4 main_v41 (broadcastInDim S100000x128 ![] bcast_S_S100000x128 : (⟨S_, .f32⟩ : BufTy).Contents (Elt F) → (⟨S100000x128, .f32⟩ : BufTy).Contents (Elt F)),
    StableHlo.unary main_arg13 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The references `opsS1` writes, one an operation, in order. -/
abbrev opsS1_W : List (Ref sig .tc) :=
  [main_v31, main_c_2, main_v32, main_v33, main_c_3, main_v34, main_v35, main_v36, main_v37, main_v38, main_v39, main_v40, main_cst_4, main_v41, main_v42, main_v43]

set_option maxRecDepth 8192 in
theorem opsS1_sub : (opsS1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Layer 1's dense stage (width 128 to 64). (35 operations.) -/
abbrev opsD1 : List (HloOp τ sig (Elt F)) :=
  [ StableHlo.binary main_v25 main_v43 main_v44 (addf : (⟨S100000x128, .f32⟩ : BufTy).Contents (Elt F) → (⟨S100000x128, .f32⟩ : BufTy).Contents (Elt F) → (⟨S100000x128, .f32⟩ : BufTy).Contents (Elt F)),
    StableHlo.binary main_v44 main_arg5 main_v45 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (TRef.of (T := ⟨S100000x64, .f32⟩) main_v48) main_call3.v0 main_call3.v1 (cmpf .oge),
    TRef.nullary main_call3.cst_0 (constant S_ .f32 0x3C23D70A#32),
    TRef.unary main_call3.cst_0 main_call3.v2 (broadcastInDim S100000x64 ![] bcast_S_S100000x64),
    TRef.binary main_call3.v2 (TRef.of (T := ⟨S100000x64, .f32⟩) main_v48) main_call3.v3 mulf,
    TRef.ternary main_call3.v1 (TRef.of (T := ⟨S100000x64, .f32⟩) main_v48) main_call3.v3 main_call3.call0.v0 select,
    StableHlo.binary main_v25 main_v43 main_v50 (mulf : (⟨S100000x128, .f32⟩ : BufTy).Contents (Elt F) → (⟨S100000x128, .f32⟩ : BufTy).Contents (Elt F) → (⟨S100000x128, .f32⟩ : BufTy).Contents (Elt F)),
    StableHlo.binary main_v50 main_arg7 main_v51 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v53 main_v54 (addf : (⟨S100000x64, .f32⟩ : BufTy).Contents (Elt F) → (⟨S100000x64, .f32⟩ : BufTy).Contents (Elt F) → (⟨S100000x64, .f32⟩ : BufTy).Contents (Elt F)),
    TRef.nullary main_call4.cst (constant S_ .f32 0x00000000#32),
    TRef.unary main_call4.cst main_call4.v0 (broadcastInDim S100000x64 ![] bcast_S_S100000x64),
    TRef.binary (TRef.of (T := ⟨S100000x64, .f32⟩) main_v54) main_call4.v0 main_call4.v1 (cmpf .oge),
    TRef.nullary main_call4.cst_0 (constant S_ .f32 0x3C23D70A#32),
    TRef.unary main_call4.cst_0 main_call4.v2 (broadcastInDim S100000x64 ![] bcast_S_S100000x64),
    TRef.binary main_call4.v2 (TRef.of (T := ⟨S100000x64, .f32⟩) main_v54) main_call4.v3 mulf,
    TRef.ternary main_call4.v1 (TRef.of (T := ⟨S100000x64, .f32⟩) main_v54) main_call4.v3 main_call4.call0.v0 select,
    StableHlo.binary main_v49 main_v55 main_v56 (addf : (⟨S100000x64, .f32⟩ : BufTy).Contents (Elt F) → (⟨S100000x64, .f32⟩ : BufTy).Contents (Elt F) → (⟨S100000x64, .f32⟩ : BufTy).Contents (Elt F)),
    TRef.binary (TRef.of (T := ⟨S100000x64, .f32⟩) main_v56) (TRef.of (T := ⟨S100000x64, .f32⟩) main_v56) main_call5.v0 mulf,
    TRef.nullary main_call5.cst (constant S_ .f32 0x00000000#32),
    TRef.binary main_call5.v0 main_call5.cst main_call5.v1 (fun x v => Host.reduceAdd x v reducesTo_S100000x64_S100000_d1 h_S_),
    TRef.unary main_call5.v1 main_call5.v2 (broadcastInDim S100000x1 ![0] bcast_S100000_S100000x1_0),
    TRef.unary main_call5.v2 main_call5.v3 Host.sqrt,
    StableHlo.nullary main_cst_5 (constant S_ .f32 0x2B8CBCCC#32),
    StableHlo.unary main_cst_5 main_v58 (broadcastInDim S100000x1 ![] bcast_S_S100000x1 : (⟨S_, .f32⟩ : BufTy).Contents (Elt F) → (⟨S100000x1, .f32⟩ : BufTy).Contents (Elt F)),
    StableHlo.binary main_v57 main_v58 main_v59 (maximumf : (⟨S100000x1, .f32⟩ : BufTy).Contents (Elt F) → (⟨S100000x1, .f32⟩ : BufTy).Contents (Elt F) → (⟨S100000x1, .f32⟩ : BufTy).Contents (Elt F)),
    StableHlo.unary main_v59 main_v60 (broadcastInDim S100000x64 ![0, 1] bcast_S100000x1_S100000x64_0_1 : (⟨S100000x1, .f32⟩ : BufTy).Contents (Elt F) → (⟨S100000x64, .f32⟩ : BufTy).Contents (Elt F)),
    StableHlo.binary main_v56 main_v60 main_v61 (Host.divf : (⟨S100000x64, .f32⟩ : BufTy).Contents (Elt F) → (⟨S100000x64, .f32⟩ : BufTy).Contents (Elt F) → (⟨S100000x64, .f32⟩ : BufTy).Contents (Elt F)) ]

/-- The references `opsD1` writes, one an operation, in order. -/
abbrev opsD1_W : List (Ref sig .tc) :=
  [main_v44, main_v45, main_v46, main_v47, main_v48, main_call3_cst, main_call3_v0, main_call3_v1, main_call3_cst_0, main_call3_v2, main_call3_v3, main_v49, main_v50, main_v51, main_v52, main_v53, main_v54, main_call4_cst, main_call4_v0, main_call4_v1, main_call4_cst_0, main_call4_v2, main_call4_v3, main_v55, main_v56, main_call5_v0, main_call5_cst, main_call5_v1, main_call5_v2, main_v57, main_cst_5, main_v58, main_v59, main_v60, main_v61]

set_option maxRecDepth 8192 in
theorem opsD1_sub : (opsD1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Layer 2's sparse stage, on layer 1's unnormalized output. (16 operations.) -/
abbrev opsS2 : List (HloOp τ sig (Elt F)) :=
  [ StableHlo.unary main_arg15 main_v62 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v63 (broadcastInDim S1600000 ![] bcast_S_S1600000 : (⟨S_, .i32⟩ : BufTy).Contents (Elt F) → (⟨S1600000, .i32⟩ : BufTy).Contents (Elt F)),
    StableHlo.binary main_arg14 main_v63 main_v64 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v65 (broadcastInDim S1600000 ![] bcast_S_S1600000 : (⟨S_, .i32⟩ : BufTy).Contents (Elt F) → (⟨S1600000, .i32⟩ : BufTy).Contents (Elt F)),
    StableHlo.binary main_arg14 main_v65 main_v66 (addi : (⟨S1600000, .i32⟩ : BufTy).Contents (Elt F) → (⟨S1600000, .i32⟩ : BufTy).Contents (Elt F) → (⟨S1600000, .i32⟩ : BufTy).Contents (Elt F)),
    StableHlo.ternary main_v64 main_v66 main_arg14 main_v67 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v67 main_v68 (broadcastInDim S1600000x1 ![0] bcast_S1600000_S1600000x1_0 : (⟨S1600000, .i32⟩ : BufTy).Contents (Elt F) → (⟨S1600000x1, .i32⟩ : BufTy).Contents (Elt F)),
    StableHlo.binary main_v56 main_v68 main_v69 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v62 main_v70 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v70 main_v69 main_v71 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v72 (broadcastInDim S100000x64 ![] bcast_S_S100000x64 : (⟨S_, .f32⟩ : BufTy).Contents (Elt F) → (⟨S100000x64, .f32⟩ : BufTy).Contents (Elt F)),
    StableHlo.unary main_arg13 main_v73 (broadcastInDim S1600000x1 ![0] bcast_S1600000_S1600000x1_0 : (⟨S1600000, .i32⟩ : BufTy).Contents (Elt F) → (⟨S1600000x1, .i32⟩ : BufTy).Contents (Elt F)),
    StableHlo.ternary main_v72 main_v73 main_v71 main_v74 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The references `opsS2` writes, one an operation, in order. -/
abbrev opsS2_W : List (Ref sig .tc) :=
  [main_v62, main_c_6, main_v63, main_v64, main_c_7, main_v65, main_v66, main_v67, main_v68, main_v69, main_v70, main_v71, main_cst_8, main_v72, main_v73, main_v74]

set_option maxRecDepth 8192 in
theorem opsS2_sub : (opsS2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Layer 2's dense stage (width 64 to 32). (35 operations.) -/
abbrev opsD2 : List (HloOp τ sig (Elt F)) :=
  [ StableHlo.binary main_v56 main_v74 main_v75 (addf : (⟨S100000x64, .f32⟩ : BufTy).Contents (Elt F) → (⟨S100000x64, .f32⟩ : BufTy).Contents (Elt F) → (⟨S100000x64, .f32⟩ : BufTy).Contents (Elt F)),
    StableHlo.binary main_v75 main_arg9 main_v76 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg10 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S100000x32 ![0, 1] bcast_S1x32_S100000x32_0_1 : (⟨S1x32, .f32⟩ : BufTy).Contents (Elt F) → (⟨S100000x32, .f32⟩ : BufTy).Contents (Elt F)),
    StableHlo.binary main_v76 main_v78 main_v79 (addf : (⟨S100000x32, .f32⟩ : BufTy).Contents (Elt F) → (⟨S100000x32, .f32⟩ : BufTy).Contents (Elt F) → (⟨S100000x32, .f32⟩ : BufTy).Contents (Elt F)),
    TRef.nullary main_call6.cst (constant S_ .f32 0x00000000#32),
    TRef.unary main_call6.cst main_call6.v0 (broadcastInDim S100000x32 ![] bcast_S_S100000x32),
    TRef.binary (TRef.of (T := ⟨S100000x32, .f32⟩) main_v79) main_call6.v0 main_call6.v1 (cmpf .oge),
    TRef.nullary main_call6.cst_0 (constant S_ .f32 0x3C23D70A#32),
    TRef.unary main_call6.cst_0 main_call6.v2 (broadcastInDim S100000x32 ![] bcast_S_S100000x32),
    TRef.binary main_call6.v2 (TRef.of (T := ⟨S100000x32, .f32⟩) main_v79) main_call6.v3 mulf,
    TRef.ternary main_call6.v1 (TRef.of (T := ⟨S100000x32, .f32⟩) main_v79) main_call6.v3 main_call6.call0.v0 select,
    StableHlo.binary main_v56 main_v74 main_v81 (mulf : (⟨S100000x64, .f32⟩ : BufTy).Contents (Elt F) → (⟨S100000x64, .f32⟩ : BufTy).Contents (Elt F) → (⟨S100000x64, .f32⟩ : BufTy).Contents (Elt F)),
    StableHlo.binary main_v81 main_arg11 main_v82 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg12 main_v83 (broadcastInDim S1x32 ![1] bcast_S32_S1x32_1 : (⟨S32, .f32⟩ : BufTy).Contents (Elt F) → (⟨S1x32, .f32⟩ : BufTy).Contents (Elt F)),
    StableHlo.unary main_v83 main_v84 (broadcastInDim S100000x32 ![0, 1] bcast_S1x32_S100000x32_0_1 : (⟨S1x32, .f32⟩ : BufTy).Contents (Elt F) → (⟨S100000x32, .f32⟩ : BufTy).Contents (Elt F)),
    StableHlo.binary main_v82 main_v84 main_v85 (addf : (⟨S100000x32, .f32⟩ : BufTy).Contents (Elt F) → (⟨S100000x32, .f32⟩ : BufTy).Contents (Elt F) → (⟨S100000x32, .f32⟩ : BufTy).Contents (Elt F)),
    TRef.nullary main_call7.cst (constant S_ .f32 0x00000000#32),
    TRef.unary main_call7.cst main_call7.v0 (broadcastInDim S100000x32 ![] bcast_S_S100000x32),
    TRef.binary (TRef.of (T := ⟨S100000x32, .f32⟩) main_v85) main_call7.v0 main_call7.v1 (cmpf .oge),
    TRef.nullary main_call7.cst_0 (constant S_ .f32 0x3C23D70A#32),
    TRef.unary main_call7.cst_0 main_call7.v2 (broadcastInDim S100000x32 ![] bcast_S_S100000x32),
    TRef.binary main_call7.v2 (TRef.of (T := ⟨S100000x32, .f32⟩) main_v85) main_call7.v3 mulf,
    TRef.ternary main_call7.v1 (TRef.of (T := ⟨S100000x32, .f32⟩) main_v85) main_call7.v3 main_call7.call0.v0 select,
    StableHlo.binary main_v80 main_v86 main_v87 (addf : (⟨S100000x32, .f32⟩ : BufTy).Contents (Elt F) → (⟨S100000x32, .f32⟩ : BufTy).Contents (Elt F) → (⟨S100000x32, .f32⟩ : BufTy).Contents (Elt F)),
    TRef.binary (TRef.of (T := ⟨S100000x32, .f32⟩) main_v87) (TRef.of (T := ⟨S100000x32, .f32⟩) main_v87) main_call8.v0 mulf,
    TRef.nullary main_call8.cst (constant S_ .f32 0x00000000#32),
    TRef.binary main_call8.v0 main_call8.cst main_call8.v1 (fun x v => Host.reduceAdd x v reducesTo_S100000x32_S100000_d1 h_S_),
    TRef.unary main_call8.v1 main_call8.v2 (broadcastInDim S100000x1 ![0] bcast_S100000_S100000x1_0),
    TRef.unary main_call8.v2 main_call8.v3 Host.sqrt,
    StableHlo.nullary main_cst_9 (constant S_ .f32 0x2B8CBCCC#32),
    StableHlo.unary main_cst_9 main_v89 (broadcastInDim S100000x1 ![] bcast_S_S100000x1 : (⟨S_, .f32⟩ : BufTy).Contents (Elt F) → (⟨S100000x1, .f32⟩ : BufTy).Contents (Elt F)),
    StableHlo.binary main_v88 main_v89 main_v90 (maximumf : (⟨S100000x1, .f32⟩ : BufTy).Contents (Elt F) → (⟨S100000x1, .f32⟩ : BufTy).Contents (Elt F) → (⟨S100000x1, .f32⟩ : BufTy).Contents (Elt F)),
    StableHlo.unary main_v90 main_v91 (broadcastInDim S100000x32 ![0, 1] bcast_S100000x1_S100000x32_0_1 : (⟨S100000x1, .f32⟩ : BufTy).Contents (Elt F) → (⟨S100000x32, .f32⟩ : BufTy).Contents (Elt F)),
    StableHlo.binary main_v87 main_v91 main_v92 (Host.divf : (⟨S100000x32, .f32⟩ : BufTy).Contents (Elt F) → (⟨S100000x32, .f32⟩ : BufTy).Contents (Elt F) → (⟨S100000x32, .f32⟩ : BufTy).Contents (Elt F)) ]

/-- The references `opsD2` writes, one an operation, in order. -/
abbrev opsD2_W : List (Ref sig .tc) :=
  [main_v75, main_v76, main_v77, main_v78, main_v79, main_call6_cst, main_call6_v0, main_call6_v1, main_call6_cst_0, main_call6_v2, main_call6_v3, main_v80, main_v81, main_v82, main_v83, main_v84, main_v85, main_call7_cst, main_call7_v0, main_call7_v1, main_call7_cst_0, main_call7_v2, main_call7_v3, main_v86, main_v87, main_call8_v0, main_call8_cst, main_call8_v1, main_call8_v2, main_v88, main_cst_9, main_v89, main_v90, main_v91, main_v92]

set_option maxRecDepth 8192 in
theorem opsD2_sub : (opsD2 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The tail: the four normalized blocks side by side, the three row gathers, the two score sums, the log-sigmoid of their difference (through softplus), its mean, the three halved mean square norms, and the final sum. (91 operations.) -/
abbrev opsT : List (HloOp τ sig (Elt F)) :=
  [ StableHlo.nary ![main_arg0, main_v30, main_v61, main_v92] main_v93 (fun u => concatenate S100000x352 1 [⟨S100000x128, u 0⟩, ⟨S100000x128, u 1⟩, ⟨S100000x64, u 2⟩, ⟨S100000x32, u 3⟩] concatenates_S100000x128_S100000x128_S100000x64_S100000x32_S100000x352_d1),
    StableHlo.nullary main_c_10 (constantI S_ 32 0#32),
    StableHlo.unary main_c_10 main_v94 (broadcastInDim S8192 ![] bcast_S_S8192 : (⟨S_, .i32⟩ : BufTy).Contents (Elt F) → (⟨S8192, .i32⟩ : BufTy).Contents (Elt F)),
    StableHlo.binary main_arg16 main_v94 main_v95 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 100000#32),
    StableHlo.unary main_c_11 main_v96 (broadcastInDim S8192 ![] bcast_S_S8192 : (⟨S_, .i32⟩ : BufTy).Contents (Elt F) → (⟨S8192, .i32⟩ : BufTy).Contents (Elt F)),
    StableHlo.binary main_arg16 main_v96 main_v97 (addi : (⟨S8192, .i32⟩ : BufTy).Contents (Elt F) → (⟨S8192, .i32⟩ : BufTy).Contents (Elt F) → (⟨S8192, .i32⟩ : BufTy).Contents (Elt F)),
    StableHlo.ternary main_v95 main_v97 main_arg16 main_v98 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v98 main_v99 (broadcastInDim S8192x1 ![0] bcast_S8192_S8192x1_0 : (⟨S8192, .i32⟩ : BufTy).Contents (Elt F) → (⟨S8192x1, .i32⟩ : BufTy).Contents (Elt F)),
    StableHlo.binary main_v93 main_v99 main_v100 ((fun x i => Host.gather gather_S100000x352_S8192x1_S8192x352_1_0_n_n_0_1_1352 x i) : (⟨S100000x352, .f32⟩ : BufTy).Contents (Elt F) → (⟨S8192x1, .i32⟩ : BufTy).Contents (Elt F) → (⟨S8192x352, .f32⟩ : BufTy).Contents (Elt F)),
    StableHlo.nullary main_c_12 (constantI S_ 32 0#32),
    StableHlo.unary main_c_12 main_v101 (broadcastInDim S8192 ![] bcast_S_S8192 : (⟨S_, .i32⟩ : BufTy).Contents (Elt F) → (⟨S8192, .i32⟩ : BufTy).Contents (Elt F)),
    StableHlo.binary main_arg17 main_v101 main_v102 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 100000#32),
    StableHlo.unary main_c_13 main_v103 (broadcastInDim S8192 ![] bcast_S_S8192 : (⟨S_, .i32⟩ : BufTy).Contents (Elt F) → (⟨S8192, .i32⟩ : BufTy).Contents (Elt F)),
    StableHlo.binary main_arg17 main_v103 main_v104 (addi : (⟨S8192, .i32⟩ : BufTy).Contents (Elt F) → (⟨S8192, .i32⟩ : BufTy).Contents (Elt F) → (⟨S8192, .i32⟩ : BufTy).Contents (Elt F)),
    StableHlo.ternary main_v102 main_v104 main_arg17 main_v105 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v105 main_v106 (broadcastInDim S8192x1 ![0] bcast_S8192_S8192x1_0 : (⟨S8192, .i32⟩ : BufTy).Contents (Elt F) → (⟨S8192x1, .i32⟩ : BufTy).Contents (Elt F)),
    StableHlo.binary main_v93 main_v106 main_v107 ((fun x i => Host.gather gather_S100000x352_S8192x1_S8192x352_1_0_n_n_0_1_1352 x i) : (⟨S100000x352, .f32⟩ : BufTy).Contents (Elt F) → (⟨S8192x1, .i32⟩ : BufTy).Contents (Elt F) → (⟨S8192x352, .f32⟩ : BufTy).Contents (Elt F)),
    StableHlo.nullary main_c_14 (constantI S_ 32 0#32),
    StableHlo.unary main_c_14 main_v108 (broadcastInDim S8192 ![] bcast_S_S8192 : (⟨S_, .i32⟩ : BufTy).Contents (Elt F) → (⟨S8192, .i32⟩ : BufTy).Contents (Elt F)),
    StableHlo.binary main_arg18 main_v108 main_v109 (cmpi .slt : (⟨S8192, .i32⟩ : BufTy).Contents (Elt F) → (⟨S8192, .i32⟩ : BufTy).Contents (Elt F) → (⟨S8192, .i1⟩ : BufTy).Contents (Elt F)),
    StableHlo.nullary main_c_15 (constantI S_ 32 100000#32),
    StableHlo.unary main_c_15 main_v110 (broadcastInDim S8192 ![] bcast_S_S8192 : (⟨S_, .i32⟩ : BufTy).Contents (Elt F) → (⟨S8192, .i32⟩ : BufTy).Contents (Elt F)),
    StableHlo.binary main_arg18 main_v110 main_v111 (addi : (⟨S8192, .i32⟩ : BufTy).Contents (Elt F) → (⟨S8192, .i32⟩ : BufTy).Contents (Elt F) → (⟨S8192, .i32⟩ : BufTy).Contents (Elt F)),
    StableHlo.ternary main_v109 main_v111 main_arg18 main_v112 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v112 main_v113 (broadcastInDim S8192x1 ![0] bcast_S8192_S8192x1_0 : (⟨S8192, .i32⟩ : BufTy).Contents (Elt F) → (⟨S8192x1, .i32⟩ : BufTy).Contents (Elt F)),
    StableHlo.binary main_v93 main_v113 main_v114 ((fun x i => Host.gather gather_S100000x352_S8192x1_S8192x352_1_0_n_n_0_1_1352 x i) : (⟨S100000x352, .f32⟩ : BufTy).Contents (Elt F) → (⟨S8192x1, .i32⟩ : BufTy).Contents (Elt F) → (⟨S8192x352, .f32⟩ : BufTy).Contents (Elt F)),
    StableHlo.binary main_v100 main_v107 main_v115 (mulf : (⟨S8192x352, .f32⟩ : BufTy).Contents (Elt F) → (⟨S8192x352, .f32⟩ : BufTy).Contents (Elt F) → (⟨S8192x352, .f32⟩ : BufTy).Contents (Elt F)),
    StableHlo.nullary main_cst_16 (constant S_ .f32 0x00000000#32),
    StableHlo.binary main_v115 main_cst_16 main_v116 ((fun x v => Host.reduceAdd x v reducesTo_S8192x352_S8192_d1 h_S_) : (⟨S8192x352, .f32⟩ : BufTy).Contents (Elt F) → (⟨S_, .f32⟩ : BufTy).Contents (Elt F) → (⟨S8192, .f32⟩ : BufTy).Contents (Elt F)),
    StableHlo.binary main_v100 main_v114 main_v117 (mulf : (⟨S8192x352, .f32⟩ : BufTy).Contents (Elt F) → (⟨S8192x352, .f32⟩ : BufTy).Contents (Elt F) → (⟨S8192x352, .f32⟩ : BufTy).Contents (Elt F)),
    StableHlo.nullary main_cst_17 (constant S_ .f32 0x00000000#32),
    StableHlo.binary main_v117 main_cst_17 main_v118 ((fun x v => Host.reduceAdd x v reducesTo_S8192x352_S8192_d1 h_S_) : (⟨S8192x352, .f32⟩ : BufTy).Contents (Elt F) → (⟨S_, .f32⟩ : BufTy).Contents (Elt F) → (⟨S8192, .f32⟩ : BufTy).Contents (Elt F)),
    StableHlo.binary main_v116 main_v118 main_v119 (subf : (⟨S8192, .f32⟩ : BufTy).Contents (Elt F) → (⟨S8192, .f32⟩ : BufTy).Contents (Elt F) → (⟨S8192, .f32⟩ : BufTy).Contents (Elt F)),
    TRef.unary (TRef.of (T := ⟨S8192, .f32⟩) main_v119) main_call9.v0 Host.negf,
    TRef.nullary main_call9.call0.cst (constant S_ .f32 0x00000000#32),
    TRef.unary main_call9.call0.cst main_call9.call0.v0 (broadcastInDim S8192 ![] bcast_S_S8192),
    TRef.binary main_call9.v0 main_call9.call0.v0 main_call9.call0.v1 maximumf,
    TRef.unary main_call9.call0.cst main_call9.call0.v2 (broadcastInDim S8192 ![] bcast_S_S8192),
    TRef.binary main_call9.v0 main_call9.call0.v2 main_call9.call0.v3 subf,
    TRef.binary main_call9.call0.v3 main_call9.call0.v3 main_call9.call0.v4 (cmpf .une),
    TRef.unary main_call9.call0.cst main_call9.call0.v5 (broadcastInDim S8192 ![] bcast_S_S8192),
    TRef.binary main_call9.v0 main_call9.call0.v5 main_call9.call0.v6 addf,
    TRef.unary main_call9.call0.v3 main_call9.call0.v7 Host.absf,
    TRef.unary main_call9.call0.v7 main_call9.call0.v8 Host.negf,
    TRef.unary main_call9.call0.v8 main_call9.call0.v9 Host.exp,
    TRef.unary main_call9.call0.v9 main_call9.call0.v10 Host.log1p,
    TRef.binary main_call9.call0.v1 main_call9.call0.v10 main_call9.call0.v11 addf,
    TRef.ternary main_call9.call0.v4 main_call9.call0.v6 main_call9.call0.v11 main_call9.call0.v12 select,
    TRef.unary main_call9.call0.v12 main_call9.v2 Host.negf,
    StableHlo.unary main_v120 main_v121 (Host.negf : (⟨S8192, .f32⟩ : BufTy).Contents (Elt F) → (⟨S8192, .f32⟩ : BufTy).Contents (Elt F)),
    StableHlo.nullary main_cst_18 (constant S_ .f32 0x00000000#32),
    StableHlo.binary main_v121 main_cst_18 main_v122 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_19 (constant S_ .f32 0x46000000#32),
    StableHlo.binary main_v122 main_cst_19 main_v123 (Host.divf : (⟨S_, .f32⟩ : BufTy).Contents (Elt F) → (⟨S_, .f32⟩ : BufTy).Contents (Elt F) → (⟨S_, .f32⟩ : BufTy).Contents (Elt F)),
    StableHlo.binary main_v100 main_v100 main_v124 (mulf : (⟨S8192x352, .f32⟩ : BufTy).Contents (Elt F) → (⟨S8192x352, .f32⟩ : BufTy).Contents (Elt F) → (⟨S8192x352, .f32⟩ : BufTy).Contents (Elt F)),
    StableHlo.nullary main_cst_20 (constant S_ .f32 0x00000000#32),
    StableHlo.binary main_v124 main_cst_20 main_v125 ((fun x v => Host.reduceAdd x v reducesTo_S8192x352_S8192_d1 h_S_) : (⟨S8192x352, .f32⟩ : BufTy).Contents (Elt F) → (⟨S_, .f32⟩ : BufTy).Contents (Elt F) → (⟨S8192, .f32⟩ : BufTy).Contents (Elt F)),
    StableHlo.nullary main_cst_21 (constant S_ .f32 0x40000000#32),
    StableHlo.unary main_cst_21 main_v126 (broadcastInDim S8192 ![] bcast_S_S8192 : (⟨S_, .f32⟩ : BufTy).Contents (Elt F) → (⟨S8192, .f32⟩ : BufTy).Contents (Elt F)),
    StableHlo.binary main_v125 main_v126 main_v127 (Host.divf : (⟨S8192, .f32⟩ : BufTy).Contents (Elt F) → (⟨S8192, .f32⟩ : BufTy).Contents (Elt F) → (⟨S8192, .f32⟩ : BufTy).Contents (Elt F)),
    StableHlo.nullary main_cst_22 (constant S_ .f32 0x00000000#32),
    StableHlo.binary main_v127 main_cst_22 main_v128 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_23 (constant S_ .f32 0x46000000#32),
    StableHlo.binary main_v128 main_cst_23 main_v129 (Host.divf : (⟨S_, .f32⟩ : BufTy).Contents (Elt F) → (⟨S_, .f32⟩ : BufTy).Contents (Elt F) → (⟨S_, .f32⟩ : BufTy).Contents (Elt F)),
    StableHlo.binary main_v107 main_v107 main_v130 (mulf : (⟨S8192x352, .f32⟩ : BufTy).Contents (Elt F) → (⟨S8192x352, .f32⟩ : BufTy).Contents (Elt F) → (⟨S8192x352, .f32⟩ : BufTy).Contents (Elt F)),
    StableHlo.nullary main_cst_24 (constant S_ .f32 0x00000000#32),
    StableHlo.binary main_v130 main_cst_24 main_v131 ((fun x v => Host.reduceAdd x v reducesTo_S8192x352_S8192_d1 h_S_) : (⟨S8192x352, .f32⟩ : BufTy).Contents (Elt F) → (⟨S_, .f32⟩ : BufTy).Contents (Elt F) → (⟨S8192, .f32⟩ : BufTy).Contents (Elt F)),
    StableHlo.nullary main_cst_25 (constant S_ .f32 0x40000000#32),
    StableHlo.unary main_cst_25 main_v132 (broadcastInDim S8192 ![] bcast_S_S8192 : (⟨S_, .f32⟩ : BufTy).Contents (Elt F) → (⟨S8192, .f32⟩ : BufTy).Contents (Elt F)),
    StableHlo.binary main_v131 main_v132 main_v133 (Host.divf : (⟨S8192, .f32⟩ : BufTy).Contents (Elt F) → (⟨S8192, .f32⟩ : BufTy).Contents (Elt F) → (⟨S8192, .f32⟩ : BufTy).Contents (Elt F)),
    StableHlo.nullary main_cst_26 (constant S_ .f32 0x00000000#32),
    StableHlo.binary main_v133 main_cst_26 main_v134 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_27 (constant S_ .f32 0x46000000#32),
    StableHlo.binary main_v134 main_cst_27 main_v135 (Host.divf : (⟨S_, .f32⟩ : BufTy).Contents (Elt F) → (⟨S_, .f32⟩ : BufTy).Contents (Elt F) → (⟨S_, .f32⟩ : BufTy).Contents (Elt F)),
    StableHlo.binary main_v129 main_v135 main_v136 (addf : (⟨S_, .f32⟩ : BufTy).Contents (Elt F) → (⟨S_, .f32⟩ : BufTy).Contents (Elt F) → (⟨S_, .f32⟩ : BufTy).Contents (Elt F)),
    StableHlo.binary main_v114 main_v114 main_v137 (mulf : (⟨S8192x352, .f32⟩ : BufTy).Contents (Elt F) → (⟨S8192x352, .f32⟩ : BufTy).Contents (Elt F) → (⟨S8192x352, .f32⟩ : BufTy).Contents (Elt F)),
    StableHlo.nullary main_cst_28 (constant S_ .f32 0x00000000#32),
    StableHlo.binary main_v137 main_cst_28 main_v138 ((fun x v => Host.reduceAdd x v reducesTo_S8192x352_S8192_d1 h_S_) : (⟨S8192x352, .f32⟩ : BufTy).Contents (Elt F) → (⟨S_, .f32⟩ : BufTy).Contents (Elt F) → (⟨S8192, .f32⟩ : BufTy).Contents (Elt F)),
    StableHlo.nullary main_cst_29 (constant S_ .f32 0x40000000#32),
    StableHlo.unary main_cst_29 main_v139 (broadcastInDim S8192 ![] bcast_S_S8192 : (⟨S_, .f32⟩ : BufTy).Contents (Elt F) → (⟨S8192, .f32⟩ : BufTy).Contents (Elt F)),
    StableHlo.binary main_v138 main_v139 main_v140 (Host.divf : (⟨S8192, .f32⟩ : BufTy).Contents (Elt F) → (⟨S8192, .f32⟩ : BufTy).Contents (Elt F) → (⟨S8192, .f32⟩ : BufTy).Contents (Elt F)),
    StableHlo.nullary main_cst_30 (constant S_ .f32 0x00000000#32),
    StableHlo.binary main_v140 main_cst_30 main_v141 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_31 (constant S_ .f32 0x46000000#32),
    StableHlo.binary main_v141 main_cst_31 main_v142 (Host.divf : (⟨S_, .f32⟩ : BufTy).Contents (Elt F) → (⟨S_, .f32⟩ : BufTy).Contents (Elt F) → (⟨S_, .f32⟩ : BufTy).Contents (Elt F)),
    StableHlo.binary main_v136 main_v142 main_v143 (addf : (⟨S_, .f32⟩ : BufTy).Contents (Elt F) → (⟨S_, .f32⟩ : BufTy).Contents (Elt F) → (⟨S_, .f32⟩ : BufTy).Contents (Elt F)),
    StableHlo.nullary main_cst_32 (constant S_ .f32 0x3727C5AC#32),
    StableHlo.binary main_cst_32 main_v143 main_v144 (mulf : (⟨S_, .f32⟩ : BufTy).Contents (Elt F) → (⟨S_, .f32⟩ : BufTy).Contents (Elt F) → (⟨S_, .f32⟩ : BufTy).Contents (Elt F)),
    StableHlo.binary main_v123 main_v144 main_v145 (addf : (⟨S_, .f32⟩ : BufTy).Contents (Elt F) → (⟨S_, .f32⟩ : BufTy).Contents (Elt F) → (⟨S_, .f32⟩ : BufTy).Contents (Elt F)) ]

/-- The references `opsT` writes, one an operation, in order. -/
abbrev opsT_W : List (Ref sig .tc) :=
  [main_v93, main_c_10, main_v94, main_v95, main_c_11, main_v96, main_v97, main_v98, main_v99, main_v100, main_c_12, main_v101, main_v102, main_c_13, main_v103, main_v104, main_v105, main_v106, main_v107, main_c_14, main_v108, main_v109, main_c_15, main_v110, main_v111, main_v112, main_v113, main_v114, main_v115, main_cst_16, main_v116, main_v117, main_cst_17, main_v118, main_v119, main_call9_v0, main_call9_call0_cst, main_call9_call0_v0, main_call9_call0_v1, main_call9_call0_v2, main_call9_call0_v3, main_call9_call0_v4, main_call9_call0_v5, main_call9_call0_v6, main_call9_call0_v7, main_call9_call0_v8, main_call9_call0_v9, main_call9_call0_v10, main_call9_call0_v11, main_call9_v1, main_v120, main_v121, main_cst_18, main_v122, main_cst_19, main_v123, main_v124, main_cst_20, main_v125, main_cst_21, main_v126, main_v127, main_cst_22, main_v128, main_cst_23, main_v129, main_v130, main_cst_24, main_v131, main_cst_25, main_v132, main_v133, main_cst_26, main_v134, main_cst_27, main_v135, main_v136, main_v137, main_cst_28, main_v138, main_cst_29, main_v139, main_v140, main_cst_30, main_v141, main_cst_31, main_v142, main_v143, main_cst_32, main_v144, main_v145]

set_option maxRecDepth 8192 in
theorem opsT_sub : (opsT : List (HloOp τ sig (Elt F))).Forall fun op => op.bufs ⊆ tcRefs τ sig :=
  ⟨nary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., nullary_bufs_sub .., binary_bufs_sub .., nullary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., binary_bufs_sub .., nullary_bufs_sub .., binary_bufs_sub .., binary_bufs_sub ..⟩

/-- @main's 244 operations, in order. -/
abbrev ops : List (HloOp τ sig (Elt F)) := opsS0 ++ opsD0 ++ opsS1 ++ opsD1 ++ opsS2 ++ opsD2 ++ opsT

end Cert.ReferenceIdeal.RefRun

end
-- ==== Proof.RefRun.lean ====
/- The reference program's run. Its @main is a straight line of host operations (the functions it calls
   unfolded at their calls), so every weakly fair execution of it terminates, and every buffer ends at the fold
   of the operations' results over the launch contents: an operation rewrites the one buffer it writes and leaves
   the rest. No operation writes an argument, so the arguments end as they started. -/
import proofs.«136498_j73031623901810_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the line -/

set_option maxRecDepth 65536 in
set_option maxHeartbeats 8000000 in
/-- @main is the straight line of its operations: its four windows run in order, each function's body unfolded at
    its call over that call's buffers, the sequencing reassociated. Both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Facts about every operation, chunk by chunk -/

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a h =>
    (List.mem_append.mp h).elim (List.forall_iff_forall_mem.mp h₁ a) (List.forall_iff_forall_mem.mp h₂ a)

/-- Every operation touches TensorCore references only. -/
theorem ops_sub : (ops : List (HloOp τ sig (Elt F))).Forall fun op => op.bufs ⊆ tcRefs τ sig :=
  forall_append (forall_append (forall_append (forall_append (forall_append (forall_append
    opsS0_sub opsD0_sub) opsS1_sub) opsD1_sub) opsS2_sub) opsD2_sub) opsT_sub

/-- Closes "every operation of this literal list determines its results" one operation at a time. -/
macro "each_fresh" : tactic => `(tactic| repeat' (first | refine ⟨rfl, ?_⟩ | rfl))

set_option maxRecDepth 8192 in
theorem opsS0_fresh : (opsS0 : List (HloOp τ sig (Elt F))).Forall fun op => op.fresh = ∅ := by each_fresh
set_option maxRecDepth 8192 in
theorem opsD0_fresh : (opsD0 : List (HloOp τ sig (Elt F))).Forall fun op => op.fresh = ∅ := by each_fresh
set_option maxRecDepth 8192 in
theorem opsS1_fresh : (opsS1 : List (HloOp τ sig (Elt F))).Forall fun op => op.fresh = ∅ := by each_fresh
set_option maxRecDepth 8192 in
theorem opsD1_fresh : (opsD1 : List (HloOp τ sig (Elt F))).Forall fun op => op.fresh = ∅ := by each_fresh
set_option maxRecDepth 8192 in
theorem opsS2_fresh : (opsS2 : List (HloOp τ sig (Elt F))).Forall fun op => op.fresh = ∅ := by each_fresh
set_option maxRecDepth 8192 in
theorem opsD2_fresh : (opsD2 : List (HloOp τ sig (Elt F))).Forall fun op => op.fresh = ∅ := by each_fresh
set_option maxRecDepth 8192 in
theorem opsT_fresh : (opsT : List (HloOp τ sig (Elt F))).Forall fun op => op.fresh = ∅ := by each_fresh

/-- No operation leaves a result undetermined. -/
theorem ops_fresh : ∀ op ∈ (ops : List (HloOp τ sig (Elt F))), op.fresh = ∅ :=
  List.forall_iff_forall_mem.mp (forall_append (forall_append (forall_append (forall_append (forall_append (forall_append
    opsS0_fresh opsD0_fresh) opsS1_fresh) opsD1_fresh) opsS2_fresh) opsD2_fresh) opsT_fresh)

/-! ## The run -/

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The arguments are kept -/

/-- The fold over a concatenation is the fold over the second list from the fold over the first. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- An operation that writes one reference of a list writes inside the list's device buffers. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Closes "every operation of this literal list writes inside this literal list of references" one operation at
    a time: an operation writes its one result reference, found in the list by comparing references. -/
macro "each_writes" : tactic =>
  `(tactic| repeat' (first | refine ⟨writes_sub_of_mem (by decide), ?_⟩ | exact writes_sub_of_mem (by decide)))

set_option maxRecDepth 8192 in
theorem opsS0_writes : (opsS0 : List (HloOp τ sig (Elt F))).Forall fun op =>
    op.writes ⊆ (opsS0_W.map (Proc.devRef (τ := τ) .tc)).toFinset := by each_writes
set_option maxRecDepth 8192 in
theorem opsD0_writes : (opsD0 : List (HloOp τ sig (Elt F))).Forall fun op =>
    op.writes ⊆ (opsD0_W.map (Proc.devRef (τ := τ) .tc)).toFinset := by each_writes
set_option maxRecDepth 8192 in
theorem opsS1_writes : (opsS1 : List (HloOp τ sig (Elt F))).Forall fun op =>
    op.writes ⊆ (opsS1_W.map (Proc.devRef (τ := τ) .tc)).toFinset := by each_writes
set_option maxRecDepth 8192 in
theorem opsD1_writes : (opsD1 : List (HloOp τ sig (Elt F))).Forall fun op =>
    op.writes ⊆ (opsD1_W.map (Proc.devRef (τ := τ) .tc)).toFinset := by each_writes
set_option maxRecDepth 8192 in
theorem opsS2_writes : (opsS2 : List (HloOp τ sig (Elt F))).Forall fun op =>
    op.writes ⊆ (opsS2_W.map (Proc.devRef (τ := τ) .tc)).toFinset := by each_writes
set_option maxRecDepth 8192 in
theorem opsD2_writes : (opsD2 : List (HloOp τ sig (Elt F))).Forall fun op =>
    op.writes ⊆ (opsD2_W.map (Proc.devRef (τ := τ) .tc)).toFinset := by each_writes
set_option maxRecDepth 8192 in
set_option maxHeartbeats 2000000 in
theorem opsT_writes : (opsT : List (HloOp τ sig (Elt F))).Forall fun op =>
    op.writes ⊆ (opsT_W.map (Proc.devRef (τ := τ) .tc)).toFinset := by each_writes

/-- A reference none of the seven chunks writes holds after the whole line what it held before. -/
theorem kept (V : Valuation τ sig (Elt F)) (r : Ref sig .tc)
    (h0 : r ∉ opsS0_W) (h1 : r ∉ opsD0_W) (h2 : r ∉ opsS1_W) (h3 : r ∉ opsD1_W) (h4 : r ∉ opsS2_W) (h5 : r ∉ opsD2_W)
    (h6 : r ∉ opsT_W) :
    after (ops : List (HloOp τ sig (Elt F))) V (Proc.devRef .tc r) = V (Proc.devRef .tc r) := by
  show after (opsS0 ++ opsD0 ++ opsS1 ++ opsD1 ++ opsS2 ++ opsD2 ++ opsT) V (Proc.devRef .tc r) = V (Proc.devRef .tc r)
  rw [after_append', after_append', after_append', after_append', after_append', after_append',
    after_of_writes_sub opsT _ opsT_writes h6, after_of_writes_sub opsD2 _ opsD2_writes h5,
    after_of_writes_sub opsS2 _ opsS2_writes h4, after_of_writes_sub opsD1 _ opsD1_writes h3,
    after_of_writes_sub opsS1 _ opsS1_writes h2, after_of_writes_sub opsD0 _ opsD0_writes h1,
    after_of_writes_sub opsS0 _ opsS0_writes h0]

/-- Closes "none of the seven chunks writes this argument" by comparing references. -/
macro "arg_kept" : tactic =>
  `(tactic| exact kept _ _ (by decide) (by decide) (by decide) (by decide) (by decide) (by decide) (by decide))

variable (V : Valuation τ sig (Elt F))

theorem kept_main_arg0 : after (ops : List (HloOp τ sig (Elt F))) V (Proc.devRef .tc main_arg0) = V (Proc.devRef .tc main_arg0) := by arg_kept
theorem kept_main_arg1 : after (ops : List (HloOp τ sig (Elt F))) V (Proc.devRef .tc main_arg1) = V (Proc.devRef .tc main_arg1) := by arg_kept
theorem kept_main_arg2 : after (ops : List (HloOp τ sig (Elt F))) V (Proc.devRef .tc main_arg2) = V (Proc.devRef .tc main_arg2) := by arg_kept
theorem kept_main_arg3 : after (ops : List (HloOp τ sig (Elt F))) V (Proc.devRef .tc main_arg3) = V (Proc.devRef .tc main_arg3) := by arg_kept
theorem kept_main_arg4 : after (ops : List (HloOp τ sig (Elt F))) V (Proc.devRef .tc main_arg4) = V (Proc.devRef .tc main_arg4) := by arg_kept
theorem kept_main_arg5 : after (ops : List (HloOp τ sig (Elt F))) V (Proc.devRef .tc main_arg5) = V (Proc.devRef .tc main_arg5) := by arg_kept
theorem kept_main_arg6 : after (ops : List (HloOp τ sig (Elt F))) V (Proc.devRef .tc main_arg6) = V (Proc.devRef .tc main_arg6) := by arg_kept
theorem kept_main_arg7 : after (ops : List (HloOp τ sig (Elt F))) V (Proc.devRef .tc main_arg7) = V (Proc.devRef .tc main_arg7) := by arg_kept
theorem kept_main_arg8 : after (ops : List (HloOp τ sig (Elt F))) V (Proc.devRef .tc main_arg8) = V (Proc.devRef .tc main_arg8) := by arg_kept
theorem kept_main_arg9 : after (ops : List (HloOp τ sig (Elt F))) V (Proc.devRef .tc main_arg9) = V (Proc.devRef .tc main_arg9) := by arg_kept
theorem kept_main_arg10 : after (ops : List (HloOp τ sig (Elt F))) V (Proc.devRef .tc main_arg10) = V (Proc.devRef .tc main_arg10) := by arg_kept
theorem kept_main_arg11 : after (ops : List (HloOp τ sig (Elt F))) V (Proc.devRef .tc main_arg11) = V (Proc.devRef .tc main_arg11) := by arg_kept
theorem kept_main_arg12 : after (ops : List (HloOp τ sig (Elt F))) V (Proc.devRef .tc main_arg12) = V (Proc.devRef .tc main_arg12) := by arg_kept
theorem kept_main_arg13 : after (ops : List (HloOp τ sig (Elt F))) V (Proc.devRef .tc main_arg13) = V (Proc.devRef .tc main_arg13) := by arg_kept
theorem kept_main_arg14 : after (ops : List (HloOp τ sig (Elt F))) V (Proc.devRef .tc main_arg14) = V (Proc.devRef .tc main_arg14) := by arg_kept
theorem kept_main_arg15 : after (ops : List (HloOp τ sig (Elt F))) V (Proc.devRef .tc main_arg15) = V (Proc.devRef .tc main_arg15) := by arg_kept
theorem kept_main_arg16 : after (ops : List (HloOp τ sig (Elt F))) V (Proc.devRef .tc main_arg16) = V (Proc.devRef .tc main_arg16) := by arg_kept
theorem kept_main_arg17 : after (ops : List (HloOp τ sig (Elt F))) V (Proc.devRef .tc main_arg17) = V (Proc.devRef .tc main_arg17) := by arg_kept
theorem kept_main_arg18 : after (ops : List (HloOp τ sig (Elt F))) V (Proc.devRef .tc main_arg18) = V (Proc.devRef .tc main_arg18) := by arg_kept

end Cert.ReferenceIdeal.RefRun

end
-- ==== Proof.KI.Blocks0.lean ====
/-
  Region 0's two output arrays as whole-array functions. The region tiles the 100000 rows in 50 blocks of 2000; a grid point's
  body computes each row of its output blocks from the same row of its two row-tiled input blocks and from the weight matrices
  and bias vectors, which every point reads whole. So if the body's value is ROW-WISE — its entry (i, q) a function `f` of row i
  of the two input blocks, the weights, the biases and q — then the array the region leaves is the same `f` of the rows of
  the arrays the region found: block t's row i is array row 2000·t + i, and the 50 blocks cover every row.
-/
import proofs.«136498_j73031623901810_1_alg».proof.Proof.KI.Region0
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

theorem hzA0 : (![0, 0] : Fin 2 → Nat) = fun _ => 0 := funext fun a => by fin_cases a <;> rfl
theorem hzB0 : (![0] : Fin 1 → Nat) = fun _ => 0 := funext fun a => by fin_cases a <;> rfl

/-- The printed block-index maps, decided over the 50 grid points: the two row-tiled inputs and the second output move with
    the first output along the rows and sit at column block 0; the weights and biases stay at block 0. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0
    ∧ win0_7.index t (0 : Fin 2) = win0_6.index t (0 : Fin 2) ∧ win0_7.index t (1 : Fin 2) = 0
    ∧ win0_6.index t (0 : Fin 2) ≤ 49 :=
  (by decide +kernel : ∀ t : Fin grid0.N, _)

/-- Every one of the 50 row blocks is some grid point's. -/
theorem idx_onto0 : ∀ q0 : Fin 50, ∃ t : Fin cfg0.N, win0_6.index t (0 : Fin 2) = q0.val :=
  (by decide +kernel : ∀ q0 : Fin 50, ∃ t : Fin grid0.N, win0_6.index t (0 : Fin 2) = q0.val)

/-! ## The blocks a point reads, as parts of the arrays -/

theorem blk0_w1 (c : Dev nD) (t : Fin cfg0.N) : iblk0 V c 2 t = V c main_arg1 := by
  obtain ⟨-, -, -, -, e2a, e2b, e3, e4a, e4b, e5, -, -, -, -⟩ := idx_facts0 t
  funext y
  show V c main_arg1 (((cfg0.win 2).blk t).view.emb y) = V c main_arg1 y
  refine congrArg (V c main_arg1) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem blk0_w2 (c : Dev nD) (t : Fin cfg0.N) : iblk0 V c 4 t = V c main_arg3 := by
  obtain ⟨-, -, -, -, e2a, e2b, e3, e4a, e4b, e5, -, -, -, -⟩ := idx_facts0 t
  funext y
  show V c main_arg3 (((cfg0.win 4).blk t).view.emb y) = V c main_arg3 y
  refine congrArg (V c main_arg3) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem blk0_b1 (c : Dev nD) (t : Fin cfg0.N) : iblk0 V c 3 t = V c main_arg2 := by
  obtain ⟨-, -, -, -, e2a, e2b, e3, e4a, e4b, e5, -, -, -, -⟩ := idx_facts0 t
  funext y
  show V c main_arg2 (((cfg0.win 3).blk t).view.emb y) = V c main_arg2 y
  refine congrArg (V c main_arg2) ?_
  funext a; apply Fin.ext
  match a with
  | ⟨0, _⟩ => show win0_3.index t (0 : Fin 1) * 128 + 1 * (y 0).val = (y 0).val; omega
theorem blk0_b2 (c : Dev nD) (t : Fin cfg0.N) : iblk0 V c 5 t = V c main_arg4 := by
  obtain ⟨-, -, -, -, e2a, e2b, e3, e4a, e4b, e5, -, -, -, -⟩ := idx_facts0 t
  funext y
  show V c main_arg4 (((cfg0.win 5).blk t).view.emb y) = V c main_arg4 y
  refine congrArg (V c main_arg4) ?_
  funext a; apply Fin.ext
  match a with
  | ⟨0, _⟩ => show win0_5.index t (0 : Fin 1) * 128 + 1 * (y 0).val = (y 0).val; omega
theorem blk0_row0_6 (c : Dev nD) (t : Fin cfg0.N) (i : Fin 2000) (q : Fin 128) :
    (fun n : Fin 128 => iblk0 V c 0 t (ix2 i n)) = fun n : Fin 128 => (V c main_arg0 : S100000x128.Idx → Elt F .f32) (ix2 ((((cfg0.win 6).blk t).view.emb (ix2 i q)) 0) n) := by
  obtain ⟨e0a, e0b, e1a, e1b, -, -, -, -, -, -, e6b, e7a, e7b, -⟩ := idx_facts0 t
  funext n
  show V c main_arg0 (((cfg0.win 0).blk t).view.emb (ix2 i n)) = V c main_arg0 (ix2 _ n)
  refine congrArg (V c main_arg0) ?_
  funext a; apply Fin.ext
  match a with
  | ⟨0, _⟩ => show win0_0.index t (0 : Fin 2) * 2000 + 1 * i.val = win0_6.index t (0 : Fin 2) * 2000 + 1 * i.val; omega
  | ⟨1, _⟩ => show win0_0.index t (1 : Fin 2) * 128 + 1 * n.val = n.val; omega
theorem blk0_row1_6 (c : Dev nD) (t : Fin cfg0.N) (i : Fin 2000) (q : Fin 128) :
    (fun n : Fin 128 => iblk0 V c 1 t (ix2 i n)) = fun n : Fin 128 => (V c main_v12 : S100000x128.Idx → Elt F .f32) (ix2 ((((cfg0.win 6).blk t).view.emb (ix2 i q)) 0) n) := by
  obtain ⟨e0a, e0b, e1a, e1b, -, -, -, -, -, -, e6b, e7a, e7b, -⟩ := idx_facts0 t
  funext n
  show V c main_v12 (((cfg0.win 1).blk t).view.emb (ix2 i n)) = V c main_v12 (ix2 _ n)
  refine congrArg (V c main_v12) ?_
  funext a; apply Fin.ext
  match a with
  | ⟨0, _⟩ => show win0_1.index t (0 : Fin 2) * 2000 + 1 * i.val = win0_6.index t (0 : Fin 2) * 2000 + 1 * i.val; omega
  | ⟨1, _⟩ => show win0_1.index t (1 : Fin 2) * 128 + 1 * n.val = n.val; omega
theorem blk0_row0_7 (c : Dev nD) (t : Fin cfg0.N) (i : Fin 2000) (q : Fin 128) :
    (fun n : Fin 128 => iblk0 V c 0 t (ix2 i n)) = fun n : Fin 128 => (V c main_arg0 : S100000x128.Idx → Elt F .f32) (ix2 ((((cfg0.win 7).blk t).view.emb (ix2 i q)) 0) n) := by
  obtain ⟨e0a, e0b, e1a, e1b, -, -, -, -, -, -, e6b, e7a, e7b, -⟩ := idx_facts0 t
  funext n
  show V c main_arg0 (((cfg0.win 0).blk t).view.emb (ix2 i n)) = V c main_arg0 (ix2 _ n)
  refine congrArg (V c main_arg0) ?_
  funext a; apply Fin.ext
  match a with
  | ⟨0, _⟩ => show win0_0.index t (0 : Fin 2) * 2000 + 1 * i.val = win0_7.index t (0 : Fin 2) * 2000 + 1 * i.val; omega
  | ⟨1, _⟩ => show win0_0.index t (1 : Fin 2) * 128 + 1 * n.val = n.val; omega
theorem blk0_row1_7 (c : Dev nD) (t : Fin cfg0.N) (i : Fin 2000) (q : Fin 128) :
    (fun n : Fin 128 => iblk0 V c 1 t (ix2 i n)) = fun n : Fin 128 => (V c main_v12 : S100000x128.Idx → Elt F .f32) (ix2 ((((cfg0.win 7).blk t).view.emb (ix2 i q)) 0) n) := by
  obtain ⟨e0a, e0b, e1a, e1b, -, -, -, -, -, -, e6b, e7a, e7b, -⟩ := idx_facts0 t
  funext n
  show V c main_v12 (((cfg0.win 1).blk t).view.emb (ix2 i n)) = V c main_v12 (ix2 _ n)
  refine congrArg (V c main_v12) ?_
  funext a; apply Fin.ext
  match a with
  | ⟨0, _⟩ => show win0_1.index t (0 : Fin 2) * 2000 + 1 * i.val = win0_7.index t (0 : Fin 2) * 2000 + 1 * i.val; omega
  | ⟨1, _⟩ => show win0_1.index t (1 : Fin 2) * 128 + 1 * n.val = n.val; omega
theorem blk0_col_6 (t : Fin cfg0.N) (i : Fin 2000) (q : Fin 128) :
    q = (((cfg0.win 6).blk t).view.emb (ix2 i q)) 1 := by
  obtain ⟨-, -, -, -, -, -, -, -, -, -, e6b, e7a, e7b, -⟩ := idx_facts0 t
  apply Fin.ext
  show q.val = win0_6.index t (1 : Fin 2) * 128 + 1 * q.val
  omega
theorem blk0_col_7 (t : Fin cfg0.N) (i : Fin 2000) (q : Fin 128) :
    q = (((cfg0.win 7).blk t).view.emb (ix2 i q)) 1 := by
  obtain ⟨-, -, -, -, -, -, -, -, -, -, e6b, e7a, e7b, -⟩ := idx_facts0 t
  apply Fin.ext
  show q.val = win0_7.index t (1 : Fin 2) * 128 + 1 * q.val
  omega

/-! ## A row-wise body gives a row-wise array -/

variable (f : (Fin 128 → Elt F .f32) → (Fin 128 → Elt F .f32) → Vec F S128x128 .f32 → Vec F S128x128 .f32 → Vec F S128 .f32 → Vec F S128 .f32 → Fin 128 → Elt F .f32)

/-- The row-wise function `f` laid over whole arrays: entry `j` from row `j 0` of the two row-tiled arrays. -/
def rowwise0 (a0 a1 : S100000x128.Idx → Elt F .f32) (w1 w2 : Vec F S128x128 .f32) (b1 b2 : Vec F S128 .f32) : S100000x128.Idx → Elt F .f32 :=
  fun j => f (fun n => a0 (ix2 (j 0) n)) (fun n => a1 (ix2 (j 0) n)) w1 w2 b1 b2 (j 1)

theorem f_congr0 (x x' s s' : Fin 128 → Elt F .f32) (w1 w1' w2 w2' : Vec F S128x128 .f32) (b1 b1' b2 b2' : Vec F S128 .f32) (q q' : Fin 128)
    (hx : x = x') (hs : s = s') (h1 : w1 = w1') (h2 : w2 = w2') (h3 : b1 = b1') (h4 : b2 = b2') (hq : q = q') :
    f x s w1 w2 b1 b2 q = f x' s' w1' w2' b1' b2' q' := by
  subst hx hs h1 h2 h3 h4 hq; rfl

/-- What grid point `t` writes back through output window 6 is block `t` of the row-wise function of the arrays the region found:
    row `i` of the point's block is row `2000·(block index) + i` of each row-tiled operand, and the weights and biases are read whole. -/
theorem flushed0_6_eq (hpay : ∀ (x s : Vec F S2000x128 .f32) (w1 w2 : Vec F S128x128 .f32) (b1 b2 : Vec F S128 .f32) (i : Fin 2000) (q : Fin 128),
      k0_pay1 x s w1 w2 b1 b2 (ix2 i q) = f (fun n => x (ix2 i n)) (fun n => s (ix2 i n)) w1 w2 b1 b2 q)
    (c : Dev nD) (t : Fin cfg0.N) :
    (dat0 V c).flushed 6 t = ((cfg0.win 6).blk t).view.read (Elt F) (rowwise0 f (V c main_arg0) (V c main_v12) (V c main_arg1) (V c main_arg3) (V c main_arg2) (V c main_arg4)) := by
  show (cfg0.win 6).cut (grid0.coords t) ((dat0 V c).after 6 t) = _
  rw [after0_6]
  unfold out0_6
  rw [View.canon_unit_zero hzA0]
  simp only [View.ld_unit_zero (S := S2000x128) hzA0, View.ld_unit_zero (S := S128x128) hzA0, View.ld_unit_zero (S := S128) hzB0]
  funext y
  obtain ⟨i, q, rfl⟩ : ∃ (i : Fin 2000) (q : Fin 128), y = ix2 i q := ⟨y 0, y 1, eq_ix2 y⟩
  show k0_pay1 (iblk0 V c 0 t) (iblk0 V c 1 t) (iblk0 V c 2 t) (iblk0 V c 4 t) (iblk0 V c 3 t) (iblk0 V c 5 t) (ix2 i q)
    = rowwise0 f (V c main_arg0) (V c main_v12) (V c main_arg1) (V c main_arg3) (V c main_arg2) (V c main_arg4) (((cfg0.win 6).blk t).view.emb (ix2 i q))
  refine (hpay (iblk0 V c 0 t) (iblk0 V c 1 t) (iblk0 V c 2 t) (iblk0 V c 4 t) (iblk0 V c 3 t) (iblk0 V c 5 t) i q).trans ?_
  unfold rowwise0
  exact f_congr0 f _ _ _ _ _ _ _ _ _ _ _ _ _ _ (blk0_row0_6 V c t i q) (blk0_row1_6 V c t i q) (blk0_w1 V c t) (blk0_w2 V c t) (blk0_b1 V c t) (blk0_b2 V c t) (blk0_col_6 t i q)

/-- An index of the array is in point `t`'s block of window 6 iff each coordinate is in the block's range on its axis. -/
theorem mem_blk0_6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v13_0).slice (win0_6.rect t)).set ↔ _
  rw [View.set_slice_whole, Rect.mem_set_unit]
  exact Iff.rfl

/-- Every row of the array lies in some grid point's block: row `r` in block `r / 2000`. -/
theorem cover0_6_all (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto0 ⟨(i 0).val / 2000, by omega⟩
  obtain ⟨-, -, -, -, -, -, -, -, -, -, e6b, e7a, e7b, -⟩ := idx_facts0 t
  have ht' : win0_6.index t (0 : Fin 2) = (i 0).val / 2000 := ht
  refine ⟨t, flush0_6 t, ?_⟩
  rw [mem_blk0_6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- Output window 6's array after the region: the row-wise function of the arrays the region found, at every index. -/
theorem final0_6 (hpay : ∀ (x s : Vec F S2000x128 .f32) (w1 w2 : Vec F S128x128 .f32) (b1 b2 : Vec F S128 .f32) (i : Fin 2000) (q : Fin 128),
      k0_pay1 x s w1 w2 b1 b2 (ix2 i q) = f (fun n => x (ix2 i n)) (fun n => s (ix2 i n)) w1 w2 b1 b2 q)
    (c : Dev nD) : (dat0 V c).arrAt 6 cfg0.N = rowwise0 f (V c main_arg0) (V c main_v12) (V c main_arg1) (V c main_arg3) (V c main_arg2) (V c main_arg4) :=
  (dat0 V c).arrAt_eq_of_cover 6 (rowwise0 f (V c main_arg0) (V c main_v12) (V c main_arg1) (V c main_arg3) (V c main_arg2) (V c main_arg4)) (fun t _ => flushed0_6_eq V f hpay c t) (cover0_6_all)

/-- What grid point `t` writes back through output window 7 is block `t` of the row-wise function of the arrays the region found:
    row `i` of the point's block is row `2000·(block index) + i` of each row-tiled operand, and the weights and biases are read whole. -/
theorem flushed0_7_eq (hpay : ∀ (x s : Vec F S2000x128 .f32) (w1 w2 : Vec F S128x128 .f32) (b1 b2 : Vec F S128 .f32) (i : Fin 2000) (q : Fin 128),
      k0_pay2 x s w1 w2 b1 b2 (ix2 i q) = f (fun n => x (ix2 i n)) (fun n => s (ix2 i n)) w1 w2 b1 b2 q)
    (c : Dev nD) (t : Fin cfg0.N) :
    (dat0 V c).flushed 7 t = ((cfg0.win 7).blk t).view.read (Elt F) (rowwise0 f (V c main_arg0) (V c main_v12) (V c main_arg1) (V c main_arg3) (V c main_arg2) (V c main_arg4)) := by
  show (cfg0.win 7).cut (grid0.coords t) ((dat0 V c).after 7 t) = _
  rw [after0_7]
  unfold out0_7
  rw [View.canon_unit_zero hzA0]
  simp only [View.ld_unit_zero (S := S2000x128) hzA0, View.ld_unit_zero (S := S128x128) hzA0, View.ld_unit_zero (S := S128) hzB0]
  funext y
  obtain ⟨i, q, rfl⟩ : ∃ (i : Fin 2000) (q : Fin 128), y = ix2 i q := ⟨y 0, y 1, eq_ix2 y⟩
  show k0_pay2 (iblk0 V c 0 t) (iblk0 V c 1 t) (iblk0 V c 2 t) (iblk0 V c 4 t) (iblk0 V c 3 t) (iblk0 V c 5 t) (ix2 i q)
    = rowwise0 f (V c main_arg0) (V c main_v12) (V c main_arg1) (V c main_arg3) (V c main_arg2) (V c main_arg4) (((cfg0.win 7).blk t).view.emb (ix2 i q))
  refine (hpay (iblk0 V c 0 t) (iblk0 V c 1 t) (iblk0 V c 2 t) (iblk0 V c 4 t) (iblk0 V c 3 t) (iblk0 V c 5 t) i q).trans ?_
  unfold rowwise0
  exact f_congr0 f _ _ _ _ _ _ _ _ _ _ _ _ _ _ (blk0_row0_7 V c t i q) (blk0_row1_7 V c t i q) (blk0_w1 V c t) (blk0_w2 V c t) (blk0_b1 V c t) (blk0_b2 V c t) (blk0_col_7 t i q)

/-- An index of the array is in point `t`'s block of window 7 iff each coordinate is in the block's range on its axis. -/
theorem mem_blk0_7 (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v13_1).slice (win0_7.rect t)).set ↔ _
  rw [View.set_slice_whole, Rect.mem_set_unit]
  exact Iff.rfl

/-- Every row of the array lies in some grid point's block: row `r` in block `r / 2000`. -/
theorem cover0_7_all (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto0 ⟨(i 0).val / 2000, by omega⟩
  obtain ⟨-, -, -, -, -, -, -, -, -, -, e6b, e7a, e7b, -⟩ := idx_facts0 t
  have ht' : win0_6.index t (0 : Fin 2) = (i 0).val / 2000 := ht
  refine ⟨t, flush0_7 t, ?_⟩
  rw [mem_blk0_7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- Output window 7's array after the region: the row-wise function of the arrays the region found, at every index. -/
theorem final0_7 (hpay : ∀ (x s : Vec F S2000x128 .f32) (w1 w2 : Vec F S128x128 .f32) (b1 b2 : Vec F S128 .f32) (i : Fin 2000) (q : Fin 128),
      k0_pay2 x s w1 w2 b1 b2 (ix2 i q) = f (fun n => x (ix2 i n)) (fun n => s (ix2 i n)) w1 w2 b1 b2 q)
    (c : Dev nD) : (dat0 V c).arrAt 7 cfg0.N = rowwise0 f (V c main_arg0) (V c main_v12) (V c main_arg1) (V c main_arg3) (V c main_arg2) (V c main_arg4) :=
  (dat0 V c).arrAt_eq_of_cover 7 (rowwise0 f (V c main_arg0) (V c main_v12) (V c main_arg1) (V c main_arg3) (V c main_arg2) (V c main_arg4)) (fun t _ => flushed0_7_eq V f hpay c t) (cover0_7_all)

end Cert.KernelIdeal.Gen

end
-- ==== Proof.KI.Blocks1.lean ====
/-
  Region 1's two output arrays as whole-array functions. The region tiles the 100000 rows in 50 blocks of 2000; a grid point's
  body computes each row of its output blocks from the same row of its two row-tiled input blocks and from the weight matrices
  and bias vectors, which every point reads whole. So if the body's value is ROW-WISE — its entry (i, q) a function `f` of row i
  of the two input blocks, the weights, the biases and q — then the array the region leaves is the same `f` of the rows of
  the arrays the region found: block t's row i is array row 2000·t + i, and the 50 blocks cover every row.
-/
import proofs.«136498_j73031623901810_1_alg».proof.Proof.KI.Region1
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

theorem hzA1 : (![0, 0] : Fin 2 → Nat) = fun _ => 0 := funext fun a => by fin_cases a <;> rfl
theorem hzB1 : (![0] : Fin 1 → Nat) = fun _ => 0 := funext fun a => by fin_cases a <;> rfl

/-- The printed block-index maps, decided over the 50 grid points: the two row-tiled inputs and the second output move with
    the first output along the rows and sit at column block 0; the weights and biases stay at block 0. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (1 : Fin 2) = 0
    ∧ win1_7.index t (0 : Fin 2) = win1_6.index t (0 : Fin 2) ∧ win1_7.index t (1 : Fin 2) = 0
    ∧ win1_6.index t (0 : Fin 2) ≤ 49 :=
  (by decide +kernel : ∀ t : Fin grid1.N, _)

/-- Every one of the 50 row blocks is some grid point's. -/
theorem idx_onto1 : ∀ q0 : Fin 50, ∃ t : Fin cfg1.N, win1_6.index t (0 : Fin 2) = q0.val :=
  (by decide +kernel : ∀ q0 : Fin 50, ∃ t : Fin grid1.N, win1_6.index t (0 : Fin 2) = q0.val)

/-! ## The blocks a point reads, as parts of the arrays -/

theorem blk1_w1 (c : Dev nD) (t : Fin cfg1.N) : iblk1 V c 2 t = V c main_arg5 := by
  obtain ⟨-, -, -, -, e2a, e2b, e3, e4a, e4b, e5, -, -, -, -⟩ := idx_facts1 t
  funext y
  show V c main_arg5 (((cfg1.win 2).blk t).view.emb y) = V c main_arg5 y
  refine congrArg (V c main_arg5) ?_
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega
theorem blk1_w2 (c : Dev nD) (t : Fin cfg1.N) : iblk1 V c 4 t = V c main_arg7 := by
  obtain ⟨-, -, -, -, e2a, e2b, e3, e4a, e4b, e5, -, -, -, -⟩ := idx_facts1 t
  funext y
  show V c main_arg7 (((cfg1.win 4).blk t).view.emb y) = V c main_arg7 y
  refine congrArg (V c main_arg7) ?_
  funext a; apply Fin.ext
  match a with
  | ⟨0, _⟩ => show win1_4.index t (0 : Fin 2) * 128 + 1 * (y 0).val = (y 0).val; omega
  | ⟨1, _⟩ => show win1_4.index t (1 : Fin 2) * 64 + 1 * (y 1).val = (y 1).val; omega
theorem blk1_b1 (c : Dev nD) (t : Fin cfg1.N) : iblk1 V c 3 t = V c main_arg6 := by
  obtain ⟨-, -, -, -, e2a, e2b, e3, e4a, e4b, e5, -, -, -, -⟩ := idx_facts1 t
  funext y
  show V c main_arg6 (((cfg1.win 3).blk t).view.emb y) = V c main_arg6 y
  refine congrArg (V c main_arg6) ?_
  funext a; apply Fin.ext
  match a with
  | ⟨0, _⟩ => show win1_3.index t (0 : Fin 1) * 64 + 1 * (y 0).val = (y 0).val; omega
theorem blk1_b2 (c : Dev nD) (t : Fin cfg1.N) : iblk1 V c 5 t = V c main_arg8 := by
  obtain ⟨-, -, -, -, e2a, e2b, e3, e4a, e4b, e5, -, -, -, -⟩ := idx_facts1 t
  funext y
  show V c main_arg8 (((cfg1.win 5).blk t).view.emb y) = V c main_arg8 y
  refine congrArg (V c main_arg8) ?_
  funext a; apply Fin.ext
  match a with
  | ⟨0, _⟩ => show win1_5.index t (0 : Fin 1) * 64 + 1 * (y 0).val = (y 0).val; omega
theorem blk1_row0_6 (c : Dev nD) (t : Fin cfg1.N) (i : Fin 2000) (q : Fin 64) :
    (fun n : Fin 128 => iblk1 V c 0 t (ix2 i n)) = fun n : Fin 128 => (V c main_v13_0 : S100000x128.Idx → Elt F .f32) (ix2 ((((cfg1.win 6).blk t).view.emb (ix2 i q)) 0) n) := by
  obtain ⟨e0a, e0b, e1a, e1b, -, -, -, -, -, -, e6b, e7a, e7b, -⟩ := idx_facts1 t
  funext n
  show V c main_v13_0 (((cfg1.win 0).blk t).view.emb (ix2 i n)) = V c main_v13_0 (ix2 _ n)
  refine congrArg (V c main_v13_0) ?_
  funext a; apply Fin.ext
  match a with
  | ⟨0, _⟩ => show win1_0.index t (0 : Fin 2) * 2000 + 1 * i.val = win1_6.index t (0 : Fin 2) * 2000 + 1 * i.val; omega
  | ⟨1, _⟩ => show win1_0.index t (1 : Fin 2) * 128 + 1 * n.val = n.val; omega
theorem blk1_row1_6 (c : Dev nD) (t : Fin cfg1.N) (i : Fin 2000) (q : Fin 64) :
    (fun n : Fin 128 => iblk1 V c 1 t (ix2 i n)) = fun n : Fin 128 => (V c main_v26 : S100000x128.Idx → Elt F .f32) (ix2 ((((cfg1.win 6).blk t).view.emb (ix2 i q)) 0) n) := by
  obtain ⟨e0a, e0b, e1a, e1b, -, -, -, -, -, -, e6b, e7a, e7b, -⟩ := idx_facts1 t
  funext n
  show V c main_v26 (((cfg1.win 1).blk t).view.emb (ix2 i n)) = V c main_v26 (ix2 _ n)
  refine congrArg (V c main_v26) ?_
  funext a; apply Fin.ext
  match a with
  | ⟨0, _⟩ => show win1_1.index t (0 : Fin 2) * 2000 + 1 * i.val = win1_6.index t (0 : Fin 2) * 2000 + 1 * i.val; omega
  | ⟨1, _⟩ => show win1_1.index t (1 : Fin 2) * 128 + 1 * n.val = n.val; omega
theorem blk1_row0_7 (c : Dev nD) (t : Fin cfg1.N) (i : Fin 2000) (q : Fin 64) :
    (fun n : Fin 128 => iblk1 V c 0 t (ix2 i n)) = fun n : Fin 128 => (V c main_v13_0 : S100000x128.Idx → Elt F .f32) (ix2 ((((cfg1.win 7).blk t).view.emb (ix2 i q)) 0) n) := by
  obtain ⟨e0a, e0b, e1a, e1b, -, -, -, -, -, -, e6b, e7a, e7b, -⟩ := idx_facts1 t
  funext n
  show V c main_v13_0 (((cfg1.win 0).blk t).view.emb (ix2 i n)) = V c main_v13_0 (ix2 _ n)
  refine congrArg (V c main_v13_0) ?_
  funext a; apply Fin.ext
  match a with
  | ⟨0, _⟩ => show win1_0.index t (0 : Fin 2) * 2000 + 1 * i.val = win1_7.index t (0 : Fin 2) * 2000 + 1 * i.val; omega
  | ⟨1, _⟩ => show win1_0.index t (1 : Fin 2) * 128 + 1 * n.val = n.val; omega
theorem blk1_row1_7 (c : Dev nD) (t : Fin cfg1.N) (i : Fin 2000) (q : Fin 64) :
    (fun n : Fin 128 => iblk1 V c 1 t (ix2 i n)) = fun n : Fin 128 => (V c main_v26 : S100000x128.Idx → Elt F .f32) (ix2 ((((cfg1.win 7).blk t).view.emb (ix2 i q)) 0) n) := by
  obtain ⟨e0a, e0b, e1a, e1b, -, -, -, -, -, -, e6b, e7a, e7b, -⟩ := idx_facts1 t
  funext n
  show V c main_v26 (((cfg1.win 1).blk t).view.emb (ix2 i n)) = V c main_v26 (ix2 _ n)
  refine congrArg (V c main_v26) ?_
  funext a; apply Fin.ext
  match a with
  | ⟨0, _⟩ => show win1_1.index t (0 : Fin 2) * 2000 + 1 * i.val = win1_7.index t (0 : Fin 2) * 2000 + 1 * i.val; omega
  | ⟨1, _⟩ => show win1_1.index t (1 : Fin 2) * 128 + 1 * n.val = n.val; omega
theorem blk1_col_6 (t : Fin cfg1.N) (i : Fin 2000) (q : Fin 64) :
    q = (((cfg1.win 6).blk t).view.emb (ix2 i q)) 1 := by
  obtain ⟨-, -, -, -, -, -, -, -, -, -, e6b, e7a, e7b, -⟩ := idx_facts1 t
  apply Fin.ext
  show q.val = win1_6.index t (1 : Fin 2) * 64 + 1 * q.val
  omega
theorem blk1_col_7 (t : Fin cfg1.N) (i : Fin 2000) (q : Fin 64) :
    q = (((cfg1.win 7).blk t).view.emb (ix2 i q)) 1 := by
  obtain ⟨-, -, -, -, -, -, -, -, -, -, e6b, e7a, e7b, -⟩ := idx_facts1 t
  apply Fin.ext
  show q.val = win1_7.index t (1 : Fin 2) * 64 + 1 * q.val
  omega

/-! ## A row-wise body gives a row-wise array -/

variable (f : (Fin 128 → Elt F .f32) → (Fin 128 → Elt F .f32) → Vec F S128x64 .f32 → Vec F S128x64 .f32 → Vec F S64 .f32 → Vec F S64 .f32 → Fin 64 → Elt F .f32)

/-- The row-wise function `f` laid over whole arrays: entry `j` from row `j 0` of the two row-tiled arrays. -/
def rowwise1 (a0 a1 : S100000x128.Idx → Elt F .f32) (w1 w2 : Vec F S128x64 .f32) (b1 b2 : Vec F S64 .f32) : S100000x64.Idx → Elt F .f32 :=
  fun j => f (fun n => a0 (ix2 (j 0) n)) (fun n => a1 (ix2 (j 0) n)) w1 w2 b1 b2 (j 1)

theorem f_congr1 (x x' s s' : Fin 128 → Elt F .f32) (w1 w1' w2 w2' : Vec F S128x64 .f32) (b1 b1' b2 b2' : Vec F S64 .f32) (q q' : Fin 64)
    (hx : x = x') (hs : s = s') (h1 : w1 = w1') (h2 : w2 = w2') (h3 : b1 = b1') (h4 : b2 = b2') (hq : q = q') :
    f x s w1 w2 b1 b2 q = f x' s' w1' w2' b1' b2' q' := by
  subst hx hs h1 h2 h3 h4 hq; rfl

/-- What grid point `t` writes back through output window 6 is block `t` of the row-wise function of the arrays the region found:
    row `i` of the point's block is row `2000·(block index) + i` of each row-tiled operand, and the weights and biases are read whole. -/
theorem flushed1_6_eq (hpay : ∀ (x s : Vec F S2000x128 .f32) (w1 w2 : Vec F S128x64 .f32) (b1 b2 : Vec F S64 .f32) (i : Fin 2000) (q : Fin 64),
      k1_pay1 x s w1 w2 b1 b2 (ix2 i q) = f (fun n => x (ix2 i n)) (fun n => s (ix2 i n)) w1 w2 b1 b2 q)
    (c : Dev nD) (t : Fin cfg1.N) :
    (dat1 V c).flushed 6 t = ((cfg1.win 6).blk t).view.read (Elt F) (rowwise1 f (V c main_v13_0) (V c main_v26) (V c main_arg5) (V c main_arg7) (V c main_arg6) (V c main_arg8)) := by
  show (cfg1.win 6).cut (grid1.coords t) ((dat1 V c).after 6 t) = _
  rw [after1_6]
  unfold out1_6
  rw [View.canon_unit_zero hzA1]
  simp only [View.ld_unit_zero (S := S2000x128) hzA1, View.ld_unit_zero (S := S128x64) hzA1, View.ld_unit_zero (S := S64) hzB1]
  funext y
  obtain ⟨i, q, rfl⟩ : ∃ (i : Fin 2000) (q : Fin 64), y = ix2 i q := ⟨y 0, y 1, eq_ix2 y⟩
  show k1_pay1 (iblk1 V c 0 t) (iblk1 V c 1 t) (iblk1 V c 2 t) (iblk1 V c 4 t) (iblk1 V c 3 t) (iblk1 V c 5 t) (ix2 i q)
    = rowwise1 f (V c main_v13_0) (V c main_v26) (V c main_arg5) (V c main_arg7) (V c main_arg6) (V c main_arg8) (((cfg1.win 6).blk t).view.emb (ix2 i q))
  refine (hpay (iblk1 V c 0 t) (iblk1 V c 1 t) (iblk1 V c 2 t) (iblk1 V c 4 t) (iblk1 V c 3 t) (iblk1 V c 5 t) i q).trans ?_
  unfold rowwise1
  exact f_congr1 f _ _ _ _ _ _ _ _ _ _ _ _ _ _ (blk1_row0_6 V c t i q) (blk1_row1_6 V c t i q) (blk1_w1 V c t) (blk1_w2 V c t) (blk1_b1 V c t) (blk1_b2 V c t) (blk1_col_6 t i q)

/-- An index of the array is in point `t`'s block of window 6 iff each coordinate is in the block's range on its axis. -/
theorem mem_blk1_6 (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v27_0).slice (win1_6.rect t)).set ↔ _
  rw [View.set_slice_whole, Rect.mem_set_unit]
  exact Iff.rfl

/-- Every row of the array lies in some grid point's block: row `r` in block `r / 2000`. -/
theorem cover1_6_all (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto1 ⟨(i 0).val / 2000, by omega⟩
  obtain ⟨-, -, -, -, -, -, -, -, -, -, e6b, e7a, e7b, -⟩ := idx_facts1 t
  have ht' : win1_6.index t (0 : Fin 2) = (i 0).val / 2000 := ht
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- Output window 6's array after the region: the row-wise function of the arrays the region found, at every index. -/
theorem final1_6 (hpay : ∀ (x s : Vec F S2000x128 .f32) (w1 w2 : Vec F S128x64 .f32) (b1 b2 : Vec F S64 .f32) (i : Fin 2000) (q : Fin 64),
      k1_pay1 x s w1 w2 b1 b2 (ix2 i q) = f (fun n => x (ix2 i n)) (fun n => s (ix2 i n)) w1 w2 b1 b2 q)
    (c : Dev nD) : (dat1 V c).arrAt 6 cfg1.N = rowwise1 f (V c main_v13_0) (V c main_v26) (V c main_arg5) (V c main_arg7) (V c main_arg6) (V c main_arg8) :=
  (dat1 V c).arrAt_eq_of_cover 6 (rowwise1 f (V c main_v13_0) (V c main_v26) (V c main_arg5) (V c main_arg7) (V c main_arg6) (V c main_arg8)) (fun t _ => flushed1_6_eq V f hpay c t) (cover1_6_all)

/-- What grid point `t` writes back through output window 7 is block `t` of the row-wise function of the arrays the region found:
    row `i` of the point's block is row `2000·(block index) + i` of each row-tiled operand, and the weights and biases are read whole. -/
theorem flushed1_7_eq (hpay : ∀ (x s : Vec F S2000x128 .f32) (w1 w2 : Vec F S128x64 .f32) (b1 b2 : Vec F S64 .f32) (i : Fin 2000) (q : Fin 64),
      k1_pay2 x s w1 w2 b1 b2 (ix2 i q) = f (fun n => x (ix2 i n)) (fun n => s (ix2 i n)) w1 w2 b1 b2 q)
    (c : Dev nD) (t : Fin cfg1.N) :
    (dat1 V c).flushed 7 t = ((cfg1.win 7).blk t).view.read (Elt F) (rowwise1 f (V c main_v13_0) (V c main_v26) (V c main_arg5) (V c main_arg7) (V c main_arg6) (V c main_arg8)) := by
  show (cfg1.win 7).cut (grid1.coords t) ((dat1 V c).after 7 t) = _
  rw [after1_7]
  unfold out1_7
  rw [View.canon_unit_zero hzA1]
  simp only [View.ld_unit_zero (S := S2000x128) hzA1, View.ld_unit_zero (S := S128x64) hzA1, View.ld_unit_zero (S := S64) hzB1]
  funext y
  obtain ⟨i, q, rfl⟩ : ∃ (i : Fin 2000) (q : Fin 64), y = ix2 i q := ⟨y 0, y 1, eq_ix2 y⟩
  show k1_pay2 (iblk1 V c 0 t) (iblk1 V c 1 t) (iblk1 V c 2 t) (iblk1 V c 4 t) (iblk1 V c 3 t) (iblk1 V c 5 t) (ix2 i q)
    = rowwise1 f (V c main_v13_0) (V c main_v26) (V c main_arg5) (V c main_arg7) (V c main_arg6) (V c main_arg8) (((cfg1.win 7).blk t).view.emb (ix2 i q))
  refine (hpay (iblk1 V c 0 t) (iblk1 V c 1 t) (iblk1 V c 2 t) (iblk1 V c 4 t) (iblk1 V c 3 t) (iblk1 V c 5 t) i q).trans ?_
  unfold rowwise1
  exact f_congr1 f _ _ _ _ _ _ _ _ _ _ _ _ _ _ (blk1_row0_7 V c t i q) (blk1_row1_7 V c t i q) (blk1_w1 V c t) (blk1_w2 V c t) (blk1_b1 V c t) (blk1_b2 V c t) (blk1_col_7 t i q)

/-- An index of the array is in point `t`'s block of window 7 iff each coordinate is in the block's range on its axis. -/
theorem mem_blk1_7 (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v27_1).slice (win1_7.rect t)).set ↔ _
  rw [View.set_slice_whole, Rect.mem_set_unit]
  exact Iff.rfl

/-- Every row of the array lies in some grid point's block: row `r` in block `r / 2000`. -/
theorem cover1_7_all (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht⟩ := idx_onto1 ⟨(i 0).val / 2000, by omega⟩
  obtain ⟨-, -, -, -, -, -, -, -, -, -, e6b, e7a, e7b, -⟩ := idx_facts1 t
  have ht' : win1_6.index t (0 : Fin 2) = (i 0).val / 2000 := ht
  refine ⟨t, flush1_7 t, ?_⟩
  rw [mem_blk1_7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 64 ≤ (i 1).val ∧ (i 1).val < win1_7.index t (1 : Fin 2) * 64 + 64; omega

/-- Output window 7's array after the region: the row-wise function of the arrays the region found, at every index. -/
theorem final1_7 (hpay : ∀ (x s : Vec F S2000x128 .f32) (w1 w2 : Vec F S128x64 .f32) (b1 b2 : Vec F S64 .f32) (i : Fin 2000) (q : Fin 64),
      k1_pay2 x s w1 w2 b1 b2 (ix2 i q) = f (fun n => x (ix2 i n)) (fun n => s (ix2 i n)) w1 w2 b1 b2 q)
    (c : Dev nD) : (dat1 V c).arrAt 7 cfg1.N = rowwise1 f (V c main_v13_0) (V c main_v26) (V c main_arg5) (V c main_arg7) (V c main_arg6) (V c main_arg8) :=
  (dat1 V c).arrAt_eq_of_cover 7 (rowwise1 f (V c main_v13_0) (V c main_v26) (V c main_arg5) (V c main_arg7) (V c main_arg6) (V c main_arg8)) (fun t _ => flushed1_7_eq V f hpay c t) (cover1_7_all)

end Cert.KernelIdeal.Gen

end
-- ==== Proof.KI.Blocks2.lean ====
/-
  Region 2's two output arrays as whole-array functions. The region tiles the 100000 rows in 50 blocks of 2000; a grid point's
  body computes each row of its output blocks from the same row of its two row-tiled input blocks and from the weight matrices
  and bias vectors, which every point reads whole. So if the body's value is ROW-WISE — its entry (i, q) a function `f` of row i
  of the two input blocks, the weights, the biases and q — then the array the region leaves is the same `f` of the rows of
  the arrays the region found: block t's row i is array row 2000·t + i, and the 50 blocks cover every row.
-/
import proofs.«136498_j73031623901810_1_alg».proof.Proof.KI.Region2
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

theorem hzA2 : (![0, 0] : Fin 2 → Nat) = fun _ => 0 := funext fun a => by fin_cases a <;> rfl
theorem hzB2 : (![0] : Fin 1 → Nat) = fun _ => 0 := funext fun a => by fin_cases a <;> rfl

/-- The printed block-index maps, decided over the 50 grid points: the two row-tiled inputs and the second output move with
    the first output along the rows and sit at column block 0; the weights and biases stay at block 0. -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (1 : Fin 2) = 0
    ∧ win2_7.index t (0 : Fin 2) = win2_6.index t (0 : Fin 2) ∧ win2_7.index t (1 : Fin 2) = 0
    ∧ win2_6.index t (0 : Fin 2) ≤ 49 :=
  (by decide +kernel : ∀ t : Fin grid2.N, _)

/-- Every one of the 50 row blocks is some grid point's. -/
theorem idx_onto2 : ∀ q0 : Fin 50, ∃ t : Fin cfg2.N, win2_6.index t (0 : Fin 2) = q0.val :=
  (by decide +kernel : ∀ q0 : Fin 50, ∃ t : Fin grid2.N, win2_6.index t (0 : Fin 2) = q0.val)

/-! ## The blocks a point reads, as parts of the arrays -/

theorem blk2_w1 (c : Dev nD) (t : Fin cfg2.N) : iblk2 V c 2 t = V c main_arg9 := by
  obtain ⟨-, -, -, -, e2a, e2b, e3, e4a, e4b, e5, -, -, -, -⟩ := idx_facts2 t
  funext y
  show V c main_arg9 (((cfg2.win 2).blk t).view.emb y) = V c main_arg9 y
  refine congrArg (V c main_arg9) ?_
  funext a; apply Fin.ext
  match a with
  | ⟨0, _⟩ => show win2_2.index t (0 : Fin 2) * 64 + 1 * (y 0).val = (y 0).val; omega
  | ⟨1, _⟩ => show win2_2.index t (1 : Fin 2) * 32 + 1 * (y 1).val = (y 1).val; omega
theorem blk2_w2 (c : Dev nD) (t : Fin cfg2.N) : iblk2 V c 4 t = V c main_arg11 := by
  obtain ⟨-, -, -, -, e2a, e2b, e3, e4a, e4b, e5, -, -, -, -⟩ := idx_facts2 t
  funext y
  show V c main_arg11 (((cfg2.win 4).blk t).view.emb y) = V c main_arg11 y
  refine congrArg (V c main_arg11) ?_
  funext a; apply Fin.ext
  match a with
  | ⟨0, _⟩ => show win2_4.index t (0 : Fin 2) * 64 + 1 * (y 0).val = (y 0).val; omega
  | ⟨1, _⟩ => show win2_4.index t (1 : Fin 2) * 32 + 1 * (y 1).val = (y 1).val; omega
theorem blk2_b1 (c : Dev nD) (t : Fin cfg2.N) : iblk2 V c 3 t = V c main_arg10 := by
  obtain ⟨-, -, -, -, e2a, e2b, e3, e4a, e4b, e5, -, -, -, -⟩ := idx_facts2 t
  funext y
  show V c main_arg10 (((cfg2.win 3).blk t).view.emb y) = V c main_arg10 y
  refine congrArg (V c main_arg10) ?_
  funext a; apply Fin.ext
  match a with
  | ⟨0, _⟩ => show win2_3.index t (0 : Fin 1) * 32 + 1 * (y 0).val = (y 0).val; omega
theorem blk2_b2 (c : Dev nD) (t : Fin cfg2.N) : iblk2 V c 5 t = V c main_arg12 := by
  obtain ⟨-, -, -, -, e2a, e2b, e3, e4a, e4b, e5, -, -, -, -⟩ := idx_facts2 t
  funext y
  show V c main_arg12 (((cfg2.win 5).blk t).view.emb y) = V c main_arg12 y
  refine congrArg (V c main_arg12) ?_
  funext a; apply Fin.ext
  match a with
  | ⟨0, _⟩ => show win2_5.index t (0 : Fin 1) * 32 + 1 * (y 0).val = (y 0).val; omega
theorem blk2_row0_6 (c : Dev nD) (t : Fin cfg2.N) (i : Fin 2000) (q : Fin 32) :
    (fun n : Fin 64 => iblk2 V c 0 t (ix2 i n)) = fun n : Fin 64 => (V c main_v27_0 : S100000x64.Idx → Elt F .f32) (ix2 ((((cfg2.win 6).blk t).view.emb (ix2 i q)) 0) n) := by
  obtain ⟨e0a, e0b, e1a, e1b, -, -, -, -, -, -, e6b, e7a, e7b, -⟩ := idx_facts2 t
  funext n
  show V c main_v27_0 (((cfg2.win 0).blk t).view.emb (ix2 i n)) = V c main_v27_0 (ix2 _ n)
  refine congrArg (V c main_v27_0) ?_
  funext a; apply Fin.ext
  match a with
  | ⟨0, _⟩ => show win2_0.index t (0 : Fin 2) * 2000 + 1 * i.val = win2_6.index t (0 : Fin 2) * 2000 + 1 * i.val; omega
  | ⟨1, _⟩ => show win2_0.index t (1 : Fin 2) * 64 + 1 * n.val = n.val; omega
theorem blk2_row1_6 (c : Dev nD) (t : Fin cfg2.N) (i : Fin 2000) (q : Fin 32) :
    (fun n : Fin 64 => iblk2 V c 1 t (ix2 i n)) = fun n : Fin 64 => (V c main_v40 : S100000x64.Idx → Elt F .f32) (ix2 ((((cfg2.win 6).blk t).view.emb (ix2 i q)) 0) n) := by
  obtain ⟨e0a, e0b, e1a, e1b, -, -, -, -, -, -, e6b, e7a, e7b, -⟩ := idx_facts2 t
  funext n
  show V c main_v40 (((cfg2.win 1).blk t).view.emb (ix2 i n)) = V c main_v40 (ix2 _ n)
  refine congrArg (V c main_v40) ?_
  funext a; apply Fin.ext
  match a with
  | ⟨0, _⟩ => show win2_1.index t (0 : Fin 2) * 2000 + 1 * i.val = win2_6.index t (0 : Fin 2) * 2000 + 1 * i.val; omega
  | ⟨1, _⟩ => show win2_1.index t (1 : Fin 2) * 64 + 1 * n.val = n.val; omega
theorem blk2_row0_7 (c : Dev nD) (t : Fin cfg2.N) (i : Fin 2000) (q : Fin 32) :
    (fun n : Fin 64 => iblk2 V c 0 t (ix2 i n)) = fun n : Fin 64 => (V c main_v27_0 : S100000x64.Idx → Elt F .f32) (ix2 ((((cfg2.win 7).blk t).view.emb (ix2 i q)) 0) n) := by
  obtain ⟨e0a, e0b, e1a, e1b, -, -, -, -, -, -, e6b, e7a, e7b, -⟩ := idx_facts2 t
  funext n
  show V c main_v27_0 (((cfg2.win 0).blk t).view.emb (ix2 i n)) = V c main_v27_0 (ix2 _ n)
  refine congrArg (V c main_v27_0) ?_
  funext a; apply Fin.ext
  match a with
  | ⟨0, _⟩ => show win2_0.index t (0 : Fin 2) * 2000 + 1 * i.val = win2_7.index t (0 : Fin 2) * 2000 + 1 * i.val; omega
  | ⟨1, _⟩ => show win2_0.index t (1 : Fin 2) * 64 + 1 * n.val = n.val; omega
theorem blk2_row1_7 (c : Dev nD) (t : Fin cfg2.N) (i : Fin 2000) (q : Fin 32) :
    (fun n : Fin 64 => iblk2 V c 1 t (ix2 i n)) = fun n : Fin 64 => (V c main_v40 : S100000x64.Idx → Elt F .f32) (ix2 ((((cfg2.win 7).blk t).view.emb (ix2 i q)) 0) n) := by
  obtain ⟨e0a, e0b, e1a, e1b, -, -, -, -, -, -, e6b, e7a, e7b, -⟩ := idx_facts2 t
  funext n
  show V c main_v40 (((cfg2.win 1).blk t).view.emb (ix2 i n)) = V c main_v40 (ix2 _ n)
  refine congrArg (V c main_v40) ?_
  funext a; apply Fin.ext
  match a with
  | ⟨0, _⟩ => show win2_1.index t (0 : Fin 2) * 2000 + 1 * i.val = win2_7.index t (0 : Fin 2) * 2000 + 1 * i.val; omega
  | ⟨1, _⟩ => show win2_1.index t (1 : Fin 2) * 64 + 1 * n.val = n.val; omega
theorem blk2_col_6 (t : Fin cfg2.N) (i : Fin 2000) (q : Fin 32) :
    q = (((cfg2.win 6).blk t).view.emb (ix2 i q)) 1 := by
  obtain ⟨-, -, -, -, -, -, -, -, -, -, e6b, e7a, e7b, -⟩ := idx_facts2 t
  apply Fin.ext
  show q.val = win2_6.index t (1 : Fin 2) * 32 + 1 * q.val
  omega
theorem blk2_col_7 (t : Fin cfg2.N) (i : Fin 2000) (q : Fin 32) :
    q = (((cfg2.win 7).blk t).view.emb (ix2 i q)) 1 := by
  obtain ⟨-, -, -, -, -, -, -, -, -, -, e6b, e7a, e7b, -⟩ := idx_facts2 t
  apply Fin.ext
  show q.val = win2_7.index t (1 : Fin 2) * 32 + 1 * q.val
  omega

/-! ## A row-wise body gives a row-wise array -/

variable (f : (Fin 64 → Elt F .f32) → (Fin 64 → Elt F .f32) → Vec F S64x32 .f32 → Vec F S64x32 .f32 → Vec F S32 .f32 → Vec F S32 .f32 → Fin 32 → Elt F .f32)

/-- The row-wise function `f` laid over whole arrays: entry `j` from row `j 0` of the two row-tiled arrays. -/
def rowwise2 (a0 a1 : S100000x64.Idx → Elt F .f32) (w1 w2 : Vec F S64x32 .f32) (b1 b2 : Vec F S32 .f32) : S100000x32.Idx → Elt F .f32 :=
  fun j => f (fun n => a0 (ix2 (j 0) n)) (fun n => a1 (ix2 (j 0) n)) w1 w2 b1 b2 (j 1)

theorem f_congr2 (x x' s s' : Fin 64 → Elt F .f32) (w1 w1' w2 w2' : Vec F S64x32 .f32) (b1 b1' b2 b2' : Vec F S32 .f32) (q q' : Fin 32)
    (hx : x = x') (hs : s = s') (h1 : w1 = w1') (h2 : w2 = w2') (h3 : b1 = b1') (h4 : b2 = b2') (hq : q = q') :
    f x s w1 w2 b1 b2 q = f x' s' w1' w2' b1' b2' q' := by
  subst hx hs h1 h2 h3 h4 hq; rfl

/-- What grid point `t` writes back through output window 6 is block `t` of the row-wise function of the arrays the region found:
    row `i` of the point's block is row `2000·(block index) + i` of each row-tiled operand, and the weights and biases are read whole. -/
theorem flushed2_6_eq (hpay : ∀ (x s : Vec F S2000x64 .f32) (w1 w2 : Vec F S64x32 .f32) (b1 b2 : Vec F S32 .f32) (i : Fin 2000) (q : Fin 32),
      k2_pay1 x s w1 w2 b1 b2 (ix2 i q) = f (fun n => x (ix2 i n)) (fun n => s (ix2 i n)) w1 w2 b1 b2 q)
    (c : Dev nD) (t : Fin cfg2.N) :
    (dat2 V c).flushed 6 t = ((cfg2.win 6).blk t).view.read (Elt F) (rowwise2 f (V c main_v27_0) (V c main_v40) (V c main_arg9) (V c main_arg11) (V c main_arg10) (V c main_arg12)) := by
  show (cfg2.win 6).cut (grid2.coords t) ((dat2 V c).after 6 t) = _
  rw [after2_6]
  unfold out2_6
  rw [View.canon_unit_zero hzA2]
  simp only [View.ld_unit_zero (S := S2000x64) hzA2, View.ld_unit_zero (S := S64x32) hzA2, View.ld_unit_zero (S := S32) hzB2]
  funext y
  obtain ⟨i, q, rfl⟩ : ∃ (i : Fin 2000) (q : Fin 32), y = ix2 i q := ⟨y 0, y 1, eq_ix2 y⟩
  show k2_pay1 (iblk2 V c 0 t) (iblk2 V c 1 t) (iblk2 V c 2 t) (iblk2 V c 4 t) (iblk2 V c 3 t) (iblk2 V c 5 t) (ix2 i q)
    = rowwise2 f (V c main_v27_0) (V c main_v40) (V c main_arg9) (V c main_arg11) (V c main_arg10) (V c main_arg12) (((cfg2.win 6).blk t).view.emb (ix2 i q))
  refine (hpay (iblk2 V c 0 t) (iblk2 V c 1 t) (iblk2 V c 2 t) (iblk2 V c 4 t) (iblk2 V c 3 t) (iblk2 V c 5 t) i q).trans ?_
  unfold rowwise2
  exact f_congr2 f _ _ _ _ _ _ _ _ _ _ _ _ _ _ (blk2_row0_6 V c t i q) (blk2_row1_6 V c t i q) (blk2_w1 V c t) (blk2_w2 V c t) (blk2_b1 V c t) (blk2_b2 V c t) (blk2_col_6 t i q)

/-- An index of the array is in point `t`'s block of window 6 iff each coordinate is in the block's range on its axis. -/
theorem mem_blk2_6 (t : Fin cfg2.N) (i : S100000x32.Idx) :
    i ∈ ((cfg2.win 6).blk t).view.set ↔ ∀ a : Fin 2, win2_6.index t a * S2000x32.size a ≤ (i a).val ∧ (i a).val < win2_6.index t a * S2000x32.size a + S2000x32.size a := by
  show i ∈ ((View.whole main_v41_0).slice (win2_6.rect t)).set ↔ _
  rw [View.set_slice_whole, Rect.mem_set_unit]
  exact Iff.rfl

/-- Every row of the array lies in some grid point's block: row `r` in block `r / 2000`. -/
theorem cover2_6_all (i : S100000x32.Idx) :
    ∃ t : Fin cfg2.N, (cfg2.win 6).flush t = true ∧ i ∈ ((cfg2.win 6).blk t).view.set := by
  have hi0 : (i 0).val < 100000 := (i 0).isLt
  have hi1 : (i 1).val < 32 := (i 1).isLt
  obtain ⟨t, ht⟩ := idx_onto2 ⟨(i 0).val / 2000, by omega⟩
  obtain ⟨-, -, -, -, -, -, -, -, -, -, e6b, e7a, e7b, -⟩ := idx_facts2 t
  have ht' : win2_6.index t (0 : Fin 2) = (i 0).val / 2000 := ht
  refine ⟨t, flush2_6 t, ?_⟩
  rw [mem_blk2_6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 32 ≤ (i 1).val ∧ (i 1).val < win2_6.index t (1 : Fin 2) * 32 + 32; omega

/-- Output window 6's array after the region: the row-wise function of the arrays the region found, at every index. -/
theorem final2_6 (hpay : ∀ (x s : Vec F S2000x64 .f32) (w1 w2 : Vec F S64x32 .f32) (b1 b2 : Vec F S32 .f32) (i : Fin 2000) (q : Fin 32),
      k2_pay1 x s w1 w2 b1 b2 (ix2 i q) = f (fun n => x (ix2 i n)) (fun n => s (ix2 i n)) w1 w2 b1 b2 q)
    (c : Dev nD) : (dat2 V c).arrAt 6 cfg2.N = rowwise2 f (V c main_v27_0) (V c main_v40) (V c main_arg9) (V c main_arg11) (V c main_arg10) (V c main_arg12) :=
  (dat2 V c).arrAt_eq_of_cover 6 (rowwise2 f (V c main_v27_0) (V c main_v40) (V c main_arg9) (V c main_arg11) (V c main_arg10) (V c main_arg12)) (fun t _ => flushed2_6_eq V f hpay c t) (cover2_6_all)

/-- What grid point `t` writes back through output window 7 is block `t` of the row-wise function of the arrays the region found:
    row `i` of the point's block is row `2000·(block index) + i` of each row-tiled operand, and the weights and biases are read whole. -/
theorem flushed2_7_eq (hpay : ∀ (x s : Vec F S2000x64 .f32) (w1 w2 : Vec F S64x32 .f32) (b1 b2 : Vec F S32 .f32) (i : Fin 2000) (q : Fin 32),
      k2_pay2 x s w1 w2 b1 b2 (ix2 i q) = f (fun n => x (ix2 i n)) (fun n => s (ix2 i n)) w1 w2 b1 b2 q)
    (c : Dev nD) (t : Fin cfg2.N) :
    (dat2 V c).flushed 7 t = ((cfg2.win 7).blk t).view.read (Elt F) (rowwise2 f (V c main_v27_0) (V c main_v40) (V c main_arg9) (V c main_arg11) (V c main_arg10) (V c main_arg12)) := by
  show (cfg2.win 7).cut (grid2.coords t) ((dat2 V c).after 7 t) = _
  rw [after2_7]
  unfold out2_7
  rw [View.canon_unit_zero hzA2]
  simp only [View.ld_unit_zero (S := S2000x64) hzA2, View.ld_unit_zero (S := S64x32) hzA2, View.ld_unit_zero (S := S32) hzB2]
  funext y
  obtain ⟨i, q, rfl⟩ : ∃ (i : Fin 2000) (q : Fin 32), y = ix2 i q := ⟨y 0, y 1, eq_ix2 y⟩
  show k2_pay2 (iblk2 V c 0 t) (iblk2 V c 1 t) (iblk2 V c 2 t) (iblk2 V c 4 t) (iblk2 V c 3 t) (iblk2 V c 5 t) (ix2 i q)
    = rowwise2 f (V c main_v27_0) (V c main_v40) (V c main_arg9) (V c main_arg11) (V c main_arg10) (V c main_arg12) (((cfg2.win 7).blk t).view.emb (ix2 i q))
  refine (hpay (iblk2 V c 0 t) (iblk2 V c 1 t) (iblk2 V c 2 t) (iblk2 V c 4 t) (iblk2 V c 3 t) (iblk2 V c 5 t) i q).trans ?_
  unfold rowwise2
  exact f_congr2 f _ _ _ _ _ _ _ _ _ _ _ _ _ _ (blk2_row0_7 V c t i q) (blk2_row1_7 V c t i q) (blk2_w1 V c t) (blk2_w2 V c t) (blk2_b1 V c t) (blk2_b2 V c t) (blk2_col_7 t i q)

/-- An index of the array is in point `t`'s block of window 7 iff each coordinate is in the block's range on its axis. -/
theorem mem_blk2_7 (t : Fin cfg2.N) (i : S100000x32.Idx) :
    i ∈ ((cfg2.win 7).blk t).view.set ↔ ∀ a : Fin 2, win2_7.index t a * S2000x32.size a ≤ (i a).val ∧ (i a).val < win2_7.index t a * S2000x32.size a + S2000x32.size a := by
  show i ∈ ((View.whole main_v41_1).slice (win2_7.rect t)).set ↔ _
  rw [View.set_slice_whole, Rect.mem_set_unit]
  exact Iff.rfl

/-- Every row of the array lies in some grid point's block: row `r` in block `r / 2000`. -/
theorem cover2_7_all (i : S100000x32.Idx) :
    ∃ t : Fin cfg2.N, (cfg2.win 7).flush t = true ∧ i ∈ ((cfg2.win 7).blk t).view.set := by
  have hi0 : (i 0).val < 100000 := (i 0).isLt
  have hi1 : (i 1).val < 32 := (i 1).isLt
  obtain ⟨t, ht⟩ := idx_onto2 ⟨(i 0).val / 2000, by omega⟩
  obtain ⟨-, -, -, -, -, -, -, -, -, -, e6b, e7a, e7b, -⟩ := idx_facts2 t
  have ht' : win2_6.index t (0 : Fin 2) = (i 0).val / 2000 := ht
  refine ⟨t, flush2_7 t, ?_⟩
  rw [mem_blk2_7]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 32 ≤ (i 1).val ∧ (i 1).val < win2_7.index t (1 : Fin 2) * 32 + 32; omega

/-- Output window 7's array after the region: the row-wise function of the arrays the region found, at every index. -/
theorem final2_7 (hpay : ∀ (x s : Vec F S2000x64 .f32) (w1 w2 : Vec F S64x32 .f32) (b1 b2 : Vec F S32 .f32) (i : Fin 2000) (q : Fin 32),
      k2_pay2 x s w1 w2 b1 b2 (ix2 i q) = f (fun n => x (ix2 i n)) (fun n => s (ix2 i n)) w1 w2 b1 b2 q)
    (c : Dev nD) : (dat2 V c).arrAt 7 cfg2.N = rowwise2 f (V c main_v27_0) (V c main_v40) (V c main_arg9) (V c main_arg11) (V c main_arg10) (V c main_arg12) :=
  (dat2 V c).arrAt_eq_of_cover 7 (rowwise2 f (V c main_v27_0) (V c main_v40) (V c main_arg9) (V c main_arg11) (V c main_arg10) (V c main_arg12)) (fun t _ => flushed2_7_eq V f hpay c t) (cover2_7_all)

end Cert.KernelIdeal.Gen

end
-- ==== Proof.LayerSpec.lean ====
/-
  One layer of the network, row by row, over the extended reals.

  A row of the layer's input is a pair of vectors `x` (the row of the embedding) and `s` (the row of the
  neighbourhood sum), each of `N` numbers.  With weights `w1`, `w2` laid out `[N, Q]` and biases `b1`, `b2` of `Q`
  numbers the new row is

      egoRow q = lrelu (Σ n, (x n + s n) * w1 n q + b1 q) + lrelu (Σ n, (x n * s n) * w2 n q + b2 q),

  `lrelu` the leaky rectifier with the slope the f32 word `0x3C23D70A` denotes, and the normalized row is the row
  divided by the larger of its Euclidean length and the number the f32 word `0x2B8CBCCC` denotes.  Both are stated
  with the sums as plain `Fin`-indexed sums, so that a block of rows computed by a matrix unit and the whole array
  computed by a `dot_general` are read against the same row-wise function.

  The one law needed about `lrelu`: a select on `z > 0` and a select on `z ≥ 0` between `z` and `slope * z` are the
  same function, because at `z = 0` the two branches agree (`slope * 0 = 0` on the extended reals, whatever the slope).
-/
import Idealize.ShloMosaic.PureOps.Ideal
import Idealize.ShloMosaic.PureOps.Ideal.Laws
import Idealize.ShloMosaic.Lib.ValueIdx

noncomputable section

open scoped BigOperators

namespace Cert.Layer

open Idealize.ShloMosaic Idealize.ShloMosaic.ValueIdx

/-- The leaky rectifier: `z` where `0 < z`, otherwise `slope * z`, the slope the extended real the f32 word
    `0x3C23D70A` denotes. -/
def lrelu (z : EReal) : EReal := if 0 < z then z else Ideal.ofBits .f32 0x3C23D70A#32 * z

/-- One entry of the layer's new row. -/
def egoRow {N Q : ℕ} (x s : Fin N → EReal) (w1 : Fin N → Fin Q → EReal) (b1 : Fin Q → EReal)
    (w2 : Fin N → Fin Q → EReal) (b2 : Fin Q → EReal) (q : Fin Q) : EReal :=
  lrelu ((∑ n, (x n + s n) * w1 n q) + b1 q) + lrelu ((∑ n, (x n * s n) * w2 n q) + b2 q)

/-- One entry of the normalized row: the entry divided by the larger of the row's Euclidean length and the extended
    real the f32 word `0x2B8CBCCC` denotes. -/
def nrmRow {Q : ℕ} (e : Fin Q → EReal) (q : Fin Q) : EReal :=
  Ideal.div (e q) (max (Ideal.sqrt (∑ q', e q' * e q')) (Ideal.ofBits .f32 0x2B8CBCCC#32))

/-- A select on the comparison `z > 0` between `z` and `slope * z` is the leaky rectifier. -/
theorem select_ogt (z : EReal) :
    Scalar.select (Ideal.cmp .ogt z (Ideal.ofBits .f32 0x00000000#32)) z (Ideal.ofBits .f32 0x3C23D70A#32 * z)
      = lrelu z := by
  rw [Ideal.ofBits_zero_f32]
  unfold lrelu
  by_cases h : (0 : EReal) < z
  · rw [if_pos h]
    show Scalar.select (BitVec.ofBool (decide (0 < z))) _ _ = _
    rw [decide_eq_true h]
    exact select_one _ _
  · rw [if_neg h]
    show Scalar.select (BitVec.ofBool (decide (0 < z))) _ _ = _
    rw [decide_eq_false h]
    exact select_zero _ _

/-- A select on the comparison `z ≥ 0` between `z` and `slope * z` is the leaky rectifier too: at `z = 0` the two
    branches agree. -/
theorem select_oge (z : EReal) :
    Scalar.select (Ideal.cmp .oge z (Ideal.ofBits .f32 0x00000000#32)) z (Ideal.ofBits .f32 0x3C23D70A#32 * z)
      = lrelu z := by
  rw [Ideal.ofBits_zero_f32]
  unfold lrelu
  by_cases h : (0 : EReal) < z
  · rw [if_pos h]
    show Scalar.select (BitVec.ofBool (decide (0 ≤ z))) _ _ = _
    rw [decide_eq_true (le_of_lt h)]
    exact select_one _ _
  · rw [if_neg h]
    show Scalar.select (BitVec.ofBool (decide (0 ≤ z))) _ _ = _
    by_cases h0 : (0 : EReal) ≤ z
    · have hz : z = 0 := le_antisymm (not_lt.mp h) h0
      rw [decide_eq_true h0, hz, mul_zero]
      exact select_one _ _
    · rw [decide_eq_false h0]
      exact select_zero _ _

end Cert.Layer

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«136498_j73031623901810_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.KernelPay.lean ====
/-
  The kernel's two stored values of each layer, read at one entry of a block of rows.

  The first stored value of a layer's kernel is the new block `lrelu ((x + s) · W1 + b1) + lrelu ((x * s) · W2 + b2)`,
  the products taken by the matrix unit into a zero accumulator, the biases one row laid along every row of the block;
  the second is that block with every row divided by the larger of its Euclidean length and a small constant.  Over the
  extended reals a narrowing of the float format is the identity and the matrix unit's product is the plain sum over
  the contraction, so entry `(i, q)` of the first is the row-wise function `egoRow` of row `i` of the operands, and
  entry `(i, q)` of the second is `nrmRow` of row `i` of the first.  Stated once for any block height and widths, then
  at the three layers' literal shapes.
-/
import proofs.«136498_j73031623901810_1_alg».proof.Proof.LayerSpec
import proofs.«136498_j73031623901810_1_alg».proof.Proof.Gen.KernelIdeal.Skeleton
import proofs.«136498_j73031623901810_1_alg».proof.Proof.LibDenseBlock
import proofs.«136498_j73031623901810_1_alg».proof.Proof.LibDenseLayer
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Idealize.ShloMosaic.DenseBlock Idealize.ShloMosaic.DenseLayer
open Cert.KernelIdeal Cert.KernelIdeal.Gen

/-! ## One affine map followed by the leaky rectifier, at an entry -/

/-- Entry `(p, q)` of `lrelu (X · Wt + b)`, the rectifier written as a select on `> 0` between the value and the slope
    times the value, the bias a vector laid as one row along every row. -/
theorem affine_lrelu_apply {K N Q : ℕ} (wf : DotDims.WF ⟨2, ![K, N]⟩ ⟨2, ![N, Q]⟩ ⟨2, ![K, Q]⟩ [1] [0] [0] [1] [] [])
    {φ₁ φ₂ : FTy} (X : FVec Ideal ⟨2, ![K, N]⟩ φ₁) (Wt : FVec Ideal ⟨2, ![N, Q]⟩ φ₂) (b : FVec Ideal ⟨1, ![Q]⟩ .f32)
    (hc : (⟨1, ![Q]⟩ : Shape).ShapeCasts ⟨2, ![1, Q]⟩) (hb : (⟨2, ![1, Q]⟩ : Shape).Broadcasts ⟨2, ![K, Q]⟩)
    (p : Fin K) (q : Fin Q) :
    select
        (cmpf .ogt
          (addf (matmul (mmDims K N Q wf) none X Wt (constant ⟨2, ![K, Q]⟩ .f32 0x00000000#32))
            (broadcastTo ⟨2, ![K, Q]⟩ (shapeCast ⟨2, ![1, Q]⟩ b hc) hb))
          (broadcast ⟨2, ![K, Q]⟩ (Scalar.ofBits (F := Ideal) .f32 0x00000000#32)))
        (addf (matmul (mmDims K N Q wf) none X Wt (constant ⟨2, ![K, Q]⟩ .f32 0x00000000#32))
            (broadcastTo ⟨2, ![K, Q]⟩ (shapeCast ⟨2, ![1, Q]⟩ b hc) hb))
        (mulf (broadcast ⟨2, ![K, Q]⟩ (Scalar.ofBits (F := Ideal) .f32 0x3C23D70A#32))
          (addf (matmul (mmDims K N Q wf) none X Wt (constant ⟨2, ![K, Q]⟩ .f32 0x00000000#32))
            (broadcastTo ⟨2, ![K, Q]⟩ (shapeCast ⟨2, ![1, Q]⟩ b hc) hb)))
        (ix2 p q)
      = Cert.Layer.lrelu ((∑ n : Fin N, X (ix2 p n) * Wt (ix2 n q)) + b (ix1 q)) := by
  show Scalar.select (Ideal.cmp .ogt
        (addf (matmul (mmDims K N Q wf) none X Wt (constant ⟨2, ![K, Q]⟩ .f32 0x00000000#32))
            (broadcastTo ⟨2, ![K, Q]⟩ (shapeCast ⟨2, ![1, Q]⟩ b hc) hb) (ix2 p q))
        (Ideal.ofBits .f32 0x00000000#32))
      (addf (matmul (mmDims K N Q wf) none X Wt (constant ⟨2, ![K, Q]⟩ .f32 0x00000000#32))
            (broadcastTo ⟨2, ![K, Q]⟩ (shapeCast ⟨2, ![1, Q]⟩ b hc) hb) (ix2 p q))
      (Ideal.ofBits .f32 0x3C23D70A#32 *
        addf (matmul (mmDims K N Q wf) none X Wt (constant ⟨2, ![K, Q]⟩ .f32 0x00000000#32))
            (broadcastTo ⟨2, ![K, Q]⟩ (shapeCast ⟨2, ![1, Q]⟩ b hc) hb) (ix2 p q)) = _
  rw [affine_apply wf X Wt _ hb p q, shapeCast_a_1a_apply b hc (0 : Fin 1) q, Cert.Layer.select_ogt]

/-! ## A row's length kept as a column: the two layout steps, at an entry -/

/-- A `[K]` vector cast to a column `[K, 1]` reads, at `(p, u)`, the vector at `p`. -/
theorem shapeCast_a_a1_apply {α : Type} {K : ℕ} (x : (⟨1, ![K]⟩ : Shape).Idx → α)
    (h : (⟨1, ![K]⟩ : Shape).ShapeCasts ⟨2, ![K, 1]⟩) (p : Fin K) (u : Fin 1) :
    shapeCast ⟨2, ![K, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[K, 1]` broadcast along the rows to `[K, Q]` reads, at `(p, q)`, the column at `p`. -/
theorem broadcastTo_a1_ab_apply {α : Type} {K Q : ℕ} (v : (⟨2, ![K, 1]⟩ : Shape).Idx → α)
    (h : (⟨2, ![K, 1]⟩ : Shape).Broadcasts ⟨2, ![K, Q]⟩) (p : Fin K) (q : Fin Q) :
    broadcastTo ⟨2, ![K, Q]⟩ v h (ix2 p q) = v (ix2 p (0 : Fin 1)) := by
  refine broadcastTo_apply v h (ix2 p q) (ix2 p (0 : Fin 1)) fun ax => ?_
  match ax with
  | ⟨0, _⟩ =>
    show p.val = if K = 1 then 0 else p.val
    split
    · have := p.isLt; omega
    · rfl
  | ⟨1, _⟩ => rfl

/-! ## The normalized block, at an entry -/

/-- Entry `(p, q)` of a block with every row divided by the larger of its Euclidean length and a constant: the sum of
    squares along the row as a lane reduction into a zero accumulator, kept as a column, its square root, the maximum
    with the constant, the column laid along the row, the quotient. -/
theorem nrm_apply {K Q : ℕ} (P : FVec Ideal ⟨2, ![K, Q]⟩ .f32)
    (h : (⟨2, ![K, Q]⟩ : Shape).Reduces [1] ⟨1, ![K]⟩) (hφ : FKind.Formats .f32)
    (hacc : (0x00000000#32 : BitVec 32) = FKind.add.neutral .f32 hφ)
    (hc : (⟨1, ![K]⟩ : Shape).ShapeCasts ⟨2, ![K, 1]⟩) (hb : (⟨2, ![K, 1]⟩ : Shape).Broadcasts ⟨2, ![K, Q]⟩)
    (p : Fin K) (q : Fin Q) :
    divf P (broadcastTo ⟨2, ![K, Q]⟩
        (maximumf (sqrt (shapeCast ⟨2, ![K, 1]⟩ (multiReduction .add [1] ⟨1, ![K]⟩ (mulf P P) 0x00000000#32 h hφ hacc) hc))
          (broadcast ⟨2, ![K, 1]⟩ (Scalar.ofBits (F := Ideal) .f32 0x2B8CBCCC#32))) hb) (ix2 p q)
      = Cert.Layer.nrmRow (fun q' => P (ix2 p q')) q := by
  show Ideal.div (P (ix2 p q)) (broadcastTo ⟨2, ![K, Q]⟩
        (maximumf (sqrt (shapeCast ⟨2, ![K, 1]⟩ (multiReduction .add [1] ⟨1, ![K]⟩ (mulf P P) 0x00000000#32 h hφ hacc) hc))
          (broadcast ⟨2, ![K, 1]⟩ (Scalar.ofBits (F := Ideal) .f32 0x2B8CBCCC#32))) hb (ix2 p q)) = _
  rw [broadcastTo_a1_ab_apply _ hb p q]
  show Ideal.div (P (ix2 p q)) (max (Ideal.sqrt
        (shapeCast ⟨2, ![K, 1]⟩ (multiReduction .add [1] ⟨1, ![K]⟩ (mulf P P) 0x00000000#32 h hφ hacc) hc (ix2 p (0 : Fin 1))))
        (Ideal.ofBits .f32 0x2B8CBCCC#32)) = _
  rw [shapeCast_a_a1_apply _ hc p (0 : Fin 1), Ideal.multiReduction_add_single (mulf P P) 0x00000000#32 h hφ hacc (ix1 p)]
  unfold Cert.Layer.nrmRow
  refine congrArg (fun t => Ideal.div (P (ix2 p q)) (max (Ideal.sqrt t) (Ideal.ofBits .f32 0x2B8CBCCC#32))) ?_
  show ∑ k : Fin Q, mulf P P (h.lift (ix1 p) k) = ∑ q' : Fin Q, P (ix2 p q') * P (ix2 p q')
  refine Finset.sum_congr rfl fun k _ => ?_
  have e : h.lift (ix1 p) k = ix2 p k := funext fun a => Fin.ext (by
    match a with
    | ⟨0, _⟩ => rfl
    | ⟨1, _⟩ => rfl)
  rw [e]
  rfl

/-! ## Layer 0: blocks of 2000 rows, widths 128 → 128 -/

/-- Entry `(i, q)` of layer 0's new block is `egoRow` of row `i` of the operands. -/
theorem pay0_ego (x s : FVec Ideal S2000x128 .f32) (w1 w2 : FVec Ideal S128x128 .f32) (b1 b2 : FVec Ideal S128 .f32)
    (i : Fin 2000) (q : Fin 128) :
    Cert.KernelIdeal.Gen.k0_pay1 (F := Ideal) x s w1 w2 b1 b2 (ix2 i q)
      = Cert.Layer.egoRow (fun n => x (ix2 i n)) (fun n => s (ix2 i n)) (fun n q => w1 (ix2 n q))
          (fun q => b1 (ix1 q)) (fun n q => w2 (ix2 n q)) (fun q => b2 (ix1 q)) q := by
  unfold Cert.KernelIdeal.Gen.k0_pay1
  simp only [shapeCast_self]
  exact congrArg₂ (· + ·)
    (affine_lrelu_apply Facts₀.dot_S2000x128_S128x128_S2000x128_1_0_0_1_n_n_wf
      (truncf .bf16 (addf x s) Facts₀.bitsLt_bf16_f32) (truncf .bf16 w1 Facts₀.bitsLt_bf16_f32) b1
      Facts₀.shapeCasts_S128_S1x128 Facts₀.broadcasts_S1x128_S2000x128 i q)
    (affine_lrelu_apply Facts₀.dot_S2000x128_S128x128_S2000x128_1_0_0_1_n_n_wf
      (truncf .bf16 (mulf x s) Facts₀.bitsLt_bf16_f32) (truncf .bf16 w2 Facts₀.bitsLt_bf16_f32) b2
      Facts₀.shapeCasts_S128_S1x128 Facts₀.broadcasts_S1x128_S2000x128 i q)

/-- Entry `(i, q)` of layer 0's normalized block is `nrmRow` of row `i` of its new block. -/
theorem pay0_nrm (x s : FVec Ideal S2000x128 .f32) (w1 w2 : FVec Ideal S128x128 .f32) (b1 b2 : FVec Ideal S128 .f32)
    (i : Fin 2000) (q : Fin 128) :
    Cert.KernelIdeal.Gen.k0_pay2 (F := Ideal) x s w1 w2 b1 b2 (ix2 i q)
      = Cert.Layer.nrmRow (fun q' => Cert.KernelIdeal.Gen.k0_pay1 (F := Ideal) x s w1 w2 b1 b2 (ix2 i q')) q := by
  unfold Cert.KernelIdeal.Gen.k0_pay2
  exact nrm_apply (Cert.KernelIdeal.Gen.k0_pay1 (F := Ideal) x s w1 w2 b1 b2) Facts₀.reduces_S2000x128_S2000 (.inl rfl) rfl
    Facts₀.shapeCasts_S2000_S2000x1 Facts₀.broadcasts_S2000x1_S2000x128 i q

/-! ## Layer 1: blocks of 2000 rows, widths 128 → 64 -/

/-- Entry `(i, q)` of layer 1's new block is `egoRow` of row `i` of the operands. -/
theorem pay1_ego (x s : FVec Ideal S2000x128 .f32) (w1 w2 : FVec Ideal S128x64 .f32) (b1 b2 : FVec Ideal S64 .f32)
    (i : Fin 2000) (q : Fin 64) :
    Cert.KernelIdeal.Gen.k1_pay1 (F := Ideal) x s w1 w2 b1 b2 (ix2 i q)
      = Cert.Layer.egoRow (fun n => x (ix2 i n)) (fun n => s (ix2 i n)) (fun n q => w1 (ix2 n q))
          (fun q => b1 (ix1 q)) (fun n q => w2 (ix2 n q)) (fun q => b2 (ix1 q)) q := by
  unfold Cert.KernelIdeal.Gen.k1_pay1
  simp only [shapeCast_self]
  exact congrArg₂ (· + ·)
    (affine_lrelu_apply Facts₀.dot_S2000x128_S128x64_S2000x64_1_0_0_1_n_n_wf
      (truncf .bf16 (addf x s) Facts₀.bitsLt_bf16_f32) (truncf .bf16 w1 Facts₀.bitsLt_bf16_f32) b1
      Facts₀.shapeCasts_S64_S1x64 Facts₀.broadcasts_S1x64_S2000x64 i q)
    (affine_lrelu_apply Facts₀.dot_S2000x128_S128x64_S2000x64_1_0_0_1_n_n_wf
      (truncf .bf16 (mulf x s) Facts₀.bitsLt_bf16_f32) (truncf .bf16 w2 Facts₀.bitsLt_bf16_f32) b2
      Facts₀.shapeCasts_S64_S1x64 Facts₀.broadcasts_S1x64_S2000x64 i q)

/-- Entry `(i, q)` of layer 1's normalized block is `nrmRow` of row `i` of its new block. -/
theorem pay1_nrm (x s : FVec Ideal S2000x128 .f32) (w1 w2 : FVec Ideal S128x64 .f32) (b1 b2 : FVec Ideal S64 .f32)
    (i : Fin 2000) (q : Fin 64) :
    Cert.KernelIdeal.Gen.k1_pay2 (F := Ideal) x s w1 w2 b1 b2 (ix2 i q)
      = Cert.Layer.nrmRow (fun q' => Cert.KernelIdeal.Gen.k1_pay1 (F := Ideal) x s w1 w2 b1 b2 (ix2 i q')) q := by
  unfold Cert.KernelIdeal.Gen.k1_pay2
  exact nrm_apply (Cert.KernelIdeal.Gen.k1_pay1 (F := Ideal) x s w1 w2 b1 b2) Facts₀.reduces_S2000x64_S2000 (.inl rfl) rfl
    Facts₀.shapeCasts_S2000_S2000x1 Facts₀.broadcasts_S2000x1_S2000x64 i q

/-! ## Layer 2: blocks of 2000 rows, widths 64 → 32 -/

/-- Entry `(i, q)` of layer 2's new block is `egoRow` of row `i` of the operands. -/
theorem pay2_ego (x s : FVec Ideal S2000x64 .f32) (w1 w2 : FVec Ideal S64x32 .f32) (b1 b2 : FVec Ideal S32 .f32)
    (i : Fin 2000) (q : Fin 32) :
    Cert.KernelIdeal.Gen.k2_pay1 (F := Ideal) x s w1 w2 b1 b2 (ix2 i q)
      = Cert.Layer.egoRow (fun n => x (ix2 i n)) (fun n => s (ix2 i n)) (fun n q => w1 (ix2 n q))
          (fun q => b1 (ix1 q)) (fun n q => w2 (ix2 n q)) (fun q => b2 (ix1 q)) q := by
  unfold Cert.KernelIdeal.Gen.k2_pay1
  simp only [shapeCast_self]
  exact congrArg₂ (· + ·)
    (affine_lrelu_apply Facts₀.dot_S2000x64_S64x32_S2000x32_1_0_0_1_n_n_wf
      (truncf .bf16 (addf x s) Facts₀.bitsLt_bf16_f32) (truncf .bf16 w1 Facts₀.bitsLt_bf16_f32) b1
      Facts₀.shapeCasts_S32_S1x32 Facts₀.broadcasts_S1x32_S2000x32 i q)
    (affine_lrelu_apply Facts₀.dot_S2000x64_S64x32_S2000x32_1_0_0_1_n_n_wf
      (truncf .bf16 (mulf x s) Facts₀.bitsLt_bf16_f32) (truncf .bf16 w2 Facts₀.bitsLt_bf16_f32) b2
      Facts₀.shapeCasts_S32_S1x32 Facts₀.broadcasts_S1x32_S2000x32 i q)

/-- Entry `(i, q)` of layer 2's normalized block is `nrmRow` of row `i` of its new block. -/
theorem pay2_nrm (x s : FVec Ideal S2000x64 .f32) (w1 w2 : FVec Ideal S64x32 .f32) (b1 b2 : FVec Ideal S32 .f32)
    (i : Fin 2000) (q : Fin 32) :
    Cert.KernelIdeal.Gen.k2_pay2 (F := Ideal) x s w1 w2 b1 b2 (ix2 i q)
      = Cert.Layer.nrmRow (fun q' => Cert.KernelIdeal.Gen.k2_pay1 (F := Ideal) x s w1 w2 b1 b2 (ix2 i q')) q := by
  unfold Cert.KernelIdeal.Gen.k2_pay2
  exact nrm_apply (Cert.KernelIdeal.Gen.k2_pay1 (F := Ideal) x s w1 w2 b1 b2) Facts₀.reduces_S2000x32_S2000 (.inl rfl) rfl
    Facts₀.shapeCasts_S2000_S2000x1 Facts₀.broadcasts_S2000x1_S2000x32 i q

end Cert.KernelIdeal.Pay

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«136498_j73031623901810_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibHostLayer.lean ====
/-
  A dense layer on the host, read at an index.

  `x @ W + b` for a batch x of E rows of N numbers, a weight matrix W laid out [N, Q] and a bias vector b of Q numbers
  lowers to a `dot_general` contracting x's second axis with W's first, and b broadcast first to one row [1, Q] and
  then along the E rows.  Over the extended reals entry (e, q) of the result is  Σ n, x (e, n) * W (n, q) + b q.
-/
import proofs.«136498_j73031623901810_1_alg».proof.Proof.LibDenseHost
import Idealize.ShloMosaic.Lib.Pipeline.Value

set_option maxRecDepth 16384

noncomputable section

open scoped BigOperators

namespace Idealize.ShloMosaic.HostLayer

open Idealize.ShloMosaic Idealize.ShloMosaic.ValueIdx Idealize.ShloMosaic.DenseBlock

/-- A bias vector broadcast to one row and then along the rows, at (e, q). -/
theorem bias_apply {E Q : ℕ} (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    broadcastInDim ⟨2, ![E, Q]⟩ ![0, 1] h2 (broadcastInDim ⟨2, ![1, Q]⟩ ![1] h1 b) (ix2 e q) = b (ix1 q) := by
  have hq := q.isLt
  rw [broadcastInDim_apply ![0, 1] h2 _ (ix2 e q) (ix2 (0 : Fin 1) q) (fun a => by
      match a with
      | ⟨0, _⟩ => show (0 : ℕ) = if (1 : ℕ) = 1 then 0 else e.val; simp
      | ⟨1, _⟩ => show q.val = if Q = 1 then 0 else q.val; split <;> omega),
    broadcastInDim_apply ![1] h1 _ (ix2 (0 : Fin 1) q) (ix1 q) (fun a => by
      match a with
      | ⟨0, _⟩ => show q.val = if Q = 1 then 0 else q.val; split <;> omega)]

/-- One layer on the host: a product and a broadcast bias, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    addf (Host.dotGeneral (mmDims E N Q wf) none X W)
        (broadcastInDim ⟨2, ![E, Q]⟩ ![0, 1] h2 (broadcastInDim ⟨2, ![1, Q]⟩ ![1] h1 b)) (ix2 e q)
      = (∑ n : Fin N, X (ix2 e n) * W (ix2 n q)) + b (ix1 q) := by
  show FloatOps.dotGeneral (mmDims E N Q wf) none _ X W (ix2 e q)
      + broadcastInDim ⟨2, ![E, Q]⟩ ![0, 1] h2 (broadcastInDim ⟨2, ![1, Q]⟩ ![1] h1 b) (ix2 e q) = _
  rw [dotGeneral_apply_ix2, bias_apply]

end Idealize.ShloMosaic.HostLayer

end
-- ==== Proof.HostDense.lean ====
/-
  The reference's dense stage of each layer, read at one entry of the whole array.

  On the host a layer is `lrelu ((E + S) · W1 + b1) + lrelu ((E * S) · W2 + b2)` on the whole `[100000, N]` arrays — the
  products `dot_general`s, each bias broadcast first to one row and then along the rows, the rectifier a select on
  `≥ 0` between the value and the slope times the value — followed by the division of every row by the larger of
  its Euclidean length (a reduce-add of the squares along the row, kept as a column, then the square root) and a small
  constant.  The two definitions per layer below are the reference's host operations in the program's own order, composed as one
  pure term of the arguments; over the extended reals entry `(r, q)` of the first is the
  row-wise function `egoRow` of row `r` of the operands and entry `(r, q)` of the second is `nrmRow` of row `r`.
-/
import proofs.«136498_j73031623901810_1_alg».proof.Proof.LayerSpec
import proofs.«136498_j73031623901810_1_alg».proof.Proof.Gen.ReferenceIdeal
import proofs.«136498_j73031623901810_1_alg».proof.Proof.LibDenseBlock
import proofs.«136498_j73031623901810_1_alg».proof.Proof.LibDenseHost
import proofs.«136498_j73031623901810_1_alg».proof.Proof.LibHostLayer
import Idealize.ShloMosaic.Lib.Pipeline.Value
import Idealize.ShloMosaic.PureOps.Ideal.Laws

noncomputable section

open scoped BigOperators

namespace Cert.ReferenceIdeal.Dense

open Idealize.ShloMosaic Idealize.ShloMosaic.ValueIdx Idealize.ShloMosaic.DenseBlock Idealize.ShloMosaic.HostLayer
open Cert.ReferenceIdeal Cert.ReferenceIdeal.Facts₀ Cert.ReferenceIdeal.Facts

/-! ## Broadcasts on the host, at an entry -/

/-- A rank-zero value broadcast to any shape reads its one element everywhere. -/
theorem bcast_scalar_apply {α : Type} {t : Shape} (x : (⟨0, ![]⟩ : Shape).Idx → α)
    (h : (⟨0, ![]⟩ : Shape).BroadcastsInDim t ![]) (j : t.Idx) : broadcastInDim t ![] h x j = x ix0 :=
  broadcastInDim_apply ![] h x j ix0 (fun a => a.elim0)

/-- A `[E]` vector broadcast to a column `[E, 1]` reads, at `(e, u)`, the vector at `e`. -/
theorem bcast_a_a1_apply {α : Type} {E : ℕ} (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) := by
  have he := e.isLt
  exact broadcastInDim_apply ![0] h x (ix2 e u) (ix1 e) (fun a => by
    match a with
    | ⟨0, _⟩ => show e.val = if E = 1 then 0 else e.val; split <;> omega)

/-- A column `[E, 1]` broadcast along the rows to `[E, Q]` reads, at `(e, q)`, the column at `e`. -/
theorem bcast_a1_ab_apply {α : Type} {E Q : ℕ} (v : (⟨2, ![E, 1]⟩ : Shape).Idx → α)
    (h : (⟨2, ![E, 1]⟩ : Shape).BroadcastsInDim ⟨2, ![E, Q]⟩ ![0, 1]) (e : Fin E) (q : Fin Q) :
    broadcastInDim ⟨2, ![E, Q]⟩ ![0, 1] h v (ix2 e q) = v (ix2 e (0 : Fin 1)) := by
  have he := e.isLt
  exact broadcastInDim_apply ![0, 1] h v (ix2 e q) (ix2 e (0 : Fin 1)) (fun a => by
    match a with
    | ⟨0, _⟩ => show e.val = if E = 1 then 0 else e.val; split <;> omega
    | ⟨1, _⟩ => show (0 : ℕ) = if (1 : ℕ) = 1 then 0 else q.val; simp)

/-! ## One affine map followed by the leaky rectifier, at an entry -/

/-- Entry `(e, q)` of `lrelu (X · W + b)` on the host, the rectifier a select on `≥ 0` between the value and the slope
    times the value, the two constants rank-zero values broadcast to the array. -/
theorem affine_lrelu_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1])
    (h0 : (⟨0, ![]⟩ : Shape).BroadcastsInDim ⟨2, ![E, Q]⟩ ![]) (e : Fin E) (q : Fin Q) :
    select
        (cmpf .oge
          (addf (Host.dotGeneral (mmDims E N Q wf) none X W)
            (broadcastInDim ⟨2, ![E, Q]⟩ ![0, 1] h2 (broadcastInDim ⟨2, ![1, Q]⟩ ![1] h1 b)))
          (broadcastInDim ⟨2, ![E, Q]⟩ ![] h0 (constant (F := Ideal) ⟨0, ![]⟩ .f32 0x00000000#32)))
        (addf (Host.dotGeneral (mmDims E N Q wf) none X W)
            (broadcastInDim ⟨2, ![E, Q]⟩ ![0, 1] h2 (broadcastInDim ⟨2, ![1, Q]⟩ ![1] h1 b)))
        (mulf (broadcastInDim ⟨2, ![E, Q]⟩ ![] h0 (constant (F := Ideal) ⟨0, ![]⟩ .f32 0x3C23D70A#32))
          (addf (Host.dotGeneral (mmDims E N Q wf) none X W)
            (broadcastInDim ⟨2, ![E, Q]⟩ ![0, 1] h2 (broadcastInDim ⟨2, ![1, Q]⟩ ![1] h1 b))))
        (ix2 e q)
      = Cert.Layer.lrelu ((∑ n : Fin N, X (ix2 e n) * W (ix2 n q)) + b (ix1 q)) := by
  show Scalar.select (Ideal.cmp .oge
        (addf (Host.dotGeneral (mmDims E N Q wf) none X W)
            (broadcastInDim ⟨2, ![E, Q]⟩ ![0, 1] h2 (broadcastInDim ⟨2, ![1, Q]⟩ ![1] h1 b)) (ix2 e q))
        (broadcastInDim ⟨2, ![E, Q]⟩ ![] h0 (constant (F := Ideal) ⟨0, ![]⟩ .f32 0x00000000#32) (ix2 e q)))
      (addf (Host.dotGeneral (mmDims E N Q wf) none X W)
            (broadcastInDim ⟨2, ![E, Q]⟩ ![0, 1] h2 (broadcastInDim ⟨2, ![1, Q]⟩ ![1] h1 b)) (ix2 e q))
      (broadcastInDim ⟨2, ![E, Q]⟩ ![] h0 (constant (F := Ideal) ⟨0, ![]⟩ .f32 0x3C23D70A#32) (ix2 e q) *
        addf (Host.dotGeneral (mmDims E N Q wf) none X W)
            (broadcastInDim ⟨2, ![E, Q]⟩ ![0, 1] h2 (broadcastInDim ⟨2, ![1, Q]⟩ ![1] h1 b)) (ix2 e q)) = _
  rw [layer_apply wf X W b h1 h2 e q, bcast_scalar_apply _ h0, bcast_scalar_apply _ h0]
  exact Cert.Layer.select_oge _

/-! ## The normalized array, at an entry -/

/-- Entry `(e, q)` of an array with every row divided by the larger of its Euclidean length and a constant: the sum
    of squares along the row a reduce-add from a zero initial value, broadcast to a column, its square root, the maximum
    with the broadcast constant, the column broadcast along the row, the quotient. -/
theorem nrm_apply {E Q : ℕ} (X : FVec Ideal ⟨2, ![E, Q]⟩ .f32)
    (hr : (⟨2, ![E, Q]⟩ : Shape).ReducesTo [1] ⟨1, ![E]⟩) (hu : 0 < (⟨0, ![]⟩ : Shape).numel)
    (hcol : (⟨1, ![E]⟩ : Shape).BroadcastsInDim ⟨2, ![E, 1]⟩ ![0])
    (h0 : (⟨0, ![]⟩ : Shape).BroadcastsInDim ⟨2, ![E, 1]⟩ ![])
    (hb : (⟨2, ![E, 1]⟩ : Shape).BroadcastsInDim ⟨2, ![E, Q]⟩ ![0, 1]) (e : Fin E) (q : Fin Q) :
    Host.divf X (broadcastInDim ⟨2, ![E, Q]⟩ ![0, 1] hb
        (maximumf
          (Host.sqrt (broadcastInDim ⟨2, ![E, 1]⟩ ![0] hcol
            (Host.reduceAdd (mulf X X) (constant (F := Ideal) ⟨0, ![]⟩ .f32 0x00000000#32) hr hu)))
          (broadcastInDim ⟨2, ![E, 1]⟩ ![] h0 (constant (F := Ideal) ⟨0, ![]⟩ .f32 0x2B8CBCCC#32)))) (ix2 e q)
      = Cert.Layer.nrmRow (fun q' => X (ix2 e q')) q := by
  show Ideal.div (X (ix2 e q)) (broadcastInDim ⟨2, ![E, Q]⟩ ![0, 1] hb
        (maximumf
          (Host.sqrt (broadcastInDim ⟨2, ![E, 1]⟩ ![0] hcol
            (Host.reduceAdd (mulf X X) (constant (F := Ideal) ⟨0, ![]⟩ .f32 0x00000000#32) hr hu)))
          (broadcastInDim ⟨2, ![E, 1]⟩ ![] h0 (constant (F := Ideal) ⟨0, ![]⟩ .f32 0x2B8CBCCC#32))) (ix2 e q)) = _
  rw [bcast_a1_ab_apply _ hb e q]
  show Ideal.div (X (ix2 e q)) (max
        (Ideal.sqrt (broadcastInDim ⟨2, ![E, 1]⟩ ![0] hcol
            (Host.reduceAdd (mulf X X) (constant (F := Ideal) ⟨0, ![]⟩ .f32 0x00000000#32) hr hu) (ix2 e (0 : Fin 1))))
        (broadcastInDim ⟨2, ![E, 1]⟩ ![] h0 (constant (F := Ideal) ⟨0, ![]⟩ .f32 0x2B8CBCCC#32) (ix2 e (0 : Fin 1)))) = _
  rw [bcast_a_a1_apply _ hcol e (0 : Fin 1), bcast_scalar_apply _ h0]
  have hR : (⟨2, ![E, Q]⟩ : Shape).Reduces [1] ⟨1, ![E]⟩ := ⟨hr.1, Nat.one_pos, hr.2⟩
  show Ideal.div (X (ix2 e q)) (max
        (Ideal.sqrt (Ideal.hostReduceAdd hr (mulf X X) (Ideal.ofBits .f32 0x00000000#32) (ix1 e)))
        (Ideal.ofBits .f32 0x2B8CBCCC#32)) = _
  rw [Ideal.hostReduceAdd_single hr hR (mulf X X) _ (ix1 e), Ideal.ofBits_zero_f32, zero_add]
  unfold Cert.Layer.nrmRow
  refine congrArg (fun t => Ideal.div (X (ix2 e q)) (max (Ideal.sqrt t) (Ideal.ofBits .f32 0x2B8CBCCC#32))) ?_
  show ∑ k : Fin Q, mulf X X (hR.lift (ix1 e) k) = ∑ q' : Fin Q, X (ix2 e q') * X (ix2 e q')
  refine Finset.sum_congr rfl fun k _ => ?_
  have el : hR.lift (ix1 e) k = ix2 e k := funext fun a => Fin.ext (by
    match a with
    | ⟨0, _⟩ => rfl
    | ⟨1, _⟩ => rfl)
  rw [el]
  rfl

variable [Facts]

/-! ## Layer 0: widths 128 → 128 -/

/-- Layer 0's host operations from the sum of the two operands to the sum of the two rectified affine maps, in the
    program's order, as one term of the arguments. -/
def hostEgo0 (E S : FVec Ideal S100000x128 .f32) (W1 : FVec Ideal S128x128 .f32) (b1 : FVec Ideal S128 .f32)
    (W2 : FVec Ideal S128x128 .f32) (b2 : FVec Ideal S128 .f32) : FVec Ideal S100000x128 .f32 :=
  have v13 : FVec Ideal S100000x128 .f32 := addf E S
  have v14 : FVec Ideal S100000x128 .f32 := Host.dotGeneral dot_S100000x128_S128x128_S100000x128_1_0_0_1_n_n none v13 W1
  have v15 : FVec Ideal S1x128 .f32 := broadcastInDim S1x128 ![1] bcast_S128_S1x128_1 b1
  have v16 : FVec Ideal S100000x128 .f32 := broadcastInDim S100000x128 ![0, 1] bcast_S1x128_S100000x128_0_1 v15
  have v17 : FVec Ideal S100000x128 .f32 := addf v14 v16
  have a_cst : FVec Ideal S_ .f32 := constant S_ .f32 0x00000000#32
  have a_v0 : FVec Ideal S100000x128 .f32 := broadcastInDim S100000x128 ![] bcast_S_S100000x128 a_cst
  have a_v1 : IVec S100000x128 1 := cmpf .oge v17 a_v0
  have a_cst_0 : FVec Ideal S_ .f32 := constant S_ .f32 0x3C23D70A#32
  have a_v2 : FVec Ideal S100000x128 .f32 := broadcastInDim S100000x128 ![] bcast_S_S100000x128 a_cst_0
  have a_v3 : FVec Ideal S100000x128 .f32 := mulf a_v2 v17
  have v18 : FVec Ideal S100000x128 .f32 := select a_v1 v17 a_v3
  have v19 : FVec Ideal S100000x128 .f32 := mulf E S
  have v20 : FVec Ideal S100000x128 .f32 := Host.dotGeneral dot_S100000x128_S128x128_S100000x128_1_0_0_1_n_n none v19 W2
  have v21 : FVec Ideal S1x128 .f32 := broadcastInDim S1x128 ![1] bcast_S128_S1x128_1 b2
  have v22 : FVec Ideal S100000x128 .f32 := broadcastInDim S100000x128 ![0, 1] bcast_S1x128_S100000x128_0_1 v21
  have v23 : FVec Ideal S100000x128 .f32 := addf v20 v22
  have b_cst : FVec Ideal S_ .f32 := constant S_ .f32 0x00000000#32
  have b_v0 : FVec Ideal S100000x128 .f32 := broadcastInDim S100000x128 ![] bcast_S_S100000x128 b_cst
  have b_v1 : IVec S100000x128 1 := cmpf .oge v23 b_v0
  have b_cst_0 : FVec Ideal S_ .f32 := constant S_ .f32 0x3C23D70A#32
  have b_v2 : FVec Ideal S100000x128 .f32 := broadcastInDim S100000x128 ![] bcast_S_S100000x128 b_cst_0
  have b_v3 : FVec Ideal S100000x128 .f32 := mulf b_v2 v23
  have v24 : FVec Ideal S100000x128 .f32 := select b_v1 v23 b_v3
  have v25 : FVec Ideal S100000x128 .f32 := addf v18 v24
  v25

/-- Layer 0's normalization on the host, in the program's order, as one term of the array. -/
def hostNrm0 (X : FVec Ideal S100000x128 .f32) : FVec Ideal S100000x128 .f32 :=
  have n_v0 : FVec Ideal S100000x128 .f32 := mulf X X
  have n_cst : FVec Ideal S_ .f32 := constant S_ .f32 0x00000000#32
  have n_v1 : FVec Ideal S100000 .f32 := Host.reduceAdd n_v0 n_cst reducesTo_S100000x128_S100000_d1 h_S_
  have n_v2 : FVec Ideal S100000x1 .f32 := broadcastInDim S100000x1 ![0] bcast_S100000_S100000x1_0 n_v1
  have v26 : FVec Ideal S100000x1 .f32 := Host.sqrt n_v2
  have cst_1 : FVec Ideal S_ .f32 := constant S_ .f32 0x2B8CBCCC#32
  have v27 : FVec Ideal S100000x1 .f32 := broadcastInDim S100000x1 ![] bcast_S_S100000x1 cst_1
  have v28 : FVec Ideal S100000x1 .f32 := maximumf v26 v27
  have v29 : FVec Ideal S100000x128 .f32 := broadcastInDim S100000x128 ![0, 1] bcast_S100000x1_S100000x128_0_1 v28
  have v30 : FVec Ideal S100000x128 .f32 := Host.divf X v29
  v30

/-- Entry `(r, q)` of layer 0's new array is `egoRow` of row `r` of the operands. -/
theorem hostEgo0_apply (E S : FVec Ideal S100000x128 .f32) (W1 : FVec Ideal S128x128 .f32) (b1 : FVec Ideal S128 .f32)
    (W2 : FVec Ideal S128x128 .f32) (b2 : FVec Ideal S128 .f32) (r : Fin 100000) (q : Fin 128) :
    hostEgo0 E S W1 b1 W2 b2 (ix2 r q)
      = Cert.Layer.egoRow (fun n => E (ix2 r n)) (fun n => S (ix2 r n)) (fun n q => W1 (ix2 n q))
          (fun q => b1 (ix1 q)) (fun n q => W2 (ix2 n q)) (fun q => b2 (ix1 q)) q := by
  unfold hostEgo0
  exact congrArg₂ (· + ·)
    (affine_lrelu_apply dot_S100000x128_S128x128_S100000x128_1_0_0_1_n_n_wf (addf E S) W1 b1
      bcast_S128_S1x128_1 bcast_S1x128_S100000x128_0_1 bcast_S_S100000x128 r q)
    (affine_lrelu_apply dot_S100000x128_S128x128_S100000x128_1_0_0_1_n_n_wf (mulf E S) W2 b2
      bcast_S128_S1x128_1 bcast_S1x128_S100000x128_0_1 bcast_S_S100000x128 r q)

/-- Entry `(r, q)` of layer 0's normalized array is `nrmRow` of row `r` of the array. -/
theorem hostNrm0_apply (X : FVec Ideal S100000x128 .f32) (r : Fin 100000) (q : Fin 128) :
    hostNrm0 X (ix2 r q) = Cert.Layer.nrmRow (fun q' => X (ix2 r q')) q := by
  unfold hostNrm0
  exact nrm_apply X reducesTo_S100000x128_S100000_d1 h_S_ bcast_S100000_S100000x1_0 bcast_S_S100000x1
    bcast_S100000x1_S100000x128_0_1 r q

/-! ## Layer 1: widths 128 → 64 -/

/-- Layer 1's host operations from the sum of the two operands to the sum of the two rectified affine maps, in the
    program's order, as one term of the arguments. -/
def hostEgo1 (E S : FVec Ideal S100000x128 .f32) (W1 : FVec Ideal S128x64 .f32) (b1 : FVec Ideal S64 .f32)
    (W2 : FVec Ideal S128x64 .f32) (b2 : FVec Ideal S64 .f32) : FVec Ideal S100000x64 .f32 :=
  have v13 : FVec Ideal S100000x128 .f32 := addf E S
  have v14 : FVec Ideal S100000x64 .f32 := Host.dotGeneral dot_S100000x128_S128x64_S100000x64_1_0_0_1_n_n none v13 W1
  have v15 : FVec Ideal S1x64 .f32 := broadcastInDim S1x64 ![1] bcast_S64_S1x64_1 b1
  have v16 : FVec Ideal S100000x64 .f32 := broadcastInDim S100000x64 ![0, 1] bcast_S1x64_S100000x64_0_1 v15
  have v17 : FVec Ideal S100000x64 .f32 := addf v14 v16
  have a_cst : FVec Ideal S_ .f32 := constant S_ .f32 0x00000000#32
  have a_v0 : FVec Ideal S100000x64 .f32 := broadcastInDim S100000x64 ![] bcast_S_S100000x64 a_cst
  have a_v1 : IVec S100000x64 1 := cmpf .oge v17 a_v0
  have a_cst_0 : FVec Ideal S_ .f32 := constant S_ .f32 0x3C23D70A#32
  have a_v2 : FVec Ideal S100000x64 .f32 := broadcastInDim S100000x64 ![] bcast_S_S100000x64 a_cst_0
  have a_v3 : FVec Ideal S100000x64 .f32 := mulf a_v2 v17
  have v18 : FVec Ideal S100000x64 .f32 := select a_v1 v17 a_v3
  have v19 : FVec Ideal S100000x128 .f32 := mulf E S
  have v20 : FVec Ideal S100000x64 .f32 := Host.dotGeneral dot_S100000x128_S128x64_S100000x64_1_0_0_1_n_n none v19 W2
  have v21 : FVec Ideal S1x64 .f32 := broadcastInDim S1x64 ![1] bcast_S64_S1x64_1 b2
  have v22 : FVec Ideal S100000x64 .f32 := broadcastInDim S100000x64 ![0, 1] bcast_S1x64_S100000x64_0_1 v21
  have v23 : FVec Ideal S100000x64 .f32 := addf v20 v22
  have b_cst : FVec Ideal S_ .f32 := constant S_ .f32 0x00000000#32
  have b_v0 : FVec Ideal S100000x64 .f32 := broadcastInDim S100000x64 ![] bcast_S_S100000x64 b_cst
  have b_v1 : IVec S100000x64 1 := cmpf .oge v23 b_v0
  have b_cst_0 : FVec Ideal S_ .f32 := constant S_ .f32 0x3C23D70A#32
  have b_v2 : FVec Ideal S100000x64 .f32 := broadcastInDim S100000x64 ![] bcast_S_S100000x64 b_cst_0
  have b_v3 : FVec Ideal S100000x64 .f32 := mulf b_v2 v23
  have v24 : FVec Ideal S100000x64 .f32 := select b_v1 v23 b_v3
  have v25 : FVec Ideal S100000x64 .f32 := addf v18 v24
  v25

/-- Layer 1's normalization on the host, in the program's order, as one term of the array. -/
def hostNrm1 (X : FVec Ideal S100000x64 .f32) : FVec Ideal S100000x64 .f32 :=
  have n_v0 : FVec Ideal S100000x64 .f32 := mulf X X
  have n_cst : FVec Ideal S_ .f32 := constant S_ .f32 0x00000000#32
  have n_v1 : FVec Ideal S100000 .f32 := Host.reduceAdd n_v0 n_cst reducesTo_S100000x64_S100000_d1 h_S_
  have n_v2 : FVec Ideal S100000x1 .f32 := broadcastInDim S100000x1 ![0] bcast_S100000_S100000x1_0 n_v1
  have v26 : FVec Ideal S100000x1 .f32 := Host.sqrt n_v2
  have cst_1 : FVec Ideal S_ .f32 := constant S_ .f32 0x2B8CBCCC#32
  have v27 : FVec Ideal S100000x1 .f32 := broadcastInDim S100000x1 ![] bcast_S_S100000x1 cst_1
  have v28 : FVec Ideal S100000x1 .f32 := maximumf v26 v27
  have v29 : FVec Ideal S100000x64 .f32 := broadcastInDim S100000x64 ![0, 1] bcast_S100000x1_S100000x64_0_1 v28
  have v30 : FVec Ideal S100000x64 .f32 := Host.divf X v29
  v30

/-- Entry `(r, q)` of layer 1's new array is `egoRow` of row `r` of the operands. -/
theorem hostEgo1_apply (E S : FVec Ideal S100000x128 .f32) (W1 : FVec Ideal S128x64 .f32) (b1 : FVec Ideal S64 .f32)
    (W2 : FVec Ideal S128x64 .f32) (b2 : FVec Ideal S64 .f32) (r : Fin 100000) (q : Fin 64) :
    hostEgo1 E S W1 b1 W2 b2 (ix2 r q)
      = Cert.Layer.egoRow (fun n => E (ix2 r n)) (fun n => S (ix2 r n)) (fun n q => W1 (ix2 n q))
          (fun q => b1 (ix1 q)) (fun n q => W2 (ix2 n q)) (fun q => b2 (ix1 q)) q := by
  unfold hostEgo1
  exact congrArg₂ (· + ·)
    (affine_lrelu_apply dot_S100000x128_S128x64_S100000x64_1_0_0_1_n_n_wf (addf E S) W1 b1
      bcast_S64_S1x64_1 bcast_S1x64_S100000x64_0_1 bcast_S_S100000x64 r q)
    (affine_lrelu_apply dot_S100000x128_S128x64_S100000x64_1_0_0_1_n_n_wf (mulf E S) W2 b2
      bcast_S64_S1x64_1 bcast_S1x64_S100000x64_0_1 bcast_S_S100000x64 r q)

/-- Entry `(r, q)` of layer 1's normalized array is `nrmRow` of row `r` of the array. -/
theorem hostNrm1_apply (X : FVec Ideal S100000x64 .f32) (r : Fin 100000) (q : Fin 64) :
    hostNrm1 X (ix2 r q) = Cert.Layer.nrmRow (fun q' => X (ix2 r q')) q := by
  unfold hostNrm1
  exact nrm_apply X reducesTo_S100000x64_S100000_d1 h_S_ bcast_S100000_S100000x1_0 bcast_S_S100000x1
    bcast_S100000x1_S100000x64_0_1 r q

/-! ## Layer 2: widths 64 → 32 -/

/-- Layer 2's host operations from the sum of the two operands to the sum of the two rectified affine maps, in the
    program's order, as one term of the arguments. -/
def hostEgo2 (E S : FVec Ideal S100000x64 .f32) (W1 : FVec Ideal S64x32 .f32) (b1 : FVec Ideal S32 .f32)
    (W2 : FVec Ideal S64x32 .f32) (b2 : FVec Ideal S32 .f32) : FVec Ideal S100000x32 .f32 :=
  have v13 : FVec Ideal S100000x64 .f32 := addf E S
  have v14 : FVec Ideal S100000x32 .f32 := Host.dotGeneral dot_S100000x64_S64x32_S100000x32_1_0_0_1_n_n none v13 W1
  have v15 : FVec Ideal S1x32 .f32 := broadcastInDim S1x32 ![1] bcast_S32_S1x32_1 b1
  have v16 : FVec Ideal S100000x32 .f32 := broadcastInDim S100000x32 ![0, 1] bcast_S1x32_S100000x32_0_1 v15
  have v17 : FVec Ideal S100000x32 .f32 := addf v14 v16
  have a_cst : FVec Ideal S_ .f32 := constant S_ .f32 0x00000000#32
  have a_v0 : FVec Ideal S100000x32 .f32 := broadcastInDim S100000x32 ![] bcast_S_S100000x32 a_cst
  have a_v1 : IVec S100000x32 1 := cmpf .oge v17 a_v0
  have a_cst_0 : FVec Ideal S_ .f32 := constant S_ .f32 0x3C23D70A#32
  have a_v2 : FVec Ideal S100000x32 .f32 := broadcastInDim S100000x32 ![] bcast_S_S100000x32 a_cst_0
  have a_v3 : FVec Ideal S100000x32 .f32 := mulf a_v2 v17
  have v18 : FVec Ideal S100000x32 .f32 := select a_v1 v17 a_v3
  have v19 : FVec Ideal S100000x64 .f32 := mulf E S
  have v20 : FVec Ideal S100000x32 .f32 := Host.dotGeneral dot_S100000x64_S64x32_S100000x32_1_0_0_1_n_n none v19 W2
  have v21 : FVec Ideal S1x32 .f32 := broadcastInDim S1x32 ![1] bcast_S32_S1x32_1 b2
  have v22 : FVec Ideal S100000x32 .f32 := broadcastInDim S100000x32 ![0, 1] bcast_S1x32_S100000x32_0_1 v21
  have v23 : FVec Ideal S100000x32 .f32 := addf v20 v22
  have b_cst : FVec Ideal S_ .f32 := constant S_ .f32 0x00000000#32
  have b_v0 : FVec Ideal S100000x32 .f32 := broadcastInDim S100000x32 ![] bcast_S_S100000x32 b_cst
  have b_v1 : IVec S100000x32 1 := cmpf .oge v23 b_v0
  have b_cst_0 : FVec Ideal S_ .f32 := constant S_ .f32 0x3C23D70A#32
  have b_v2 : FVec Ideal S100000x32 .f32 := broadcastInDim S100000x32 ![] bcast_S_S100000x32 b_cst_0
  have b_v3 : FVec Ideal S100000x32 .f32 := mulf b_v2 v23
  have v24 : FVec Ideal S100000x32 .f32 := select b_v1 v23 b_v3
  have v25 : FVec Ideal S100000x32 .f32 := addf v18 v24
  v25

/-- Layer 2's normalization on the host, in the program's order, as one term of the array. -/
def hostNrm2 (X : FVec Ideal S100000x32 .f32) : FVec Ideal S100000x32 .f32 :=
  have n_v0 : FVec Ideal S100000x32 .f32 := mulf X X
  have n_cst : FVec Ideal S_ .f32 := constant S_ .f32 0x00000000#32
  have n_v1 : FVec Ideal S100000 .f32 := Host.reduceAdd n_v0 n_cst reducesTo_S100000x32_S100000_d1 h_S_
  have n_v2 : FVec Ideal S100000x1 .f32 := broadcastInDim S100000x1 ![0] bcast_S100000_S100000x1_0 n_v1
  have v26 : FVec Ideal S100000x1 .f32 := Host.sqrt n_v2
  have cst_1 : FVec Ideal S_ .f32 := constant S_ .f32 0x2B8CBCCC#32
  have v27 : FVec Ideal S100000x1 .f32 := broadcastInDim S100000x1 ![] bcast_S_S100000x1 cst_1
  have v28 : FVec Ideal S100000x1 .f32 := maximumf v26 v27
  have v29 : FVec Ideal S100000x32 .f32 := broadcastInDim S100000x32 ![0, 1] bcast_S100000x1_S100000x32_0_1 v28
  have v30 : FVec Ideal S100000x32 .f32 := Host.divf X v29
  v30

/-- Entry `(r, q)` of layer 2's new array is `egoRow` of row `r` of the operands. -/
theorem hostEgo2_apply (E S : FVec Ideal S100000x64 .f32) (W1 : FVec Ideal S64x32 .f32) (b1 : FVec Ideal S32 .f32)
    (W2 : FVec Ideal S64x32 .f32) (b2 : FVec Ideal S32 .f32) (r : Fin 100000) (q : Fin 32) :
    hostEgo2 E S W1 b1 W2 b2 (ix2 r q)
      = Cert.Layer.egoRow (fun n => E (ix2 r n)) (fun n => S (ix2 r n)) (fun n q => W1 (ix2 n q))
          (fun q => b1 (ix1 q)) (fun n q => W2 (ix2 n q)) (fun q => b2 (ix1 q)) q := by
  unfold hostEgo2
  exact congrArg₂ (· + ·)
    (affine_lrelu_apply dot_S100000x64_S64x32_S100000x32_1_0_0_1_n_n_wf (addf E S) W1 b1
      bcast_S32_S1x32_1 bcast_S1x32_S100000x32_0_1 bcast_S_S100000x32 r q)
    (affine_lrelu_apply dot_S100000x64_S64x32_S100000x32_1_0_0_1_n_n_wf (mulf E S) W2 b2
      bcast_S32_S1x32_1 bcast_S1x32_S100000x32_0_1 bcast_S_S100000x32 r q)

/-- Entry `(r, q)` of layer 2's normalized array is `nrmRow` of row `r` of the array. -/
theorem hostNrm2_apply (X : FVec Ideal S100000x32 .f32) (r : Fin 100000) (q : Fin 32) :
    hostNrm2 X (ix2 r q) = Cert.Layer.nrmRow (fun q' => X (ix2 r q')) q := by
  unfold hostNrm2
  exact nrm_apply X reducesTo_S100000x32_S100000_d1 h_S_ bcast_S100000_S100000x1_0 bcast_S_S100000x1
    bcast_S100000x1_S100000x32_0_1 r q

end Cert.ReferenceIdeal.Dense

end
-- ==== Proof.Bridge.lean ====
/-
  The two programs compute the same number. Both are three layers of a graph network followed by a scalar loss. In each layer the
  sparse stage (a weighted scatter-add of gathered rows) and, at the end, the loss tail (the concatenation of the input table with
  the three layers' normalized rows, three row gathers, two inner products per sample, a log-sigmoid, three squared-norm means) are
  the SAME host operations in both programs, so they are carried as they are: equal inputs, equal outputs. The programs differ only
  in the dense stage of a layer — new rows lrelu((x+s)·W1+b1) + lrelu((x·s)·W2+b2) and those rows divided by max(‖row‖, 1e-12) —,
  which the kernel computes block by block on 2000 rows with matrix products into a zero accumulator and a greater-than-zero
  select, and the reference on all rows at once with host products and a greater-or-equal select. Over the extended reals both are
  the same row-wise function: a matrix product is the plain sum either way, and the two selects agree because at 0 both branches give
  0. No finiteness of the inputs is used.
-/
import proofs.«136498_j73031623901810_1_alg».proof.Proof.KI.Run
import proofs.«136498_j73031623901810_1_alg».proof.Proof.KI.Blocks0
import proofs.«136498_j73031623901810_1_alg».proof.Proof.KI.Blocks1
import proofs.«136498_j73031623901810_1_alg».proof.Proof.KI.Blocks2
import proofs.«136498_j73031623901810_1_alg».proof.Proof.KernelPay
import proofs.«136498_j73031623901810_1_alg».proof.Proof.HostDense
import proofs.«136498_j73031623901810_1_alg».proof.Proof.RefRun
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx

/-! ## The shared host stages: equal inputs give equal outputs -/

set_option maxHeartbeats 4000000 in
/-- Layer 0's sparse stage: the kernel's program and the reference apply the same sixteen host operations (the edge weights laid along the rows, the gather of the source rows, their product, the scatter-add into the target rows) to the layer's input rows and the three edge arrays; so equal inputs give equal aggregated rows. -/
theorem stageS0 (VK : Valuation Cert.KernelIdeal.τ Cert.KernelIdeal.sig (Elt Ideal)) (VR : Valuation Cert.ReferenceIdeal.τ Cert.ReferenceIdeal.sig (Elt Ideal)) (h0 : VK (Proc.devRef .tc Cert.KernelIdeal.main_arg0) = VR (Proc.devRef .tc Cert.ReferenceIdeal.main_arg0)) (h1 : VK (Proc.devRef .tc Cert.KernelIdeal.main_arg13) = VR (Proc.devRef .tc Cert.ReferenceIdeal.main_arg13)) (h2 : VK (Proc.devRef .tc Cert.KernelIdeal.main_arg14) = VR (Proc.devRef .tc Cert.ReferenceIdeal.main_arg14)) (h3 : VK (Proc.devRef .tc Cert.KernelIdeal.main_arg15) = VR (Proc.devRef .tc Cert.ReferenceIdeal.main_arg15)) :
    (after Cert.KernelIdeal.Gen.hostOps0 VK) (Proc.devRef .tc Cert.KernelIdeal.main_v12) = after Cert.ReferenceIdeal.RefRun.opsS0 VR (Proc.devRef .tc Cert.ReferenceIdeal.main_v12) := by
  generalize hR : after Cert.ReferenceIdeal.RefRun.opsS0 VR (Proc.devRef .tc Cert.ReferenceIdeal.main_v12) = rhs
  dsimp only [Cert.KernelIdeal.Gen.hostOps0]
  after_results_simp
  rw [h0, h1, h2, h3, ← hR]
  dsimp only [Cert.ReferenceIdeal.RefRun.opsS0]
  after_results_simp
  rfl

set_option maxHeartbeats 4000000 in
/-- Layer 1's sparse stage: the kernel's program and the reference apply the same sixteen host operations (the edge weights laid along the rows, the gather of the source rows, their product, the scatter-add into the target rows) to the layer's input rows and the three edge arrays; so equal inputs give equal aggregated rows. -/
theorem stageS1 (VK : Valuation Cert.KernelIdeal.τ Cert.KernelIdeal.sig (Elt Ideal)) (VR : Valuation Cert.ReferenceIdeal.τ Cert.ReferenceIdeal.sig (Elt Ideal)) (h0 : VK (Proc.devRef .tc Cert.KernelIdeal.main_v13_0) = VR (Proc.devRef .tc Cert.ReferenceIdeal.main_v25)) (h1 : VK (Proc.devRef .tc Cert.KernelIdeal.main_arg13) = VR (Proc.devRef .tc Cert.ReferenceIdeal.main_arg13)) (h2 : VK (Proc.devRef .tc Cert.KernelIdeal.main_arg14) = VR (Proc.devRef .tc Cert.ReferenceIdeal.main_arg14)) (h3 : VK (Proc.devRef .tc Cert.KernelIdeal.main_arg15) = VR (Proc.devRef .tc Cert.ReferenceIdeal.main_arg15)) :
    (after Cert.KernelIdeal.Gen.hostOps1 VK) (Proc.devRef .tc Cert.KernelIdeal.main_v26) = after Cert.ReferenceIdeal.RefRun.opsS1 VR (Proc.devRef .tc Cert.ReferenceIdeal.main_v43) := by
  generalize hR : after Cert.ReferenceIdeal.RefRun.opsS1 VR (Proc.devRef .tc Cert.ReferenceIdeal.main_v43) = rhs
  dsimp only [Cert.KernelIdeal.Gen.hostOps1]
  after_results_simp
  rw [h0, h1, h2, h3, ← hR]
  dsimp only [Cert.ReferenceIdeal.RefRun.opsS1]
  after_results_simp
  rfl

set_option maxHeartbeats 4000000 in
/-- Layer 2's sparse stage: the kernel's program and the reference apply the same sixteen host operations (the edge weights laid along the rows, the gather of the source rows, their product, the scatter-add into the target rows) to the layer's input rows and the three edge arrays; so equal inputs give equal aggregated rows. -/
theorem stageS2 (VK : Valuation Cert.KernelIdeal.τ Cert.KernelIdeal.sig (Elt Ideal)) (VR : Valuation Cert.ReferenceIdeal.τ Cert.ReferenceIdeal.sig (Elt Ideal)) (h0 : VK (Proc.devRef .tc Cert.KernelIdeal.main_v27_0) = VR (Proc.devRef .tc Cert.ReferenceIdeal.main_v56)) (h1 : VK (Proc.devRef .tc Cert.KernelIdeal.main_arg13) = VR (Proc.devRef .tc Cert.ReferenceIdeal.main_arg13)) (h2 : VK (Proc.devRef .tc Cert.KernelIdeal.main_arg14) = VR (Proc.devRef .tc Cert.ReferenceIdeal.main_arg14)) (h3 : VK (Proc.devRef .tc Cert.KernelIdeal.main_arg15) = VR (Proc.devRef .tc Cert.ReferenceIdeal.main_arg15)) :
    (after Cert.KernelIdeal.Gen.hostOps2 VK) (Proc.devRef .tc Cert.KernelIdeal.main_v40) = after Cert.ReferenceIdeal.RefRun.opsS2 VR (Proc.devRef .tc Cert.ReferenceIdeal.main_v74) := by
  generalize hR : after Cert.ReferenceIdeal.RefRun.opsS2 VR (Proc.devRef .tc Cert.ReferenceIdeal.main_v74) = rhs
  dsimp only [Cert.KernelIdeal.Gen.hostOps2]
  after_results_simp
  rw [h0, h1, h2, h3, ← hR]
  dsimp only [Cert.ReferenceIdeal.RefRun.opsS2]
  after_results_simp
  rfl

set_option maxHeartbeats 4000000 in
/-- The loss tail: the same host operations in both programs, applied to the input table, the three layers' normalized rows and the three index vectors. -/
theorem stageT (VK : Valuation Cert.KernelIdeal.τ Cert.KernelIdeal.sig (Elt Ideal)) (VR : Valuation Cert.ReferenceIdeal.τ Cert.ReferenceIdeal.sig (Elt Ideal)) (h0 : VK (Proc.devRef .tc Cert.KernelIdeal.main_arg0) = VR (Proc.devRef .tc Cert.ReferenceIdeal.main_arg0)) (h1 : VK (Proc.devRef .tc Cert.KernelIdeal.main_v13_1) = VR (Proc.devRef .tc Cert.ReferenceIdeal.main_v30)) (h2 : VK (Proc.devRef .tc Cert.KernelIdeal.main_v27_1) = VR (Proc.devRef .tc Cert.ReferenceIdeal.main_v61)) (h3 : VK (Proc.devRef .tc Cert.KernelIdeal.main_v41_1) = VR (Proc.devRef .tc Cert.ReferenceIdeal.main_v92)) (h4 : VK (Proc.devRef .tc Cert.KernelIdeal.main_arg16) = VR (Proc.devRef .tc Cert.ReferenceIdeal.main_arg16)) (h5 : VK (Proc.devRef .tc Cert.KernelIdeal.main_arg17) = VR (Proc.devRef .tc Cert.ReferenceIdeal.main_arg17)) (h6 : VK (Proc.devRef .tc Cert.KernelIdeal.main_arg18) = VR (Proc.devRef .tc Cert.ReferenceIdeal.main_arg18)) :
    (after Cert.KernelIdeal.Gen.hostOps3_2 (after Cert.KernelIdeal.Gen.hostOps3_1 (after Cert.KernelIdeal.Gen.hostOps3 VK))) (Proc.devRef .tc Cert.KernelIdeal.main_v94) = after Cert.ReferenceIdeal.RefRun.opsT VR (Proc.devRef .tc Cert.ReferenceIdeal.main_v145) := by
  generalize hR : after Cert.ReferenceIdeal.RefRun.opsT VR (Proc.devRef .tc Cert.ReferenceIdeal.main_v145) = rhs
  dsimp only [Cert.KernelIdeal.Gen.hostOps3, Cert.KernelIdeal.Gen.hostOps3_1, Cert.KernelIdeal.Gen.hostOps3_2]
  after_results_simp
  dsimp only [Matrix.cons_val]
  rw [h0, h1, h2, h3, h4, h5, h6, ← hR]
  dsimp only [Cert.ReferenceIdeal.RefRun.opsT]
  after_results_simp
  rfl

/-! ## Layer 0's dense stage -/

/-- The new rows of layer 0, row-wise: entry `q` of a row from that row of the input and of the aggregated neighbours. -/
abbrev fEgo0 : (Fin 128 → Elt Ideal .f32) → (Fin 128 → Elt Ideal .f32) → Vec Ideal Cert.KernelIdeal.S128x128 .f32 → Vec Ideal Cert.KernelIdeal.S128x128 .f32 → Vec Ideal Cert.KernelIdeal.S128 .f32 → Vec Ideal Cert.KernelIdeal.S128 .f32 → Fin 128 → Elt Ideal .f32 :=
  fun x s w1 w2 b1 b2 q => Cert.Layer.egoRow x s (fun n q => w1 (ix2 n q)) (fun q => b1 (ix1 q)) (fun n q => w2 (ix2 n q)) (fun q => b2 (ix1 q)) q
/-- The new rows divided by their norms, row-wise. -/
abbrev fNrm0 : (Fin 128 → Elt Ideal .f32) → (Fin 128 → Elt Ideal .f32) → Vec Ideal Cert.KernelIdeal.S128x128 .f32 → Vec Ideal Cert.KernelIdeal.S128x128 .f32 → Vec Ideal Cert.KernelIdeal.S128 .f32 → Vec Ideal Cert.KernelIdeal.S128 .f32 → Fin 128 → Elt Ideal .f32 :=
  fun x s w1 w2 b1 b2 q => Cert.Layer.nrmRow (fun q' => fEgo0 x s w1 w2 b1 b2 q') q

/-- The kernel region's first output array: the new rows, as the row-wise function of the arrays the region found. -/
theorem kEgo0 (m : (ℓ : Loc Cert.KernelIdeal.nD Cert.KernelIdeal.τ Cert.KernelIdeal.sig) → Buf (Elt Ideal) ℓ) (c : Dev Cert.KernelIdeal.nD) :
    Cert.KernelIdeal.Gen.V2 m (Cert.KernelIdeal.Gen.outs m) c (Proc.devRef .tc Cert.KernelIdeal.main_v13_0) = Cert.KernelIdeal.Gen.rowwise0 fEgo0 (Cert.KernelIdeal.Gen.V1 m c (Proc.devRef .tc Cert.KernelIdeal.main_arg0)) (Cert.KernelIdeal.Gen.V1 m c (Proc.devRef .tc Cert.KernelIdeal.main_v12)) (Cert.KernelIdeal.Gen.V1 m c (Proc.devRef .tc Cert.KernelIdeal.main_arg1)) (Cert.KernelIdeal.Gen.V1 m c (Proc.devRef .tc Cert.KernelIdeal.main_arg3)) (Cert.KernelIdeal.Gen.V1 m c (Proc.devRef .tc Cert.KernelIdeal.main_arg2)) (Cert.KernelIdeal.Gen.V1 m c (Proc.devRef .tc Cert.KernelIdeal.main_arg4)) :=
  (Cert.KernelIdeal.Gen.hF0 m c 6).symm.trans (Cert.KernelIdeal.Gen.final0_6 (Cert.KernelIdeal.Gen.Ent (Cert.KernelIdeal.Gen.V1 m)) fEgo0 (fun x s w1 w2 b1 b2 i q => Cert.KernelIdeal.Pay.pay0_ego x s w1 w2 b1 b2 i q) c)

/-- The kernel region's second output array: the normalized rows. -/
theorem kNrm0 (m : (ℓ : Loc Cert.KernelIdeal.nD Cert.KernelIdeal.τ Cert.KernelIdeal.sig) → Buf (Elt Ideal) ℓ) (c : Dev Cert.KernelIdeal.nD) :
    Cert.KernelIdeal.Gen.V2 m (Cert.KernelIdeal.Gen.outs m) c (Proc.devRef .tc Cert.KernelIdeal.main_v13_1) = Cert.KernelIdeal.Gen.rowwise0 fNrm0 (Cert.KernelIdeal.Gen.V1 m c (Proc.devRef .tc Cert.KernelIdeal.main_arg0)) (Cert.KernelIdeal.Gen.V1 m c (Proc.devRef .tc Cert.KernelIdeal.main_v12)) (Cert.KernelIdeal.Gen.V1 m c (Proc.devRef .tc Cert.KernelIdeal.main_arg1)) (Cert.KernelIdeal.Gen.V1 m c (Proc.devRef .tc Cert.KernelIdeal.main_arg3)) (Cert.KernelIdeal.Gen.V1 m c (Proc.devRef .tc Cert.KernelIdeal.main_arg2)) (Cert.KernelIdeal.Gen.V1 m c (Proc.devRef .tc Cert.KernelIdeal.main_arg4)) :=
  (Cert.KernelIdeal.Gen.hF0 m c 7).symm.trans (Cert.KernelIdeal.Gen.final0_7 (Cert.KernelIdeal.Gen.Ent (Cert.KernelIdeal.Gen.V1 m)) fNrm0 (fun x s w1 w2 b1 b2 i q => by
    rw [Cert.KernelIdeal.Pay.pay0_nrm]
    exact congrArg (fun e => Cert.Layer.nrmRow e q) (funext fun q' => Cert.KernelIdeal.Pay.pay0_ego x s w1 w2 b1 b2 i q')) c)

/-- The reference's host operations of the stage compute the same rows: both are the row-wise specification. -/
theorem dense0_ego (E S : FVec Ideal Cert.ReferenceIdeal.S100000x128 .f32) (W1 : FVec Ideal Cert.ReferenceIdeal.S128x128 .f32) (b1 : FVec Ideal Cert.ReferenceIdeal.S128 .f32) (W2 : FVec Ideal Cert.ReferenceIdeal.S128x128 .f32) (b2 : FVec Ideal Cert.ReferenceIdeal.S128 .f32) :
    Cert.KernelIdeal.Gen.rowwise0 fEgo0 E S W1 W2 b1 b2 = Cert.ReferenceIdeal.Dense.hostEgo0 E S W1 b1 W2 b2 := by
  funext j
  obtain ⟨r, q, rfl⟩ : ∃ (r : Fin 100000) (q : Fin 128), j = ix2 r q := ⟨j 0, j 1, eq_ix2 j⟩
  exact (Cert.ReferenceIdeal.Dense.hostEgo0_apply E S W1 b1 W2 b2 r q).symm

theorem dense0_nrm (E S : FVec Ideal Cert.ReferenceIdeal.S100000x128 .f32) (W1 : FVec Ideal Cert.ReferenceIdeal.S128x128 .f32) (b1 : FVec Ideal Cert.ReferenceIdeal.S128 .f32) (W2 : FVec Ideal Cert.ReferenceIdeal.S128x128 .f32) (b2 : FVec Ideal Cert.ReferenceIdeal.S128 .f32) :
    Cert.KernelIdeal.Gen.rowwise0 fNrm0 E S W1 W2 b1 b2 = Cert.ReferenceIdeal.Dense.hostNrm0 (Cert.ReferenceIdeal.Dense.hostEgo0 E S W1 b1 W2 b2) := by
  funext j
  obtain ⟨r, q, rfl⟩ : ∃ (r : Fin 100000) (q : Fin 128), j = ix2 r q := ⟨j 0, j 1, eq_ix2 j⟩
  refine Eq.trans ?_ (Cert.ReferenceIdeal.Dense.hostNrm0_apply (Cert.ReferenceIdeal.Dense.hostEgo0 E S W1 b1 W2 b2) r q).symm
  exact congrArg (fun e => Cert.Layer.nrmRow e q) (funext fun q' => (Cert.ReferenceIdeal.Dense.hostEgo0_apply E S W1 b1 W2 b2 r q').symm)

/-- The reference's chunk of operations for the stage leaves the new rows at the composed host term of the stage's inputs. -/
theorem refEgo0 (VR : Valuation Cert.ReferenceIdeal.τ Cert.ReferenceIdeal.sig (Elt Ideal)) :
    after Cert.ReferenceIdeal.RefRun.opsD0 VR (Proc.devRef .tc Cert.ReferenceIdeal.main_v25) = Cert.ReferenceIdeal.Dense.hostEgo0 (VR (Proc.devRef .tc Cert.ReferenceIdeal.main_arg0)) (VR (Proc.devRef .tc Cert.ReferenceIdeal.main_v12)) (VR (Proc.devRef .tc Cert.ReferenceIdeal.main_arg1)) (VR (Proc.devRef .tc Cert.ReferenceIdeal.main_arg2)) (VR (Proc.devRef .tc Cert.ReferenceIdeal.main_arg3)) (VR (Proc.devRef .tc Cert.ReferenceIdeal.main_arg4)) := by
  dsimp only [Cert.ReferenceIdeal.RefRun.opsD0]
  after_results_simp
  rfl

theorem refNrm0 (VR : Valuation Cert.ReferenceIdeal.τ Cert.ReferenceIdeal.sig (Elt Ideal)) :
    after Cert.ReferenceIdeal.RefRun.opsD0 VR (Proc.devRef .tc Cert.ReferenceIdeal.main_v30) = Cert.ReferenceIdeal.Dense.hostNrm0 (Cert.ReferenceIdeal.Dense.hostEgo0 (VR (Proc.devRef .tc Cert.ReferenceIdeal.main_arg0)) (VR (Proc.devRef .tc Cert.ReferenceIdeal.main_v12)) (VR (Proc.devRef .tc Cert.ReferenceIdeal.main_arg1)) (VR (Proc.devRef .tc Cert.ReferenceIdeal.main_arg2)) (VR (Proc.devRef .tc Cert.ReferenceIdeal.main_arg3)) (VR (Proc.devRef .tc Cert.ReferenceIdeal.main_arg4))) := by
  dsimp only [Cert.ReferenceIdeal.RefRun.opsD0]
  after_results_simp
  rfl

/-! ## Layer 1's dense stage -/

/-- The new rows of layer 1, row-wise: entry `q` of a row from that row of the input and of the aggregated neighbours. -/
abbrev fEgo1 : (Fin 128 → Elt Ideal .f32) → (Fin 128 → Elt Ideal .f32) → Vec Ideal Cert.KernelIdeal.S128x64 .f32 → Vec Ideal Cert.KernelIdeal.S128x64 .f32 → Vec Ideal Cert.KernelIdeal.S64 .f32 → Vec Ideal Cert.KernelIdeal.S64 .f32 → Fin 64 → Elt Ideal .f32 :=
  fun x s w1 w2 b1 b2 q => Cert.Layer.egoRow x s (fun n q => w1 (ix2 n q)) (fun q => b1 (ix1 q)) (fun n q => w2 (ix2 n q)) (fun q => b2 (ix1 q)) q
/-- The new rows divided by their norms, row-wise. -/
abbrev fNrm1 : (Fin 128 → Elt Ideal .f32) → (Fin 128 → Elt Ideal .f32) → Vec Ideal Cert.KernelIdeal.S128x64 .f32 → Vec Ideal Cert.KernelIdeal.S128x64 .f32 → Vec Ideal Cert.KernelIdeal.S64 .f32 → Vec Ideal Cert.KernelIdeal.S64 .f32 → Fin 64 → Elt Ideal .f32 :=
  fun x s w1 w2 b1 b2 q => Cert.Layer.nrmRow (fun q' => fEgo1 x s w1 w2 b1 b2 q') q

/-- The kernel region's first output array: the new rows, as the row-wise function of the arrays the region found. -/
theorem kEgo1 (m : (ℓ : Loc Cert.KernelIdeal.nD Cert.KernelIdeal.τ Cert.KernelIdeal.sig) → Buf (Elt Ideal) ℓ) (c : Dev Cert.KernelIdeal.nD) :
    Cert.KernelIdeal.Gen.V4 m (Cert.KernelIdeal.Gen.outs m) c (Proc.devRef .tc Cert.KernelIdeal.main_v27_0) = Cert.KernelIdeal.Gen.rowwise1 fEgo1 (Cert.KernelIdeal.Gen.V3 m (Cert.KernelIdeal.Gen.outs m) c (Proc.devRef .tc Cert.KernelIdeal.main_v13_0)) (Cert.KernelIdeal.Gen.V3 m (Cert.KernelIdeal.Gen.outs m) c (Proc.devRef .tc Cert.KernelIdeal.main_v26)) (Cert.KernelIdeal.Gen.V3 m (Cert.KernelIdeal.Gen.outs m) c (Proc.devRef .tc Cert.KernelIdeal.main_arg5)) (Cert.KernelIdeal.Gen.V3 m (Cert.KernelIdeal.Gen.outs m) c (Proc.devRef .tc Cert.KernelIdeal.main_arg7)) (Cert.KernelIdeal.Gen.V3 m (Cert.KernelIdeal.Gen.outs m) c (Proc.devRef .tc Cert.KernelIdeal.main_arg6)) (Cert.KernelIdeal.Gen.V3 m (Cert.KernelIdeal.Gen.outs m) c (Proc.devRef .tc Cert.KernelIdeal.main_arg8)) :=
  (Cert.KernelIdeal.Gen.hF1 m c 6).symm.trans (Cert.KernelIdeal.Gen.final1_6 (Cert.KernelIdeal.Gen.Ent (Cert.KernelIdeal.Gen.V3 m (Cert.KernelIdeal.Gen.outs m))) fEgo1 (fun x s w1 w2 b1 b2 i q => Cert.KernelIdeal.Pay.pay1_ego x s w1 w2 b1 b2 i q) c)

/-- The kernel region's second output array: the normalized rows. -/
theorem kNrm1 (m : (ℓ : Loc Cert.KernelIdeal.nD Cert.KernelIdeal.τ Cert.KernelIdeal.sig) → Buf (Elt Ideal) ℓ) (c : Dev Cert.KernelIdeal.nD) :
    Cert.KernelIdeal.Gen.V4 m (Cert.KernelIdeal.Gen.outs m) c (Proc.devRef .tc Cert.KernelIdeal.main_v27_1) = Cert.KernelIdeal.Gen.rowwise1 fNrm1 (Cert.KernelIdeal.Gen.V3 m (Cert.KernelIdeal.Gen.outs m) c (Proc.devRef .tc Cert.KernelIdeal.main_v13_0)) (Cert.KernelIdeal.Gen.V3 m (Cert.KernelIdeal.Gen.outs m) c (Proc.devRef .tc Cert.KernelIdeal.main_v26)) (Cert.KernelIdeal.Gen.V3 m (Cert.KernelIdeal.Gen.outs m) c (Proc.devRef .tc Cert.KernelIdeal.main_arg5)) (Cert.KernelIdeal.Gen.V3 m (Cert.KernelIdeal.Gen.outs m) c (Proc.devRef .tc Cert.KernelIdeal.main_arg7)) (Cert.KernelIdeal.Gen.V3 m (Cert.KernelIdeal.Gen.outs m) c (Proc.devRef .tc Cert.KernelIdeal.main_arg6)) (Cert.KernelIdeal.Gen.V3 m (Cert.KernelIdeal.Gen.outs m) c (Proc.devRef .tc Cert.KernelIdeal.main_arg8)) :=
  (Cert.KernelIdeal.Gen.hF1 m c 7).symm.trans (Cert.KernelIdeal.Gen.final1_7 (Cert.KernelIdeal.Gen.Ent (Cert.KernelIdeal.Gen.V3 m (Cert.KernelIdeal.Gen.outs m))) fNrm1 (fun x s w1 w2 b1 b2 i q => by
    rw [Cert.KernelIdeal.Pay.pay1_nrm]
    exact congrArg (fun e => Cert.Layer.nrmRow e q) (funext fun q' => Cert.KernelIdeal.Pay.pay1_ego x s w1 w2 b1 b2 i q')) c)

/-- The reference's host operations of the stage compute the same rows: both are the row-wise specification. -/
theorem dense1_ego (E S : FVec Ideal Cert.ReferenceIdeal.S100000x128 .f32) (W1 : FVec Ideal Cert.ReferenceIdeal.S128x64 .f32) (b1 : FVec Ideal Cert.ReferenceIdeal.S64 .f32) (W2 : FVec Ideal Cert.ReferenceIdeal.S128x64 .f32) (b2 : FVec Ideal Cert.ReferenceIdeal.S64 .f32) :
    Cert.KernelIdeal.Gen.rowwise1 fEgo1 E S W1 W2 b1 b2 = Cert.ReferenceIdeal.Dense.hostEgo1 E S W1 b1 W2 b2 := by
  funext j
  obtain ⟨r, q, rfl⟩ : ∃ (r : Fin 100000) (q : Fin 64), j = ix2 r q := ⟨j 0, j 1, eq_ix2 j⟩
  exact (Cert.ReferenceIdeal.Dense.hostEgo1_apply E S W1 b1 W2 b2 r q).symm

theorem dense1_nrm (E S : FVec Ideal Cert.ReferenceIdeal.S100000x128 .f32) (W1 : FVec Ideal Cert.ReferenceIdeal.S128x64 .f32) (b1 : FVec Ideal Cert.ReferenceIdeal.S64 .f32) (W2 : FVec Ideal Cert.ReferenceIdeal.S128x64 .f32) (b2 : FVec Ideal Cert.ReferenceIdeal.S64 .f32) :
    Cert.KernelIdeal.Gen.rowwise1 fNrm1 E S W1 W2 b1 b2 = Cert.ReferenceIdeal.Dense.hostNrm1 (Cert.ReferenceIdeal.Dense.hostEgo1 E S W1 b1 W2 b2) := by
  funext j
  obtain ⟨r, q, rfl⟩ : ∃ (r : Fin 100000) (q : Fin 64), j = ix2 r q := ⟨j 0, j 1, eq_ix2 j⟩
  refine Eq.trans ?_ (Cert.ReferenceIdeal.Dense.hostNrm1_apply (Cert.ReferenceIdeal.Dense.hostEgo1 E S W1 b1 W2 b2) r q).symm
  exact congrArg (fun e => Cert.Layer.nrmRow e q) (funext fun q' => (Cert.ReferenceIdeal.Dense.hostEgo1_apply E S W1 b1 W2 b2 r q').symm)

/-- The reference's chunk of operations for the stage leaves the new rows at the composed host term of the stage's inputs. -/
theorem refEgo1 (VR : Valuation Cert.ReferenceIdeal.τ Cert.ReferenceIdeal.sig (Elt Ideal)) :
    after Cert.ReferenceIdeal.RefRun.opsD1 VR (Proc.devRef .tc Cert.ReferenceIdeal.main_v56) = Cert.ReferenceIdeal.Dense.hostEgo1 (VR (Proc.devRef .tc Cert.ReferenceIdeal.main_v25)) (VR (Proc.devRef .tc Cert.ReferenceIdeal.main_v43)) (VR (Proc.devRef .tc Cert.ReferenceIdeal.main_arg5)) (VR (Proc.devRef .tc Cert.ReferenceIdeal.main_arg6)) (VR (Proc.devRef .tc Cert.ReferenceIdeal.main_arg7)) (VR (Proc.devRef .tc Cert.ReferenceIdeal.main_arg8)) := by
  dsimp only [Cert.ReferenceIdeal.RefRun.opsD1]
  after_results_simp
  rfl

theorem refNrm1 (VR : Valuation Cert.ReferenceIdeal.τ Cert.ReferenceIdeal.sig (Elt Ideal)) :
    after Cert.ReferenceIdeal.RefRun.opsD1 VR (Proc.devRef .tc Cert.ReferenceIdeal.main_v61) = Cert.ReferenceIdeal.Dense.hostNrm1 (Cert.ReferenceIdeal.Dense.hostEgo1 (VR (Proc.devRef .tc Cert.ReferenceIdeal.main_v25)) (VR (Proc.devRef .tc Cert.ReferenceIdeal.main_v43)) (VR (Proc.devRef .tc Cert.ReferenceIdeal.main_arg5)) (VR (Proc.devRef .tc Cert.ReferenceIdeal.main_arg6)) (VR (Proc.devRef .tc Cert.ReferenceIdeal.main_arg7)) (VR (Proc.devRef .tc Cert.ReferenceIdeal.main_arg8))) := by
  dsimp only [Cert.ReferenceIdeal.RefRun.opsD1]
  after_results_simp
  rfl

/-! ## Layer 2's dense stage -/

/-- The new rows of layer 2, row-wise: entry `q` of a row from that row of the input and of the aggregated neighbours. -/
abbrev fEgo2 : (Fin 64 → Elt Ideal .f32) → (Fin 64 → Elt Ideal .f32) → Vec Ideal Cert.KernelIdeal.S64x32 .f32 → Vec Ideal Cert.KernelIdeal.S64x32 .f32 → Vec Ideal Cert.KernelIdeal.S32 .f32 → Vec Ideal Cert.KernelIdeal.S32 .f32 → Fin 32 → Elt Ideal .f32 :=
  fun x s w1 w2 b1 b2 q => Cert.Layer.egoRow x s (fun n q => w1 (ix2 n q)) (fun q => b1 (ix1 q)) (fun n q => w2 (ix2 n q)) (fun q => b2 (ix1 q)) q
/-- The new rows divided by their norms, row-wise. -/
abbrev fNrm2 : (Fin 64 → Elt Ideal .f32) → (Fin 64 → Elt Ideal .f32) → Vec Ideal Cert.KernelIdeal.S64x32 .f32 → Vec Ideal Cert.KernelIdeal.S64x32 .f32 → Vec Ideal Cert.KernelIdeal.S32 .f32 → Vec Ideal Cert.KernelIdeal.S32 .f32 → Fin 32 → Elt Ideal .f32 :=
  fun x s w1 w2 b1 b2 q => Cert.Layer.nrmRow (fun q' => fEgo2 x s w1 w2 b1 b2 q') q

/-- The kernel region's first output array: the new rows, as the row-wise function of the arrays the region found. -/
theorem kEgo2 (m : (ℓ : Loc Cert.KernelIdeal.nD Cert.KernelIdeal.τ Cert.KernelIdeal.sig) → Buf (Elt Ideal) ℓ) (c : Dev Cert.KernelIdeal.nD) :
    Cert.KernelIdeal.Gen.V6 m (Cert.KernelIdeal.Gen.outs m) c (Proc.devRef .tc Cert.KernelIdeal.main_v41_0) = Cert.KernelIdeal.Gen.rowwise2 fEgo2 (Cert.KernelIdeal.Gen.V5 m (Cert.KernelIdeal.Gen.outs m) c (Proc.devRef .tc Cert.KernelIdeal.main_v27_0)) (Cert.KernelIdeal.Gen.V5 m (Cert.KernelIdeal.Gen.outs m) c (Proc.devRef .tc Cert.KernelIdeal.main_v40)) (Cert.KernelIdeal.Gen.V5 m (Cert.KernelIdeal.Gen.outs m) c (Proc.devRef .tc Cert.KernelIdeal.main_arg9)) (Cert.KernelIdeal.Gen.V5 m (Cert.KernelIdeal.Gen.outs m) c (Proc.devRef .tc Cert.KernelIdeal.main_arg11)) (Cert.KernelIdeal.Gen.V5 m (Cert.KernelIdeal.Gen.outs m) c (Proc.devRef .tc Cert.KernelIdeal.main_arg10)) (Cert.KernelIdeal.Gen.V5 m (Cert.KernelIdeal.Gen.outs m) c (Proc.devRef .tc Cert.KernelIdeal.main_arg12)) :=
  (Cert.KernelIdeal.Gen.hF2 m c 6).symm.trans (Cert.KernelIdeal.Gen.final2_6 (Cert.KernelIdeal.Gen.Ent (Cert.KernelIdeal.Gen.V5 m (Cert.KernelIdeal.Gen.outs m))) fEgo2 (fun x s w1 w2 b1 b2 i q => Cert.KernelIdeal.Pay.pay2_ego x s w1 w2 b1 b2 i q) c)

/-- The kernel region's second output array: the normalized rows. -/
theorem kNrm2 (m : (ℓ : Loc Cert.KernelIdeal.nD Cert.KernelIdeal.τ Cert.KernelIdeal.sig) → Buf (Elt Ideal) ℓ) (c : Dev Cert.KernelIdeal.nD) :
    Cert.KernelIdeal.Gen.V6 m (Cert.KernelIdeal.Gen.outs m) c (Proc.devRef .tc Cert.KernelIdeal.main_v41_1) = Cert.KernelIdeal.Gen.rowwise2 fNrm2 (Cert.KernelIdeal.Gen.V5 m (Cert.KernelIdeal.Gen.outs m) c (Proc.devRef .tc Cert.KernelIdeal.main_v27_0)) (Cert.KernelIdeal.Gen.V5 m (Cert.KernelIdeal.Gen.outs m) c (Proc.devRef .tc Cert.KernelIdeal.main_v40)) (Cert.KernelIdeal.Gen.V5 m (Cert.KernelIdeal.Gen.outs m) c (Proc.devRef .tc Cert.KernelIdeal.main_arg9)) (Cert.KernelIdeal.Gen.V5 m (Cert.KernelIdeal.Gen.outs m) c (Proc.devRef .tc Cert.KernelIdeal.main_arg11)) (Cert.KernelIdeal.Gen.V5 m (Cert.KernelIdeal.Gen.outs m) c (Proc.devRef .tc Cert.KernelIdeal.main_arg10)) (Cert.KernelIdeal.Gen.V5 m (Cert.KernelIdeal.Gen.outs m) c (Proc.devRef .tc Cert.KernelIdeal.main_arg12)) :=
  (Cert.KernelIdeal.Gen.hF2 m c 7).symm.trans (Cert.KernelIdeal.Gen.final2_7 (Cert.KernelIdeal.Gen.Ent (Cert.KernelIdeal.Gen.V5 m (Cert.KernelIdeal.Gen.outs m))) fNrm2 (fun x s w1 w2 b1 b2 i q => by
    rw [Cert.KernelIdeal.Pay.pay2_nrm]
    exact congrArg (fun e => Cert.Layer.nrmRow e q) (funext fun q' => Cert.KernelIdeal.Pay.pay2_ego x s w1 w2 b1 b2 i q')) c)

/-- The reference's host operations of the stage compute the same rows: both are the row-wise specification. -/
theorem dense2_ego (E S : FVec Ideal Cert.ReferenceIdeal.S100000x64 .f32) (W1 : FVec Ideal Cert.ReferenceIdeal.S64x32 .f32) (b1 : FVec Ideal Cert.ReferenceIdeal.S32 .f32) (W2 : FVec Ideal Cert.ReferenceIdeal.S64x32 .f32) (b2 : FVec Ideal Cert.ReferenceIdeal.S32 .f32) :
    Cert.KernelIdeal.Gen.rowwise2 fEgo2 E S W1 W2 b1 b2 = Cert.ReferenceIdeal.Dense.hostEgo2 E S W1 b1 W2 b2 := by
  funext j
  obtain ⟨r, q, rfl⟩ : ∃ (r : Fin 100000) (q : Fin 32), j = ix2 r q := ⟨j 0, j 1, eq_ix2 j⟩
  exact (Cert.ReferenceIdeal.Dense.hostEgo2_apply E S W1 b1 W2 b2 r q).symm

theorem dense2_nrm (E S : FVec Ideal Cert.ReferenceIdeal.S100000x64 .f32) (W1 : FVec Ideal Cert.ReferenceIdeal.S64x32 .f32) (b1 : FVec Ideal Cert.ReferenceIdeal.S32 .f32) (W2 : FVec Ideal Cert.ReferenceIdeal.S64x32 .f32) (b2 : FVec Ideal Cert.ReferenceIdeal.S32 .f32) :
    Cert.KernelIdeal.Gen.rowwise2 fNrm2 E S W1 W2 b1 b2 = Cert.ReferenceIdeal.Dense.hostNrm2 (Cert.ReferenceIdeal.Dense.hostEgo2 E S W1 b1 W2 b2) := by
  funext j
  obtain ⟨r, q, rfl⟩ : ∃ (r : Fin 100000) (q : Fin 32), j = ix2 r q := ⟨j 0, j 1, eq_ix2 j⟩
  refine Eq.trans ?_ (Cert.ReferenceIdeal.Dense.hostNrm2_apply (Cert.ReferenceIdeal.Dense.hostEgo2 E S W1 b1 W2 b2) r q).symm
  exact congrArg (fun e => Cert.Layer.nrmRow e q) (funext fun q' => (Cert.ReferenceIdeal.Dense.hostEgo2_apply E S W1 b1 W2 b2 r q').symm)

/-- The reference's chunk of operations for the stage leaves the new rows at the composed host term of the stage's inputs. -/
theorem refEgo2 (VR : Valuation Cert.ReferenceIdeal.τ Cert.ReferenceIdeal.sig (Elt Ideal)) :
    after Cert.ReferenceIdeal.RefRun.opsD2 VR (Proc.devRef .tc Cert.ReferenceIdeal.main_v87) = Cert.ReferenceIdeal.Dense.hostEgo2 (VR (Proc.devRef .tc Cert.ReferenceIdeal.main_v56)) (VR (Proc.devRef .tc Cert.ReferenceIdeal.main_v74)) (VR (Proc.devRef .tc Cert.ReferenceIdeal.main_arg9)) (VR (Proc.devRef .tc Cert.ReferenceIdeal.main_arg10)) (VR (Proc.devRef .tc Cert.ReferenceIdeal.main_arg11)) (VR (Proc.devRef .tc Cert.ReferenceIdeal.main_arg12)) := by
  dsimp only [Cert.ReferenceIdeal.RefRun.opsD2]
  after_results_simp
  rfl

theorem refNrm2 (VR : Valuation Cert.ReferenceIdeal.τ Cert.ReferenceIdeal.sig (Elt Ideal)) :
    after Cert.ReferenceIdeal.RefRun.opsD2 VR (Proc.devRef .tc Cert.ReferenceIdeal.main_v92) = Cert.ReferenceIdeal.Dense.hostNrm2 (Cert.ReferenceIdeal.Dense.hostEgo2 (VR (Proc.devRef .tc Cert.ReferenceIdeal.main_v56)) (VR (Proc.devRef .tc Cert.ReferenceIdeal.main_v74)) (VR (Proc.devRef .tc Cert.ReferenceIdeal.main_arg9)) (VR (Proc.devRef .tc Cert.ReferenceIdeal.main_arg10)) (VR (Proc.devRef .tc Cert.ReferenceIdeal.main_arg11)) (VR (Proc.devRef .tc Cert.ReferenceIdeal.main_arg12))) := by
  dsimp only [Cert.ReferenceIdeal.RefRun.opsD2]
  after_results_simp
  rfl

/-! ## The whole programs -/

/-- From launch contents that agree on the nineteen arguments, the reference's result is the kernel program's result. -/
theorem result_eq (m : (ℓ : Loc Cert.KernelIdeal.nD Cert.KernelIdeal.τ Cert.KernelIdeal.sig) → Buf (Elt Ideal) ℓ) (c : Dev Cert.KernelIdeal.nD) (X0 : Valuation Cert.ReferenceIdeal.τ Cert.ReferenceIdeal.sig (Elt Ideal))
    (ha0 : Cert.KernelIdeal.Gen.V0 m c (Proc.devRef .tc Cert.KernelIdeal.main_arg0) = X0 (Proc.devRef .tc Cert.ReferenceIdeal.main_arg0))
    (ha1 : Cert.KernelIdeal.Gen.V0 m c (Proc.devRef .tc Cert.KernelIdeal.main_arg1) = X0 (Proc.devRef .tc Cert.ReferenceIdeal.main_arg1))
    (ha2 : Cert.KernelIdeal.Gen.V0 m c (Proc.devRef .tc Cert.KernelIdeal.main_arg2) = X0 (Proc.devRef .tc Cert.ReferenceIdeal.main_arg2))
    (ha3 : Cert.KernelIdeal.Gen.V0 m c (Proc.devRef .tc Cert.KernelIdeal.main_arg3) = X0 (Proc.devRef .tc Cert.ReferenceIdeal.main_arg3))
    (ha4 : Cert.KernelIdeal.Gen.V0 m c (Proc.devRef .tc Cert.KernelIdeal.main_arg4) = X0 (Proc.devRef .tc Cert.ReferenceIdeal.main_arg4))
    (ha5 : Cert.KernelIdeal.Gen.V0 m c (Proc.devRef .tc Cert.KernelIdeal.main_arg5) = X0 (Proc.devRef .tc Cert.ReferenceIdeal.main_arg5))
    (ha6 : Cert.KernelIdeal.Gen.V0 m c (Proc.devRef .tc Cert.KernelIdeal.main_arg6) = X0 (Proc.devRef .tc Cert.ReferenceIdeal.main_arg6))
    (ha7 : Cert.KernelIdeal.Gen.V0 m c (Proc.devRef .tc Cert.KernelIdeal.main_arg7) = X0 (Proc.devRef .tc Cert.ReferenceIdeal.main_arg7))
    (ha8 : Cert.KernelIdeal.Gen.V0 m c (Proc.devRef .tc Cert.KernelIdeal.main_arg8) = X0 (Proc.devRef .tc Cert.ReferenceIdeal.main_arg8))
    (ha9 : Cert.KernelIdeal.Gen.V0 m c (Proc.devRef .tc Cert.KernelIdeal.main_arg9) = X0 (Proc.devRef .tc Cert.ReferenceIdeal.main_arg9))
    (ha10 : Cert.KernelIdeal.Gen.V0 m c (Proc.devRef .tc Cert.KernelIdeal.main_arg10) = X0 (Proc.devRef .tc Cert.ReferenceIdeal.main_arg10))
    (ha11 : Cert.KernelIdeal.Gen.V0 m c (Proc.devRef .tc Cert.KernelIdeal.main_arg11) = X0 (Proc.devRef .tc Cert.ReferenceIdeal.main_arg11))
    (ha12 : Cert.KernelIdeal.Gen.V0 m c (Proc.devRef .tc Cert.KernelIdeal.main_arg12) = X0 (Proc.devRef .tc Cert.ReferenceIdeal.main_arg12))
    (ha13 : Cert.KernelIdeal.Gen.V0 m c (Proc.devRef .tc Cert.KernelIdeal.main_arg13) = X0 (Proc.devRef .tc Cert.ReferenceIdeal.main_arg13))
    (ha14 : Cert.KernelIdeal.Gen.V0 m c (Proc.devRef .tc Cert.KernelIdeal.main_arg14) = X0 (Proc.devRef .tc Cert.ReferenceIdeal.main_arg14))
    (ha15 : Cert.KernelIdeal.Gen.V0 m c (Proc.devRef .tc Cert.KernelIdeal.main_arg15) = X0 (Proc.devRef .tc Cert.ReferenceIdeal.main_arg15))
    (ha16 : Cert.KernelIdeal.Gen.V0 m c (Proc.devRef .tc Cert.KernelIdeal.main_arg16) = X0 (Proc.devRef .tc Cert.ReferenceIdeal.main_arg16))
    (ha17 : Cert.KernelIdeal.Gen.V0 m c (Proc.devRef .tc Cert.KernelIdeal.main_arg17) = X0 (Proc.devRef .tc Cert.ReferenceIdeal.main_arg17))
    (ha18 : Cert.KernelIdeal.Gen.V0 m c (Proc.devRef .tc Cert.KernelIdeal.main_arg18) = X0 (Proc.devRef .tc Cert.ReferenceIdeal.main_arg18)) :
    after Cert.ReferenceIdeal.RefRun.ops X0 (Proc.devRef .tc Cert.ReferenceIdeal.main_v145) = Cert.KernelIdeal.Gen.V9 m (Cert.KernelIdeal.Gen.outs m) c (Proc.devRef .tc Cert.KernelIdeal.main_v94) := by
  have hops : after Cert.ReferenceIdeal.RefRun.ops X0 = (after Cert.ReferenceIdeal.RefRun.opsT (after Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))))) := by
    simp only [Cert.ReferenceIdeal.RefRun.ops, Cert.ReferenceIdeal.RefRun.after_append']
  rw [hops]

  -- layer 0: the aggregated rows agree, then the two outputs of the dense stage
  have s0 : Cert.KernelIdeal.Gen.V1 m c (Proc.devRef .tc Cert.KernelIdeal.main_v12) = (after Cert.ReferenceIdeal.RefRun.opsS0 X0) (Proc.devRef .tc Cert.ReferenceIdeal.main_v12) :=
    stageS0 (Cert.KernelIdeal.Gen.V0 m c) X0 ha0 ha13 ha14 ha15
  have i0 : Cert.KernelIdeal.Gen.V1 m c (Proc.devRef .tc Cert.KernelIdeal.main_arg0) = (after Cert.ReferenceIdeal.RefRun.opsS0 X0) (Proc.devRef .tc Cert.ReferenceIdeal.main_arg0) := (((Cert.KernelIdeal.Gen.V1_of m c Cert.KernelIdeal.main_arg0 (by decide)).trans ha0).trans (after_of_writes_sub Cert.ReferenceIdeal.RefRun.opsS0 X0 Cert.ReferenceIdeal.RefRun.opsS0_writes (by decide : Cert.ReferenceIdeal.main_arg0 ∉ Cert.ReferenceIdeal.RefRun.opsS0_W)).symm)
  have w0a : Cert.KernelIdeal.Gen.V1 m c (Proc.devRef .tc Cert.KernelIdeal.main_arg1) = (after Cert.ReferenceIdeal.RefRun.opsS0 X0) (Proc.devRef .tc Cert.ReferenceIdeal.main_arg1) := (((Cert.KernelIdeal.Gen.V1_of m c Cert.KernelIdeal.main_arg1 (by decide)).trans ha1).trans (after_of_writes_sub Cert.ReferenceIdeal.RefRun.opsS0 X0 Cert.ReferenceIdeal.RefRun.opsS0_writes (by decide : Cert.ReferenceIdeal.main_arg1 ∉ Cert.ReferenceIdeal.RefRun.opsS0_W)).symm)
  have w0b : Cert.KernelIdeal.Gen.V1 m c (Proc.devRef .tc Cert.KernelIdeal.main_arg2) = (after Cert.ReferenceIdeal.RefRun.opsS0 X0) (Proc.devRef .tc Cert.ReferenceIdeal.main_arg2) := (((Cert.KernelIdeal.Gen.V1_of m c Cert.KernelIdeal.main_arg2 (by decide)).trans ha2).trans (after_of_writes_sub Cert.ReferenceIdeal.RefRun.opsS0 X0 Cert.ReferenceIdeal.RefRun.opsS0_writes (by decide : Cert.ReferenceIdeal.main_arg2 ∉ Cert.ReferenceIdeal.RefRun.opsS0_W)).symm)
  have w0c : Cert.KernelIdeal.Gen.V1 m c (Proc.devRef .tc Cert.KernelIdeal.main_arg3) = (after Cert.ReferenceIdeal.RefRun.opsS0 X0) (Proc.devRef .tc Cert.ReferenceIdeal.main_arg3) := (((Cert.KernelIdeal.Gen.V1_of m c Cert.KernelIdeal.main_arg3 (by decide)).trans ha3).trans (after_of_writes_sub Cert.ReferenceIdeal.RefRun.opsS0 X0 Cert.ReferenceIdeal.RefRun.opsS0_writes (by decide : Cert.ReferenceIdeal.main_arg3 ∉ Cert.ReferenceIdeal.RefRun.opsS0_W)).symm)
  have w0d : Cert.KernelIdeal.Gen.V1 m c (Proc.devRef .tc Cert.KernelIdeal.main_arg4) = (after Cert.ReferenceIdeal.RefRun.opsS0 X0) (Proc.devRef .tc Cert.ReferenceIdeal.main_arg4) := (((Cert.KernelIdeal.Gen.V1_of m c Cert.KernelIdeal.main_arg4 (by decide)).trans ha4).trans (after_of_writes_sub Cert.ReferenceIdeal.RefRun.opsS0 X0 Cert.ReferenceIdeal.RefRun.opsS0_writes (by decide : Cert.ReferenceIdeal.main_arg4 ∉ Cert.ReferenceIdeal.RefRun.opsS0_W)).symm)
  have e1 : Cert.KernelIdeal.Gen.V2 m (Cert.KernelIdeal.Gen.outs m) c (Proc.devRef .tc Cert.KernelIdeal.main_v13_0) = (after Cert.ReferenceIdeal.RefRun.opsD0 (after Cert.ReferenceIdeal.RefRun.opsS0 X0)) (Proc.devRef .tc Cert.ReferenceIdeal.main_v25) := by
    rw [kEgo0 m c, refEgo0, i0, s0, w0a, w0b, w0c, w0d]
    exact dense0_ego _ _ _ _ _ _
  have n1 : Cert.KernelIdeal.Gen.V2 m (Cert.KernelIdeal.Gen.outs m) c (Proc.devRef .tc Cert.KernelIdeal.main_v13_1) = (after Cert.ReferenceIdeal.RefRun.opsD0 (after Cert.ReferenceIdeal.RefRun.opsS0 X0)) (Proc.devRef .tc Cert.ReferenceIdeal.main_v30) := by
    rw [kNrm0 m c, refNrm0, i0, s0, w0a, w0b, w0c, w0d]
    exact dense0_nrm _ _ _ _ _ _

  -- layer 1: the aggregated rows agree, then the two outputs of the dense stage
  have s1 : Cert.KernelIdeal.Gen.V3 m (Cert.KernelIdeal.Gen.outs m) c (Proc.devRef .tc Cert.KernelIdeal.main_v26) = (after Cert.ReferenceIdeal.RefRun.opsS1 (after Cert.ReferenceIdeal.RefRun.opsD0 (after Cert.ReferenceIdeal.RefRun.opsS0 X0))) (Proc.devRef .tc Cert.ReferenceIdeal.main_v43) :=
    stageS1 (Cert.KernelIdeal.Gen.V2 m (Cert.KernelIdeal.Gen.outs m) c) (after Cert.ReferenceIdeal.RefRun.opsD0 (after Cert.ReferenceIdeal.RefRun.opsS0 X0)) e1 ((((Cert.KernelIdeal.Gen.V2_of m (Cert.KernelIdeal.Gen.outs m) c Cert.KernelIdeal.main_arg13 (by decide)).trans (Cert.KernelIdeal.Gen.V1_of m c Cert.KernelIdeal.main_arg13 (by decide))).trans ha13).trans ((after_of_writes_sub Cert.ReferenceIdeal.RefRun.opsD0 (after Cert.ReferenceIdeal.RefRun.opsS0 X0) Cert.ReferenceIdeal.RefRun.opsD0_writes (by decide : Cert.ReferenceIdeal.main_arg13 ∉ Cert.ReferenceIdeal.RefRun.opsD0_W)).trans (after_of_writes_sub Cert.ReferenceIdeal.RefRun.opsS0 X0 Cert.ReferenceIdeal.RefRun.opsS0_writes (by decide : Cert.ReferenceIdeal.main_arg13 ∉ Cert.ReferenceIdeal.RefRun.opsS0_W))).symm) ((((Cert.KernelIdeal.Gen.V2_of m (Cert.KernelIdeal.Gen.outs m) c Cert.KernelIdeal.main_arg14 (by decide)).trans (Cert.KernelIdeal.Gen.V1_of m c Cert.KernelIdeal.main_arg14 (by decide))).trans ha14).trans ((after_of_writes_sub Cert.ReferenceIdeal.RefRun.opsD0 (after Cert.ReferenceIdeal.RefRun.opsS0 X0) Cert.ReferenceIdeal.RefRun.opsD0_writes (by decide : Cert.ReferenceIdeal.main_arg14 ∉ Cert.ReferenceIdeal.RefRun.opsD0_W)).trans (after_of_writes_sub Cert.ReferenceIdeal.RefRun.opsS0 X0 Cert.ReferenceIdeal.RefRun.opsS0_writes (by decide : Cert.ReferenceIdeal.main_arg14 ∉ Cert.ReferenceIdeal.RefRun.opsS0_W))).symm) ((((Cert.KernelIdeal.Gen.V2_of m (Cert.KernelIdeal.Gen.outs m) c Cert.KernelIdeal.main_arg15 (by decide)).trans (Cert.KernelIdeal.Gen.V1_of m c Cert.KernelIdeal.main_arg15 (by decide))).trans ha15).trans ((after_of_writes_sub Cert.ReferenceIdeal.RefRun.opsD0 (after Cert.ReferenceIdeal.RefRun.opsS0 X0) Cert.ReferenceIdeal.RefRun.opsD0_writes (by decide : Cert.ReferenceIdeal.main_arg15 ∉ Cert.ReferenceIdeal.RefRun.opsD0_W)).trans (after_of_writes_sub Cert.ReferenceIdeal.RefRun.opsS0 X0 Cert.ReferenceIdeal.RefRun.opsS0_writes (by decide : Cert.ReferenceIdeal.main_arg15 ∉ Cert.ReferenceIdeal.RefRun.opsS0_W))).symm)
  have i1 : Cert.KernelIdeal.Gen.V3 m (Cert.KernelIdeal.Gen.outs m) c (Proc.devRef .tc Cert.KernelIdeal.main_v13_0) = (after Cert.ReferenceIdeal.RefRun.opsS1 (after Cert.ReferenceIdeal.RefRun.opsD0 (after Cert.ReferenceIdeal.RefRun.opsS0 X0))) (Proc.devRef .tc Cert.ReferenceIdeal.main_v25) := (((Cert.KernelIdeal.Gen.V3_of m (Cert.KernelIdeal.Gen.outs m) c Cert.KernelIdeal.main_v13_0 (by decide))).trans (e1.trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_v25 ∉ Cert.ReferenceIdeal.RefRun.opsS1_W)).symm))
  have w1a : Cert.KernelIdeal.Gen.V3 m (Cert.KernelIdeal.Gen.outs m) c (Proc.devRef .tc Cert.KernelIdeal.main_arg5) = (after Cert.ReferenceIdeal.RefRun.opsS1 (after Cert.ReferenceIdeal.RefRun.opsD0 (after Cert.ReferenceIdeal.RefRun.opsS0 X0))) (Proc.devRef .tc Cert.ReferenceIdeal.main_arg5) := (((((Cert.KernelIdeal.Gen.V3_of m (Cert.KernelIdeal.Gen.outs m) c Cert.KernelIdeal.main_arg5 (by decide)).trans (Cert.KernelIdeal.Gen.V2_of m (Cert.KernelIdeal.Gen.outs m) c Cert.KernelIdeal.main_arg5 (by decide))).trans (Cert.KernelIdeal.Gen.V1_of m c Cert.KernelIdeal.main_arg5 (by decide))).trans ha5).trans (((after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg5 ∉ Cert.ReferenceIdeal.RefRun.opsS1_W)).trans (after_of_writes_sub Cert.ReferenceIdeal.RefRun.opsD0 (after Cert.ReferenceIdeal.RefRun.opsS0 X0) Cert.ReferenceIdeal.RefRun.opsD0_writes (by decide : Cert.ReferenceIdeal.main_arg5 ∉ Cert.ReferenceIdeal.RefRun.opsD0_W))).trans (after_of_writes_sub Cert.ReferenceIdeal.RefRun.opsS0 X0 Cert.ReferenceIdeal.RefRun.opsS0_writes (by decide : Cert.ReferenceIdeal.main_arg5 ∉ Cert.ReferenceIdeal.RefRun.opsS0_W))).symm)
  have w1b : Cert.KernelIdeal.Gen.V3 m (Cert.KernelIdeal.Gen.outs m) c (Proc.devRef .tc Cert.KernelIdeal.main_arg6) = (after Cert.ReferenceIdeal.RefRun.opsS1 (after Cert.ReferenceIdeal.RefRun.opsD0 (after Cert.ReferenceIdeal.RefRun.opsS0 X0))) (Proc.devRef .tc Cert.ReferenceIdeal.main_arg6) := (((((Cert.KernelIdeal.Gen.V3_of m (Cert.KernelIdeal.Gen.outs m) c Cert.KernelIdeal.main_arg6 (by decide)).trans (Cert.KernelIdeal.Gen.V2_of m (Cert.KernelIdeal.Gen.outs m) c Cert.KernelIdeal.main_arg6 (by decide))).trans (Cert.KernelIdeal.Gen.V1_of m c Cert.KernelIdeal.main_arg6 (by decide))).trans ha6).trans (((after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg6 ∉ Cert.ReferenceIdeal.RefRun.opsS1_W)).trans (after_of_writes_sub Cert.ReferenceIdeal.RefRun.opsD0 (after Cert.ReferenceIdeal.RefRun.opsS0 X0) Cert.ReferenceIdeal.RefRun.opsD0_writes (by decide : Cert.ReferenceIdeal.main_arg6 ∉ Cert.ReferenceIdeal.RefRun.opsD0_W))).trans (after_of_writes_sub Cert.ReferenceIdeal.RefRun.opsS0 X0 Cert.ReferenceIdeal.RefRun.opsS0_writes (by decide : Cert.ReferenceIdeal.main_arg6 ∉ Cert.ReferenceIdeal.RefRun.opsS0_W))).symm)
  have w1c : Cert.KernelIdeal.Gen.V3 m (Cert.KernelIdeal.Gen.outs m) c (Proc.devRef .tc Cert.KernelIdeal.main_arg7) = (after Cert.ReferenceIdeal.RefRun.opsS1 (after Cert.ReferenceIdeal.RefRun.opsD0 (after Cert.ReferenceIdeal.RefRun.opsS0 X0))) (Proc.devRef .tc Cert.ReferenceIdeal.main_arg7) := (((((Cert.KernelIdeal.Gen.V3_of m (Cert.KernelIdeal.Gen.outs m) c Cert.KernelIdeal.main_arg7 (by decide)).trans (Cert.KernelIdeal.Gen.V2_of m (Cert.KernelIdeal.Gen.outs m) c Cert.KernelIdeal.main_arg7 (by decide))).trans (Cert.KernelIdeal.Gen.V1_of m c Cert.KernelIdeal.main_arg7 (by decide))).trans ha7).trans (((after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg7 ∉ Cert.ReferenceIdeal.RefRun.opsS1_W)).trans (after_of_writes_sub Cert.ReferenceIdeal.RefRun.opsD0 (after Cert.ReferenceIdeal.RefRun.opsS0 X0) Cert.ReferenceIdeal.RefRun.opsD0_writes (by decide : Cert.ReferenceIdeal.main_arg7 ∉ Cert.ReferenceIdeal.RefRun.opsD0_W))).trans (after_of_writes_sub Cert.ReferenceIdeal.RefRun.opsS0 X0 Cert.ReferenceIdeal.RefRun.opsS0_writes (by decide : Cert.ReferenceIdeal.main_arg7 ∉ Cert.ReferenceIdeal.RefRun.opsS0_W))).symm)
  have w1d : Cert.KernelIdeal.Gen.V3 m (Cert.KernelIdeal.Gen.outs m) c (Proc.devRef .tc Cert.KernelIdeal.main_arg8) = (after Cert.ReferenceIdeal.RefRun.opsS1 (after Cert.ReferenceIdeal.RefRun.opsD0 (after Cert.ReferenceIdeal.RefRun.opsS0 X0))) (Proc.devRef .tc Cert.ReferenceIdeal.main_arg8) := (((((Cert.KernelIdeal.Gen.V3_of m (Cert.KernelIdeal.Gen.outs m) c Cert.KernelIdeal.main_arg8 (by decide)).trans (Cert.KernelIdeal.Gen.V2_of m (Cert.KernelIdeal.Gen.outs m) c Cert.KernelIdeal.main_arg8 (by decide))).trans (Cert.KernelIdeal.Gen.V1_of m c Cert.KernelIdeal.main_arg8 (by decide))).trans ha8).trans (((after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg8 ∉ Cert.ReferenceIdeal.RefRun.opsS1_W)).trans (after_of_writes_sub Cert.ReferenceIdeal.RefRun.opsD0 (after Cert.ReferenceIdeal.RefRun.opsS0 X0) Cert.ReferenceIdeal.RefRun.opsD0_writes (by decide : Cert.ReferenceIdeal.main_arg8 ∉ Cert.ReferenceIdeal.RefRun.opsD0_W))).trans (after_of_writes_sub Cert.ReferenceIdeal.RefRun.opsS0 X0 Cert.ReferenceIdeal.RefRun.opsS0_writes (by decide : Cert.ReferenceIdeal.main_arg8 ∉ Cert.ReferenceIdeal.RefRun.opsS0_W))).symm)
  have e2 : Cert.KernelIdeal.Gen.V4 m (Cert.KernelIdeal.Gen.outs m) c (Proc.devRef .tc Cert.KernelIdeal.main_v27_0) = (after Cert.ReferenceIdeal.RefRun.opsD1 (after Cert.ReferenceIdeal.RefRun.opsS1 (after Cert.ReferenceIdeal.RefRun.opsD0 (after Cert.ReferenceIdeal.RefRun.opsS0 X0)))) (Proc.devRef .tc Cert.ReferenceIdeal.main_v56) := by
    rw [kEgo1 m c, refEgo1, i1, s1, w1a, w1b, w1c, w1d]
    exact dense1_ego _ _ _ _ _ _
  have n2 : Cert.KernelIdeal.Gen.V4 m (Cert.KernelIdeal.Gen.outs m) c (Proc.devRef .tc Cert.KernelIdeal.main_v27_1) = (after Cert.ReferenceIdeal.RefRun.opsD1 (after Cert.ReferenceIdeal.RefRun.opsS1 (after Cert.ReferenceIdeal.RefRun.opsD0 (after Cert.ReferenceIdeal.RefRun.opsS0 X0)))) (Proc.devRef .tc Cert.ReferenceIdeal.main_v61) := by
    rw [kNrm1 m c, refNrm1, i1, s1, w1a, w1b, w1c, w1d]
    exact dense1_nrm _ _ _ _ _ _

  -- layer 2: the aggregated rows agree, then the two outputs of the dense stage
  have s2 : Cert.KernelIdeal.Gen.V5 m (Cert.KernelIdeal.Gen.outs m) c (Proc.devRef .tc Cert.KernelIdeal.main_v40) = (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) (Proc.devRef .tc Cert.ReferenceIdeal.main_v74) :=
    stageS2 (Cert.KernelIdeal.Gen.V4 m (Cert.KernelIdeal.Gen.outs m) c) (after Cert.ReferenceIdeal.RefRun.opsD1 (after Cert.ReferenceIdeal.RefRun.opsS1 (after Cert.ReferenceIdeal.RefRun.opsD0 (after Cert.ReferenceIdeal.RefRun.opsS0 X0)))) e2 ((((((Cert.KernelIdeal.Gen.V4_of m (Cert.KernelIdeal.Gen.outs m) c Cert.KernelIdeal.main_arg13 (by decide)).trans (Cert.KernelIdeal.Gen.V3_of m (Cert.KernelIdeal.Gen.outs m) c Cert.KernelIdeal.main_arg13 (by decide))).trans (Cert.KernelIdeal.Gen.V2_of m (Cert.KernelIdeal.Gen.outs m) c Cert.KernelIdeal.main_arg13 (by decide))).trans (Cert.KernelIdeal.Gen.V1_of m c Cert.KernelIdeal.main_arg13 (by decide))).trans ha13).trans ((((after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg13 ∉ Cert.ReferenceIdeal.RefRun.opsD1_W)).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg13 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg13 ∉ Cert.ReferenceIdeal.RefRun.opsD0_W))).trans (after_of_writes_sub Cert.ReferenceIdeal.RefRun.opsS0 X0 Cert.ReferenceIdeal.RefRun.opsS0_writes (by decide : Cert.ReferenceIdeal.main_arg13 ∉ Cert.ReferenceIdeal.RefRun.opsS0_W))).symm) ((((((Cert.KernelIdeal.Gen.V4_of m (Cert.KernelIdeal.Gen.outs m) c Cert.KernelIdeal.main_arg14 (by decide)).trans (Cert.KernelIdeal.Gen.V3_of m (Cert.KernelIdeal.Gen.outs m) c Cert.KernelIdeal.main_arg14 (by decide))).trans (Cert.KernelIdeal.Gen.V2_of m (Cert.KernelIdeal.Gen.outs m) c Cert.KernelIdeal.main_arg14 (by decide))).trans (Cert.KernelIdeal.Gen.V1_of m c Cert.KernelIdeal.main_arg14 (by decide))).trans ha14).trans ((((after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg14 ∉ Cert.ReferenceIdeal.RefRun.opsD1_W)).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg14 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg14 ∉ Cert.ReferenceIdeal.RefRun.opsD0_W))).trans (after_of_writes_sub Cert.ReferenceIdeal.RefRun.opsS0 X0 Cert.ReferenceIdeal.RefRun.opsS0_writes (by decide : Cert.ReferenceIdeal.main_arg14 ∉ Cert.ReferenceIdeal.RefRun.opsS0_W))).symm) ((((((Cert.KernelIdeal.Gen.V4_of m (Cert.KernelIdeal.Gen.outs m) c Cert.KernelIdeal.main_arg15 (by decide)).trans (Cert.KernelIdeal.Gen.V3_of m (Cert.KernelIdeal.Gen.outs m) c Cert.KernelIdeal.main_arg15 (by decide))).trans (Cert.KernelIdeal.Gen.V2_of m (Cert.KernelIdeal.Gen.outs m) c Cert.KernelIdeal.main_arg15 (by decide))).trans (Cert.KernelIdeal.Gen.V1_of m c Cert.KernelIdeal.main_arg15 (by decide))).trans ha15).trans ((((after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg15 ∉ Cert.ReferenceIdeal.RefRun.opsD1_W)).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg15 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg15 ∉ Cert.ReferenceIdeal.RefRun.opsD0_W))).trans (after_of_writes_sub Cert.ReferenceIdeal.RefRun.opsS0 X0 Cert.ReferenceIdeal.RefRun.opsS0_writes (by decide : Cert.ReferenceIdeal.main_arg15 ∉ Cert.ReferenceIdeal.RefRun.opsS0_W))).symm)
  have i2 : Cert.KernelIdeal.Gen.V5 m (Cert.KernelIdeal.Gen.outs m) c (Proc.devRef .tc Cert.KernelIdeal.main_v27_0) = (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) (Proc.devRef .tc Cert.ReferenceIdeal.main_v56) := (((Cert.KernelIdeal.Gen.V5_of m (Cert.KernelIdeal.Gen.outs m) c Cert.KernelIdeal.main_v27_0 (by decide))).trans (e2.trans (after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_v56 ∉ Cert.ReferenceIdeal.RefRun.opsS2_W)).symm))
  have w2a : Cert.KernelIdeal.Gen.V5 m (Cert.KernelIdeal.Gen.outs m) c (Proc.devRef .tc Cert.KernelIdeal.main_arg9) = (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) (Proc.devRef .tc Cert.ReferenceIdeal.main_arg9) := (((((((Cert.KernelIdeal.Gen.V5_of m (Cert.KernelIdeal.Gen.outs m) c Cert.KernelIdeal.main_arg9 (by decide)).trans (Cert.KernelIdeal.Gen.V4_of m (Cert.KernelIdeal.Gen.outs m) c Cert.KernelIdeal.main_arg9 (by decide))).trans (Cert.KernelIdeal.Gen.V3_of m (Cert.KernelIdeal.Gen.outs m) c Cert.KernelIdeal.main_arg9 (by decide))).trans (Cert.KernelIdeal.Gen.V2_of m (Cert.KernelIdeal.Gen.outs m) c Cert.KernelIdeal.main_arg9 (by decide))).trans (Cert.KernelIdeal.Gen.V1_of m c Cert.KernelIdeal.main_arg9 (by decide))).trans ha9).trans (((((after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_arg9 ∉ Cert.ReferenceIdeal.RefRun.opsS2_W)).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg9 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg9 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg9 ∉ Cert.ReferenceIdeal.RefRun.opsD0_W))).trans (after_of_writes_sub Cert.ReferenceIdeal.RefRun.opsS0 X0 Cert.ReferenceIdeal.RefRun.opsS0_writes (by decide : Cert.ReferenceIdeal.main_arg9 ∉ Cert.ReferenceIdeal.RefRun.opsS0_W))).symm)
  have w2b : Cert.KernelIdeal.Gen.V5 m (Cert.KernelIdeal.Gen.outs m) c (Proc.devRef .tc Cert.KernelIdeal.main_arg10) = (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) (Proc.devRef .tc Cert.ReferenceIdeal.main_arg10) := (((((((Cert.KernelIdeal.Gen.V5_of m (Cert.KernelIdeal.Gen.outs m) c Cert.KernelIdeal.main_arg10 (by decide)).trans (Cert.KernelIdeal.Gen.V4_of m (Cert.KernelIdeal.Gen.outs m) c Cert.KernelIdeal.main_arg10 (by decide))).trans (Cert.KernelIdeal.Gen.V3_of m (Cert.KernelIdeal.Gen.outs m) c Cert.KernelIdeal.main_arg10 (by decide))).trans (Cert.KernelIdeal.Gen.V2_of m (Cert.KernelIdeal.Gen.outs m) c Cert.KernelIdeal.main_arg10 (by decide))).trans (Cert.KernelIdeal.Gen.V1_of m c Cert.KernelIdeal.main_arg10 (by decide))).trans ha10).trans (((((after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_arg10 ∉ Cert.ReferenceIdeal.RefRun.opsS2_W)).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg10 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg10 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg10 ∉ Cert.ReferenceIdeal.RefRun.opsD0_W))).trans (after_of_writes_sub Cert.ReferenceIdeal.RefRun.opsS0 X0 Cert.ReferenceIdeal.RefRun.opsS0_writes (by decide : Cert.ReferenceIdeal.main_arg10 ∉ Cert.ReferenceIdeal.RefRun.opsS0_W))).symm)
  have w2c : Cert.KernelIdeal.Gen.V5 m (Cert.KernelIdeal.Gen.outs m) c (Proc.devRef .tc Cert.KernelIdeal.main_arg11) = (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) (Proc.devRef .tc Cert.ReferenceIdeal.main_arg11) := (((((((Cert.KernelIdeal.Gen.V5_of m (Cert.KernelIdeal.Gen.outs m) c Cert.KernelIdeal.main_arg11 (by decide)).trans (Cert.KernelIdeal.Gen.V4_of m (Cert.KernelIdeal.Gen.outs m) c Cert.KernelIdeal.main_arg11 (by decide))).trans (Cert.KernelIdeal.Gen.V3_of m (Cert.KernelIdeal.Gen.outs m) c Cert.KernelIdeal.main_arg11 (by decide))).trans (Cert.KernelIdeal.Gen.V2_of m (Cert.KernelIdeal.Gen.outs m) c Cert.KernelIdeal.main_arg11 (by decide))).trans (Cert.KernelIdeal.Gen.V1_of m c Cert.KernelIdeal.main_arg11 (by decide))).trans ha11).trans (((((after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_arg11 ∉ Cert.ReferenceIdeal.RefRun.opsS2_W)).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg11 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg11 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg11 ∉ Cert.ReferenceIdeal.RefRun.opsD0_W))).trans (after_of_writes_sub Cert.ReferenceIdeal.RefRun.opsS0 X0 Cert.ReferenceIdeal.RefRun.opsS0_writes (by decide : Cert.ReferenceIdeal.main_arg11 ∉ Cert.ReferenceIdeal.RefRun.opsS0_W))).symm)
  have w2d : Cert.KernelIdeal.Gen.V5 m (Cert.KernelIdeal.Gen.outs m) c (Proc.devRef .tc Cert.KernelIdeal.main_arg12) = (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) (Proc.devRef .tc Cert.ReferenceIdeal.main_arg12) := (((((((Cert.KernelIdeal.Gen.V5_of m (Cert.KernelIdeal.Gen.outs m) c Cert.KernelIdeal.main_arg12 (by decide)).trans (Cert.KernelIdeal.Gen.V4_of m (Cert.KernelIdeal.Gen.outs m) c Cert.KernelIdeal.main_arg12 (by decide))).trans (Cert.KernelIdeal.Gen.V3_of m (Cert.KernelIdeal.Gen.outs m) c Cert.KernelIdeal.main_arg12 (by decide))).trans (Cert.KernelIdeal.Gen.V2_of m (Cert.KernelIdeal.Gen.outs m) c Cert.KernelIdeal.main_arg12 (by decide))).trans (Cert.KernelIdeal.Gen.V1_of m c Cert.KernelIdeal.main_arg12 (by decide))).trans ha12).trans (((((after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_arg12 ∉ Cert.ReferenceIdeal.RefRun.opsS2_W)).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg12 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg12 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg12 ∉ Cert.ReferenceIdeal.RefRun.opsD0_W))).trans (after_of_writes_sub Cert.ReferenceIdeal.RefRun.opsS0 X0 Cert.ReferenceIdeal.RefRun.opsS0_writes (by decide : Cert.ReferenceIdeal.main_arg12 ∉ Cert.ReferenceIdeal.RefRun.opsS0_W))).symm)
  have e3 : Cert.KernelIdeal.Gen.V6 m (Cert.KernelIdeal.Gen.outs m) c (Proc.devRef .tc Cert.KernelIdeal.main_v41_0) = (after Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))))) (Proc.devRef .tc Cert.ReferenceIdeal.main_v87) := by
    rw [kEgo2 m c, refEgo2, i2, s2, w2a, w2b, w2c, w2d]
    exact dense2_ego _ _ _ _ _ _
  have n3 : Cert.KernelIdeal.Gen.V6 m (Cert.KernelIdeal.Gen.outs m) c (Proc.devRef .tc Cert.KernelIdeal.main_v41_1) = (after Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))))) (Proc.devRef .tc Cert.ReferenceIdeal.main_v92) := by
    rw [kNrm2 m c, refNrm2, i2, s2, w2a, w2b, w2c, w2d]
    exact dense2_nrm _ _ _ _ _ _
  -- the tail
  symm
  exact stageT (Cert.KernelIdeal.Gen.V6 m (Cert.KernelIdeal.Gen.outs m) c) (after Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))))
    ((((((((Cert.KernelIdeal.Gen.V6_of m (Cert.KernelIdeal.Gen.outs m) c Cert.KernelIdeal.main_arg0 (by decide)).trans (Cert.KernelIdeal.Gen.V5_of m (Cert.KernelIdeal.Gen.outs m) c Cert.KernelIdeal.main_arg0 (by decide))).trans (Cert.KernelIdeal.Gen.V4_of m (Cert.KernelIdeal.Gen.outs m) c Cert.KernelIdeal.main_arg0 (by decide))).trans (Cert.KernelIdeal.Gen.V3_of m (Cert.KernelIdeal.Gen.outs m) c Cert.KernelIdeal.main_arg0 (by decide))).trans (Cert.KernelIdeal.Gen.V2_of m (Cert.KernelIdeal.Gen.outs m) c Cert.KernelIdeal.main_arg0 (by decide))).trans (Cert.KernelIdeal.Gen.V1_of m c Cert.KernelIdeal.main_arg0 (by decide))).trans ha0).trans ((((((after_of_writes_sub Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) Cert.ReferenceIdeal.RefRun.opsD2_writes (by decide : Cert.ReferenceIdeal.main_arg0 ∉ Cert.ReferenceIdeal.RefRun.opsD2_W)).trans (after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_arg0 ∉ Cert.ReferenceIdeal.RefRun.opsS2_W))).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg0 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg0 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg0 ∉ Cert.ReferenceIdeal.RefRun.opsD0_W))).trans (after_of_writes_sub Cert.ReferenceIdeal.RefRun.opsS0 X0 Cert.ReferenceIdeal.RefRun.opsS0_writes (by decide : Cert.ReferenceIdeal.main_arg0 ∉ Cert.ReferenceIdeal.RefRun.opsS0_W))).symm)
    ((((((Cert.KernelIdeal.Gen.V6_of m (Cert.KernelIdeal.Gen.outs m) c Cert.KernelIdeal.main_v13_1 (by decide)).trans (Cert.KernelIdeal.Gen.V5_of m (Cert.KernelIdeal.Gen.outs m) c Cert.KernelIdeal.main_v13_1 (by decide))).trans (Cert.KernelIdeal.Gen.V4_of m (Cert.KernelIdeal.Gen.outs m) c Cert.KernelIdeal.main_v13_1 (by decide))).trans (Cert.KernelIdeal.Gen.V3_of m (Cert.KernelIdeal.Gen.outs m) c Cert.KernelIdeal.main_v13_1 (by decide)))).trans (n1.trans ((((after_of_writes_sub Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) Cert.ReferenceIdeal.RefRun.opsD2_writes (by decide : Cert.ReferenceIdeal.main_v30 ∉ Cert.ReferenceIdeal.RefRun.opsD2_W)).trans (after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_v30 ∉ Cert.ReferenceIdeal.RefRun.opsS2_W))).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_v30 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_v30 ∉ Cert.ReferenceIdeal.RefRun.opsS1_W))).symm))
    ((((Cert.KernelIdeal.Gen.V6_of m (Cert.KernelIdeal.Gen.outs m) c Cert.KernelIdeal.main_v27_1 (by decide)).trans (Cert.KernelIdeal.Gen.V5_of m (Cert.KernelIdeal.Gen.outs m) c Cert.KernelIdeal.main_v27_1 (by decide)))).trans (n2.trans ((after_of_writes_sub Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) Cert.ReferenceIdeal.RefRun.opsD2_writes (by decide : Cert.ReferenceIdeal.main_v61 ∉ Cert.ReferenceIdeal.RefRun.opsD2_W)).trans (after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_v61 ∉ Cert.ReferenceIdeal.RefRun.opsS2_W))).symm))
    n3
    ((((((((Cert.KernelIdeal.Gen.V6_of m (Cert.KernelIdeal.Gen.outs m) c Cert.KernelIdeal.main_arg16 (by decide)).trans (Cert.KernelIdeal.Gen.V5_of m (Cert.KernelIdeal.Gen.outs m) c Cert.KernelIdeal.main_arg16 (by decide))).trans (Cert.KernelIdeal.Gen.V4_of m (Cert.KernelIdeal.Gen.outs m) c Cert.KernelIdeal.main_arg16 (by decide))).trans (Cert.KernelIdeal.Gen.V3_of m (Cert.KernelIdeal.Gen.outs m) c Cert.KernelIdeal.main_arg16 (by decide))).trans (Cert.KernelIdeal.Gen.V2_of m (Cert.KernelIdeal.Gen.outs m) c Cert.KernelIdeal.main_arg16 (by decide))).trans (Cert.KernelIdeal.Gen.V1_of m c Cert.KernelIdeal.main_arg16 (by decide))).trans ha16).trans ((((((after_of_writes_sub Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) Cert.ReferenceIdeal.RefRun.opsD2_writes (by decide : Cert.ReferenceIdeal.main_arg16 ∉ Cert.ReferenceIdeal.RefRun.opsD2_W)).trans (after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_arg16 ∉ Cert.ReferenceIdeal.RefRun.opsS2_W))).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg16 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg16 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg16 ∉ Cert.ReferenceIdeal.RefRun.opsD0_W))).trans (after_of_writes_sub Cert.ReferenceIdeal.RefRun.opsS0 X0 Cert.ReferenceIdeal.RefRun.opsS0_writes (by decide : Cert.ReferenceIdeal.main_arg16 ∉ Cert.ReferenceIdeal.RefRun.opsS0_W))).symm)
    ((((((((Cert.KernelIdeal.Gen.V6_of m (Cert.KernelIdeal.Gen.outs m) c Cert.KernelIdeal.main_arg17 (by decide)).trans (Cert.KernelIdeal.Gen.V5_of m (Cert.KernelIdeal.Gen.outs m) c Cert.KernelIdeal.main_arg17 (by decide))).trans (Cert.KernelIdeal.Gen.V4_of m (Cert.KernelIdeal.Gen.outs m) c Cert.KernelIdeal.main_arg17 (by decide))).trans (Cert.KernelIdeal.Gen.V3_of m (Cert.KernelIdeal.Gen.outs m) c Cert.KernelIdeal.main_arg17 (by decide))).trans (Cert.KernelIdeal.Gen.V2_of m (Cert.KernelIdeal.Gen.outs m) c Cert.KernelIdeal.main_arg17 (by decide))).trans (Cert.KernelIdeal.Gen.V1_of m c Cert.KernelIdeal.main_arg17 (by decide))).trans ha17).trans ((((((after_of_writes_sub Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) Cert.ReferenceIdeal.RefRun.opsD2_writes (by decide : Cert.ReferenceIdeal.main_arg17 ∉ Cert.ReferenceIdeal.RefRun.opsD2_W)).trans (after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_arg17 ∉ Cert.ReferenceIdeal.RefRun.opsS2_W))).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg17 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg17 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg17 ∉ Cert.ReferenceIdeal.RefRun.opsD0_W))).trans (after_of_writes_sub Cert.ReferenceIdeal.RefRun.opsS0 X0 Cert.ReferenceIdeal.RefRun.opsS0_writes (by decide : Cert.ReferenceIdeal.main_arg17 ∉ Cert.ReferenceIdeal.RefRun.opsS0_W))).symm)
    ((((((((Cert.KernelIdeal.Gen.V6_of m (Cert.KernelIdeal.Gen.outs m) c Cert.KernelIdeal.main_arg18 (by decide)).trans (Cert.KernelIdeal.Gen.V5_of m (Cert.KernelIdeal.Gen.outs m) c Cert.KernelIdeal.main_arg18 (by decide))).trans (Cert.KernelIdeal.Gen.V4_of m (Cert.KernelIdeal.Gen.outs m) c Cert.KernelIdeal.main_arg18 (by decide))).trans (Cert.KernelIdeal.Gen.V3_of m (Cert.KernelIdeal.Gen.outs m) c Cert.KernelIdeal.main_arg18 (by decide))).trans (Cert.KernelIdeal.Gen.V2_of m (Cert.KernelIdeal.Gen.outs m) c Cert.KernelIdeal.main_arg18 (by decide))).trans (Cert.KernelIdeal.Gen.V1_of m c Cert.KernelIdeal.main_arg18 (by decide))).trans ha18).trans ((((((after_of_writes_sub Cert.ReferenceIdeal.RefRun.opsD2 (after Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0))))) Cert.ReferenceIdeal.RefRun.opsD2_writes (by decide : Cert.ReferenceIdeal.main_arg18 ∉ Cert.ReferenceIdeal.RefRun.opsD2_W)).trans (after_of_writes_sub Cert.ReferenceIdeal.RefRun.opsS2 (after Cert.ReferenceIdeal.RefRun.opsD1 (after Cert.ReferenceIdeal.RefRun.opsS1 (after Cert.ReferenceIdeal.RefRun.opsD0 (after Cert.ReferenceIdeal.RefRun.opsS0 X0)))) Cert.ReferenceIdeal.RefRun.opsS2_writes (by decide : Cert.ReferenceIdeal.main_arg18 ∉ Cert.ReferenceIdeal.RefRun.opsS2_W))).trans (after_of_writes_sub Cert.ReferenceIdeal.RefRun.opsD1 (after Cert.ReferenceIdeal.RefRun.opsS1 (after Cert.ReferenceIdeal.RefRun.opsD0 (after Cert.ReferenceIdeal.RefRun.opsS0 X0))) Cert.ReferenceIdeal.RefRun.opsD1_writes (by decide : Cert.ReferenceIdeal.main_arg18 ∉ Cert.ReferenceIdeal.RefRun.opsD1_W))).trans (after_of_writes_sub Cert.ReferenceIdeal.RefRun.opsS1 (after Cert.ReferenceIdeal.RefRun.opsD0 (after Cert.ReferenceIdeal.RefRun.opsS0 X0)) Cert.ReferenceIdeal.RefRun.opsS1_writes (by decide : Cert.ReferenceIdeal.main_arg18 ∉ Cert.ReferenceIdeal.RefRun.opsS1_W))).trans (after_of_writes_sub Cert.ReferenceIdeal.RefRun.opsD0 (after Cert.ReferenceIdeal.RefRun.opsS0 X0) Cert.ReferenceIdeal.RefRun.opsD0_writes (by decide : Cert.ReferenceIdeal.main_arg18 ∉ Cert.ReferenceIdeal.RefRun.opsD0_W))).trans (after_of_writes_sub Cert.ReferenceIdeal.RefRun.opsS0 X0 Cert.ReferenceIdeal.RefRun.opsS0_writes (by decide : Cert.ReferenceIdeal.main_arg18 ∉ Cert.ReferenceIdeal.RefRun.opsS0_W))).symm)

end Cert.Bridge

end
-- ==== Proof.lean ====
/-
  The certificate's five claims. The kernel's program is three kernel regions among host operations; read word by word or over
  the extended reals it runs to the end and leaves its nineteen argument arrays untouched, because every region only reads its
  six input arrays and writes two arrays of its own, and no host operation writes an argument. The reference is host operations
  only. The idealization rewrote nothing, so there is nothing to preserve. Over the extended reals both programs end with the
  same scalar: their sparse stages and their loss tail are the same operations, and the dense stage of each layer is the same
  row-wise function whether computed block by block in a kernel or on the whole arrays by the host.
-/
import proofs.«136498_j73031623901810_1_alg».proof.Defs
import proofs.«136498_j73031623901810_1_alg».proof.Proof.Gen.Kernel
import proofs.«136498_j73031623901810_1_alg».proof.Proof.Gen.KernelIdeal
import proofs.«136498_j73031623901810_1_alg».proof.Proof.Gen.ReferenceIdeal
import proofs.«136498_j73031623901810_1_alg».proof.Proof.Gen.Pre_finite_inputs
import proofs.«136498_j73031623901810_1_alg».proof.Proof.KB.Run
import proofs.«136498_j73031623901810_1_alg».proof.Proof.KI.Run
import proofs.«136498_j73031623901810_1_alg».proof.Proof.RefRun
import proofs.«136498_j73031623901810_1_alg».proof.Proof.Bridge
import Idealize.ShloMosaic.Adequacy
import Idealize.ShloMosaic.Init

noncomputable section

namespace Cert.Proof

open Idealize.ShloMosaic Idealize.ShloMosaic.TcCoe Idealize.SL.Sem

/-- The program as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations none of which writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.RefRun.kept_main_arg0 (StableHlo.launchContents m c)),
      (h c Cert.ReferenceIdeal.main_arg1).trans (Cert.ReferenceIdeal.RefRun.kept_main_arg1 (StableHlo.launchContents m c)),
      (h c Cert.ReferenceIdeal.main_arg2).trans (Cert.ReferenceIdeal.RefRun.kept_main_arg2 (StableHlo.launchContents m c)),
      (h c Cert.ReferenceIdeal.main_arg3).trans (Cert.ReferenceIdeal.RefRun.kept_main_arg3 (StableHlo.launchContents m c)),
      (h c Cert.ReferenceIdeal.main_arg4).trans (Cert.ReferenceIdeal.RefRun.kept_main_arg4 (StableHlo.launchContents m c)),
      (h c Cert.ReferenceIdeal.main_arg5).trans (Cert.ReferenceIdeal.RefRun.kept_main_arg5 (StableHlo.launchContents m c)),
      (h c Cert.ReferenceIdeal.main_arg6).trans (Cert.ReferenceIdeal.RefRun.kept_main_arg6 (StableHlo.launchContents m c)),
      (h c Cert.ReferenceIdeal.main_arg7).trans (Cert.ReferenceIdeal.RefRun.kept_main_arg7 (StableHlo.launchContents m c)),
      (h c Cert.ReferenceIdeal.main_arg8).trans (Cert.ReferenceIdeal.RefRun.kept_main_arg8 (StableHlo.launchContents m c)),
      (h c Cert.ReferenceIdeal.main_arg9).trans (Cert.ReferenceIdeal.RefRun.kept_main_arg9 (StableHlo.launchContents m c)),
      (h c Cert.ReferenceIdeal.main_arg10).trans (Cert.ReferenceIdeal.RefRun.kept_main_arg10 (StableHlo.launchContents m c)),
      (h c Cert.ReferenceIdeal.main_arg11).trans (Cert.ReferenceIdeal.RefRun.kept_main_arg11 (StableHlo.launchContents m c)),
      (h c Cert.ReferenceIdeal.main_arg12).trans (Cert.ReferenceIdeal.RefRun.kept_main_arg12 (StableHlo.launchContents m c)),
      (h c Cert.ReferenceIdeal.main_arg13).trans (Cert.ReferenceIdeal.RefRun.kept_main_arg13 (StableHlo.launchContents m c)),
      (h c Cert.ReferenceIdeal.main_arg14).trans (Cert.ReferenceIdeal.RefRun.kept_main_arg14 (StableHlo.launchContents m c)),
      (h c Cert.ReferenceIdeal.main_arg15).trans (Cert.ReferenceIdeal.RefRun.kept_main_arg15 (StableHlo.launchContents m c)),
      (h c Cert.ReferenceIdeal.main_arg16).trans (Cert.ReferenceIdeal.RefRun.kept_main_arg16 (StableHlo.launchContents m c)),
      (h c Cert.ReferenceIdeal.main_arg17).trans (Cert.ReferenceIdeal.RefRun.kept_main_arg17 (StableHlo.launchContents m c)),
      (h c Cert.ReferenceIdeal.main_arg18).trans (Cert.ReferenceIdeal.RefRun.kept_main_arg18 (StableHlo.launchContents m c))⟩)
    (Cert.ReferenceIdeal.RefRun.run_all (F := Ideal) m ρ)

/-- The idealization rewrote no operation. -/
theorem preserves : Cert.preserves_Kernel_KernelIdeal := trivial

/-- Both programs, from memories that agree on the arguments, end with the same result over the extended reals. -/
theorem algebraic : Cert.algebraic_KernelIdeal_ReferenceIdeal := by
  intro m ρ m' ρ' _ hagree
  refine ⟨fun c => Cert.KernelIdeal.Gen.V9 m (Cert.KernelIdeal.Gen.outs m) c (Proc.devRef .tc Cert.KernelIdeal.main_v94), Cert.KernelIdeal.Gen.run_val (F := Ideal) m ρ, ?_⟩
  refine (θ_run Cert.ReferenceIdeal.defs _ _).mono (fun r h c => ?_) (Cert.ReferenceIdeal.RefRun.run_all (F := Ideal) m' ρ')
  obtain ⟨a0, a1, a2, a3, a4, a5, a6, a7, a8, a9, a10, a11, a12, a13, a14, a15, a16, a17, a18⟩ := hagree c
  exact ⟨(h c Cert.ReferenceIdeal.main_v145).trans (Cert.Bridge.result_eq m c (StableHlo.launchContents m' c)
      a0.symm a1.symm a2.symm a3.symm a4.symm a5.symm a6.symm a7.symm a8.symm a9.symm a10.symm a11.symm a12.symm a13.symm a14.symm a15.symm a16.symm a17.symm a18.symm),
      (h c Cert.ReferenceIdeal.main_arg0).trans (Cert.ReferenceIdeal.RefRun.kept_main_arg0 (StableHlo.launchContents m' c)),
      (h c Cert.ReferenceIdeal.main_arg1).trans (Cert.ReferenceIdeal.RefRun.kept_main_arg1 (StableHlo.launchContents m' c)),
      (h c Cert.ReferenceIdeal.main_arg2).trans (Cert.ReferenceIdeal.RefRun.kept_main_arg2 (StableHlo.launchContents m' c)),
      (h c Cert.ReferenceIdeal.main_arg3).trans (Cert.ReferenceIdeal.RefRun.kept_main_arg3 (StableHlo.launchContents m' c)),
      (h c Cert.ReferenceIdeal.main_arg4).trans (Cert.ReferenceIdeal.RefRun.kept_main_arg4 (StableHlo.launchContents m' c)),
      (h c Cert.ReferenceIdeal.main_arg5).trans (Cert.ReferenceIdeal.RefRun.kept_main_arg5 (StableHlo.launchContents m' c)),
      (h c Cert.ReferenceIdeal.main_arg6).trans (Cert.ReferenceIdeal.RefRun.kept_main_arg6 (StableHlo.launchContents m' c)),
      (h c Cert.ReferenceIdeal.main_arg7).trans (Cert.ReferenceIdeal.RefRun.kept_main_arg7 (StableHlo.launchContents m' c)),
      (h c Cert.ReferenceIdeal.main_arg8).trans (Cert.ReferenceIdeal.RefRun.kept_main_arg8 (StableHlo.launchContents m' c)),
      (h c Cert.ReferenceIdeal.main_arg9).trans (Cert.ReferenceIdeal.RefRun.kept_main_arg9 (StableHlo.launchContents m' c)),
      (h c Cert.ReferenceIdeal.main_arg10).trans (Cert.ReferenceIdeal.RefRun.kept_main_arg10 (StableHlo.launchContents m' c)),
      (h c Cert.ReferenceIdeal.main_arg11).trans (Cert.ReferenceIdeal.RefRun.kept_main_arg11 (StableHlo.launchContents m' c)),
      (h c Cert.ReferenceIdeal.main_arg12).trans (Cert.ReferenceIdeal.RefRun.kept_main_arg12 (StableHlo.launchContents m' c)),
      (h c Cert.ReferenceIdeal.main_arg13).trans (Cert.ReferenceIdeal.RefRun.kept_main_arg13 (StableHlo.launchContents m' c)),
      (h c Cert.ReferenceIdeal.main_arg14).trans (Cert.ReferenceIdeal.RefRun.kept_main_arg14 (StableHlo.launchContents m' c)),
      (h c Cert.ReferenceIdeal.main_arg15).trans (Cert.ReferenceIdeal.RefRun.kept_main_arg15 (StableHlo.launchContents m' c)),
      (h c Cert.ReferenceIdeal.main_arg16).trans (Cert.ReferenceIdeal.RefRun.kept_main_arg16 (StableHlo.launchContents m' c)),
      (h c Cert.ReferenceIdeal.main_arg17).trans (Cert.ReferenceIdeal.RefRun.kept_main_arg17 (StableHlo.launchContents m' c)),
      (h c Cert.ReferenceIdeal.main_arg18).trans (Cert.ReferenceIdeal.RefRun.kept_main_arg18 (StableHlo.launchContents m' c))⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
